-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x128 : Shape := ⟨3, ![8, 2048, 128]⟩
abbrev S128x128 : Shape := ⟨2, ![128, 128]⟩
abbrev S_ : Shape := ⟨0, ![]⟩

class Facts : Prop where
  bcast_S_S8x2048x128 : S_.BroadcastsInDim S8x2048x128 (![] : Fin 0 → Fin S8x2048x128.rank)
  reducesTo_S8x2048x128_S_d0_1_2 : S8x2048x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S8x2048x128 .f32) (main_arg1 : FVec F S128x128 .f32) : IVec S_ 1 :=
  let main_v0 : FVec F S8x2048x128 .f32 := Host.absf main_arg0
  let main_cst : FVec F S_ .f32 := constant S_ .f32 0x7F800000#32
  let main_v1 : FVec F S8x2048x128 .f32 := broadcastInDim S8x2048x128 ![] bcast_S_S8x2048x128 main_cst
  let main_v2 : IVec S8x2048x128 1 := cmpf .olt main_v0 main_v1
  let main_c : IVec S_ 1 := constantI S_ 1 1#1
  let main_v3 : IVec S_ 1 := (fun x v => Host.reduce IntOp.andi x v reducesTo_S8x2048x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  main_v8
-- ==== Kernel.lean ====
abbrev S8x2048x128 : Shape := ⟨3, ![8, 2048, 128]⟩
abbrev S128x128 : Shape := ⟨2, ![128, 128]⟩
abbrev S1x2048x128 : Shape := ⟨3, ![1, 2048, 128]⟩
abbrev S2048x128 : Shape := ⟨2, ![2048, 128]⟩
abbrev S2048x1 : Shape := ⟨2, ![2048, 1]⟩
abbrev S2048x2048 : Shape := ⟨2, ![2048, 2048]⟩
abbrev S2048 : Shape := ⟨1, ![2048]⟩
abbrev S512x128 : Shape := ⟨2, ![512, 128]⟩
abbrev S2048x512 : Shape := ⟨2, ![2048, 512]⟩
abbrev S512x1 : Shape := ⟨2, ![512, 1]⟩

abbrev nBuf : Space → Nat
  | .hbm => 3
  | .vmem => 10
  | .smem => 0
  | _ => 0

abbrev bufTy : (tb : Table) → Fin (tcTables nBuf tb) → BufTy
  | .hbm, ⟨0, _⟩ => ⟨S8x2048x128, .f32⟩
  | .hbm, ⟨1, _⟩ => ⟨S128x128, .f32⟩
  | .hbm, ⟨2, _⟩ => ⟨S8x2048x128, .f32⟩
  | .local _ .vmem, ⟨0, _⟩ => ⟨S1x2048x128, .f32⟩
  | .local _ .vmem, ⟨1, _⟩ => ⟨S1x2048x128, .f32⟩
  | .local _ .vmem, ⟨2, _⟩ => ⟨S128x128, .f32⟩
  | .local _ .vmem, ⟨3, _⟩ => ⟨S1x2048x128, .f32⟩
  | .local _ .vmem, ⟨4, _⟩ => ⟨S1x2048x128, .f32⟩
  | .local _ .vmem, ⟨5, _⟩ => ⟨S2048x128, .f32⟩
  | .local _ .vmem, ⟨6, _⟩ => ⟨S2048x128, .bf16⟩
  | .local _ .vmem, ⟨7, _⟩ => ⟨S2048x128, .f32⟩
  | .local _ .vmem, ⟨8, _⟩ => ⟨S2048x1, .f32⟩
  | .local _ .vmem, ⟨9, _⟩ => ⟨S2048x2048, .bf16⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c4_i32 : BitVec 32 := 4#32
  let v24 : BitVec 32 := Scalar.addi c0_i32 c4_i32
  let c1_i32 : BitVec 32 := 1#32
  ⟨c0_i32, v24, c1_i32⟩
def k0_mult1 (k0_t1 : Fin k0_t1_loop.trips) : BitVec 32 :=
  let c0_i32_105 : BitVec 32 := 0#32
  let c0_i32 : BitVec 32 := 0#32
  let c1_i32 : BitVec 32 := 1#32
  let arg9 : BitVec 32 := Scf.iv c0_i32 c1_i32 k0_t1
  let c1_i32_104 : BitVec 32 := 1#32
  let v127 : BitVec 32 := Scalar.muli arg9 c1_i32_104
  let v128 : BitVec 32 := Scalar.addi c0_i32_105 v127
  let c512_i32 : BitVec 32 := 512#32
  let v129 : BitVec 32 := Scalar.muli v128 c512_i32
  v129
def k0_off1 (k0_t1 : Fin k0_t1_loop.trips) : Fin 2 → Nat :=
  let c0_i32_105 : BitVec 32 := 0#32
  let c0_i32 : BitVec 32 := 0#32
  let c1_i32 : BitVec 32 := 1#32
  let arg9 : BitVec 32 := Scf.iv c0_i32 c1_i32 k0_t1
  let c1_i32_104 : BitVec 32 := 1#32
  let v127 : BitVec 32 := Scalar.muli arg9 c1_i32_104
  let v128 : BitVec 32 := Scalar.addi c0_i32_105 v127
  let c512_i32 : BitVec 32 := 512#32
  let v129 : BitVec 32 := Scalar.muli v128 c512_i32
  let v130 : BitVec 32 := v129
  let v132 : Index := Scalar.indexCast v130
  let c0_108 : Index := 0#32
  ![v132.toNat, 0]
def k0_off2 (k0_t1 : Fin k0_t1_loop.trips) : Fin 2 → Nat :=
  let c0_117 : Index := 0#32
  let c0_i32_105 : BitVec 32 := 0#32
  let c0_i32 : BitVec 32 := 0#32
  let c1_i32 : BitVec 32 := 1#32
  let arg9 : BitVec 32 := Scf.iv c0_i32 c1_i32 k0_t1
  let c1_i32_104 : BitVec 32 := 1#32
  let v127 : BitVec 32 := Scalar.muli arg9 c1_i32_104
  let v128 : BitVec 32 := Scalar.addi c0_i32_105 v127
  let c512_i32 : BitVec 32 := 512#32
  let v129 : BitVec 32 := Scalar.muli v128 c512_i32
  let v130 : BitVec 32 := v129
  let v147 : Index := Scalar.indexCast v130
  ![0, v147.toNat]
@[reducible] def k0_t2_loop : Scf.Loop 32 :=
  let c0_i32_21 : BitVec 32 := 0#32
  let c4_i32_22 : BitVec 32 := 4#32
  let v34 : BitVec 32 := Scalar.addi c0_i32_21 c4_i32_22
  let c1_i32_23 : BitVec 32 := 1#32
  ⟨c0_i32_21, v34, c1_i32_23⟩
def k0_mult2 (k0_t2 : Fin k0_t2_loop.trips) : BitVec 32 :=
  let c0_i32_105 : BitVec 32 := 0#32
  let c0_i32_21 : BitVec 32 := 0#32
  let c1_i32_23 : BitVec 32 := 1#32
  let arg9 : BitVec 32 := Scf.iv c0_i32_21 c1_i32_23 k0_t2
  let c1_i32_104 : BitVec 32 := 1#32
  let v127 : BitVec 32 := Scalar.muli arg9 c1_i32_104
  let v128 : BitVec 32 := Scalar.addi c0_i32_105 v127
  let c512_i32 : BitVec 32 := 512#32
  let v129 : BitVec 32 := Scalar.muli v128 c512_i32
  v129
def k0_off3 (k0_t2 : Fin k0_t2_loop.trips) : Fin 2 → Nat :=
  let c0_106 : Index := 0#32
  let c0_i32_105 : BitVec 32 := 0#32
  let c0_i32_21 : BitVec 32 := 0#32
  let c1_i32_23 : BitVec 32 := 1#32
  let arg9 : BitVec 32 := Scf.iv c0_i32_21 c1_i32_23 k0_t2
  let c1_i32_104 : BitVec 32 := 1#32
  let v127 : BitVec 32 := Scalar.muli arg9 c1_i32_104
  let v128 : BitVec 32 := Scalar.addi c0_i32_105 v127
  let c512_i32 : BitVec 32 := 512#32
  let v129 : BitVec 32 := Scalar.muli v128 c512_i32
  let v130 : BitVec 32 := v129
  let v131 : Index := Scalar.indexCast v130
  ![0, v131.toNat]
def k0_off4 (k0_t2 : Fin k0_t2_loop.trips) : Fin 2 → Nat :=
  let c0_i32_105 : BitVec 32 := 0#32
  let c0_i32_21 : BitVec 32 := 0#32
  let c1_i32_23 : BitVec 32 := 1#32
  let arg9 : BitVec 32 := Scf.iv c0_i32_21 c1_i32_23 k0_t2
  let c1_i32_104 : BitVec 32 := 1#32
  let v127 : BitVec 32 := Scalar.muli arg9 c1_i32_104
  let v128 : BitVec 32 := Scalar.addi c0_i32_105 v127
  let c512_i32 : BitVec 32 := 512#32
  let v129 : BitVec 32 := Scalar.muli v128 c512_i32
  let v130 : BitVec 32 := v129
  let v133 : Index := Scalar.indexCast v130
  let c0_107 : Index := 0#32
  ![v133.toNat, 0]
def k0_off5 (k0_t2 : Fin k0_t2_loop.trips) : Fin 2 → Nat :=
  let c0_i32_105 : BitVec 32 := 0#32
  let c0_i32_21 : BitVec 32 := 0#32
  let c1_i32_23 : BitVec 32 := 1#32
  let arg9 : BitVec 32 := Scf.iv c0_i32_21 c1_i32_23 k0_t2
  let c1_i32_104 : BitVec 32 := 1#32
  let v127 : BitVec 32 := Scalar.muli arg9 c1_i32_104
  let v128 : BitVec 32 := Scalar.addi c0_i32_105 v127
  let c512_i32 : BitVec 32 := 512#32
  let v129 : BitVec 32 := Scalar.muli v128 c512_i32
  let v130 : BitVec 32 := v129
  let v135 : Index := Scalar.indexCast v130
  let c0_108 : Index := 0#32
  ![v135.toNat, 0]
@[reducible] def k0_t3_loop : Scf.Loop 32 :=
  let c0_i32_41 : BitVec 32 := 0#32
  let c4_i32_42 : BitVec 32 := 4#32
  let v61 : BitVec 32 := Scalar.addi c0_i32_41 c4_i32_42
  let c1_i32_43 : BitVec 32 := 1#32
  ⟨c0_i32_41, v61, c1_i32_43⟩
def k0_mult3 (k0_t3 : Fin k0_t3_loop.trips) : BitVec 32 :=
  let c0_i32_105 : BitVec 32 := 0#32
  let c0_i32_41 : BitVec 32 := 0#32
  let c1_i32_43 : BitVec 32 := 1#32
  let arg9 : BitVec 32 := Scf.iv c0_i32_41 c1_i32_43 k0_t3
  let c1_i32_104 : BitVec 32 := 1#32
  let v127 : BitVec 32 := Scalar.muli arg9 c1_i32_104
  let v128 : BitVec 32 := Scalar.addi c0_i32_105 v127
  let c512_i32 : BitVec 32 := 512#32
  let v129 : BitVec 32 := Scalar.muli v128 c512_i32
  v129
def k0_off6 (k0_t3 : Fin k0_t3_loop.trips) : Fin 2 → Nat :=
  let c0_i32_105 : BitVec 32 := 0#32
  let c0_i32_41 : BitVec 32 := 0#32
  let c1_i32_43 : BitVec 32 := 1#32
  let arg9 : BitVec 32 := Scf.iv c0_i32_41 c1_i32_43 k0_t3
  let c1_i32_104 : BitVec 32 := 1#32
  let v127 : BitVec 32 := Scalar.muli arg9 c1_i32_104
  let v128 : BitVec 32 := Scalar.addi c0_i32_105 v127
  let c512_i32 : BitVec 32 := 512#32
  let v129 : BitVec 32 := Scalar.muli v128 c512_i32
  let v130 : BitVec 32 := v129
  let v132 : Index := Scalar.indexCast v130
  let c0_108 : Index := 0#32
  ![v132.toNat, 0]
def k0_off7 (k0_t3 : Fin k0_t3_loop.trips) : Fin 2 → Nat :=
  let c0_117 : Index := 0#32
  let c0_i32_105 : BitVec 32 := 0#32
  let c0_i32_41 : BitVec 32 := 0#32
  let c1_i32_43 : BitVec 32 := 1#32
  let arg9 : BitVec 32 := Scf.iv c0_i32_41 c1_i32_43 k0_t3
  let c1_i32_104 : BitVec 32 := 1#32
  let v127 : BitVec 32 := Scalar.muli arg9 c1_i32_104
  let v128 : BitVec 32 := Scalar.addi c0_i32_105 v127
  let c512_i32 : BitVec 32 := 512#32
  let v129 : BitVec 32 := Scalar.muli v128 c512_i32
  let v130 : BitVec 32 := v129
  let v147 : Index := Scalar.indexCast v130
  ![0, v147.toNat]
@[reducible] def k0_t4_loop : Scf.Loop 32 :=
  let c0_i32_52 : BitVec 32 := 0#32
  let c4_i32_53 : BitVec 32 := 4#32
  let v71 : BitVec 32 := Scalar.addi c0_i32_52 c4_i32_53
  let c1_i32_54 : BitVec 32 := 1#32
  ⟨c0_i32_52, v71, c1_i32_54⟩
def k0_mult4 (k0_t4 : Fin k0_t4_loop.trips) : BitVec 32 :=
  let c0_i32_105 : BitVec 32 := 0#32
  let c0_i32_52 : BitVec 32 := 0#32
  let c1_i32_54 : BitVec 32 := 1#32
  let arg9 : BitVec 32 := Scf.iv c0_i32_52 c1_i32_54 k0_t4
  let c1_i32_104 : BitVec 32 := 1#32
  let v127 : BitVec 32 := Scalar.muli arg9 c1_i32_104
  let v128 : BitVec 32 := Scalar.addi c0_i32_105 v127
  let c512_i32 : BitVec 32 := 512#32
  let v129 : BitVec 32 := Scalar.muli v128 c512_i32
  v129
def k0_off8 (k0_t4 : Fin k0_t4_loop.trips) : Fin 2 → Nat :=
  let c0_106 : Index := 0#32
  let c0_i32_105 : BitVec 32 := 0#32
  let c0_i32_52 : BitVec 32 := 0#32
  let c1_i32_54 : BitVec 32 := 1#32
  let arg9 : BitVec 32 := Scf.iv c0_i32_52 c1_i32_54 k0_t4
  let c1_i32_104 : BitVec 32 := 1#32
  let v127 : BitVec 32 := Scalar.muli arg9 c1_i32_104
  let v128 : BitVec 32 := Scalar.addi c0_i32_105 v127
  let c512_i32 : BitVec 32 := 512#32
  let v129 : BitVec 32 := Scalar.muli v128 c512_i32
  let v130 : BitVec 32 := v129
  let v131 : Index := Scalar.indexCast v130
  ![0, v131.toNat]
def k0_off9 (k0_t4 : Fin k0_t4_loop.trips) : Fin 2 → Nat :=
  let c0_i32_105 : BitVec 32 := 0#32
  let c0_i32_52 : BitVec 32 := 0#32
  let c1_i32_54 : BitVec 32 := 1#32
  let arg9 : BitVec 32 := Scf.iv c0_i32_52 c1_i32_54 k0_t4
  let c1_i32_104 : BitVec 32 := 1#32
  let v127 : BitVec 32 := Scalar.muli arg9 c1_i32_104
  let v128 : BitVec 32 := Scalar.addi c0_i32_105 v127
  let c512_i32 : BitVec 32 := 512#32
  let v129 : BitVec 32 := Scalar.muli v128 c512_i32
  let v130 : BitVec 32 := v129
  let v133 : Index := Scalar.indexCast v130
  let c0_107 : Index := 0#32
  ![v133.toNat, 0]
def k0_off10 (k0_t4 : Fin k0_t4_loop.trips) : Fin 2 → Nat :=
  let c0_i32_105 : BitVec 32 := 0#32
  let c0_i32_52 : BitVec 32 := 0#32
  let c1_i32_54 : BitVec 32 := 1#32
  let arg9 : BitVec 32 := Scf.iv c0_i32_52 c1_i32_54 k0_t4
  let c1_i32_104 : BitVec 32 := 1#32
  let v127 : BitVec 32 := Scalar.muli arg9 c1_i32_104
  let v128 : BitVec 32 := Scalar.addi c0_i32_105 v127
  let c512_i32 : BitVec 32 := 512#32
  let v129 : BitVec 32 := Scalar.muli v128 c512_i32
  let v130 : BitVec 32 := v129
  let v135 : Index := Scalar.indexCast v130
  let c0_108 : Index := 0#32
  ![v135.toNat, 0]
@[reducible] def k0_t5_loop : Scf.Loop 32 :=
  let c0_i32_72 : BitVec 32 := 0#32
  let c4_i32_73 : BitVec 32 := 4#32
  let v98 : BitVec 32 := Scalar.addi c0_i32_72 c4_i32_73
  let c1_i32_74 : BitVec 32 := 1#32
  ⟨c0_i32_72, v98, c1_i32_74⟩
def k0_mult5 (k0_t5 : Fin k0_t5_loop.trips) : BitVec 32 :=
  let c0_i32_105 : BitVec 32 := 0#32
  let c0_i32_72 : BitVec 32 := 0#32
  let c1_i32_74 : BitVec 32 := 1#32
  let arg9 : BitVec 32 := Scf.iv c0_i32_72 c1_i32_74 k0_t5
  let c1_i32_104 : BitVec 32 := 1#32
  let v127 : BitVec 32 := Scalar.muli arg9 c1_i32_104
  let v128 : BitVec 32 := Scalar.addi c0_i32_105 v127
  let c512_i32 : BitVec 32 := 512#32
  let v129 : BitVec 32 := Scalar.muli v128 c512_i32
  v129
def k0_off11 (k0_t5 : Fin k0_t5_loop.trips) : Fin 2 → Nat :=
  let c0_i32_105 : BitVec 32 := 0#32
  let c0_i32_72 : BitVec 32 := 0#32
  let c1_i32_74 : BitVec 32 := 1#32
  let arg9 : BitVec 32 := Scf.iv c0_i32_72 c1_i32_74 k0_t5
  let c1_i32_104 : BitVec 32 := 1#32
  let v127 : BitVec 32 := Scalar.muli arg9 c1_i32_104
  let v128 : BitVec 32 := Scalar.addi c0_i32_105 v127
  let c512_i32 : BitVec 32 := 512#32
  let v129 : BitVec 32 := Scalar.muli v128 c512_i32
  let v130 : BitVec 32 := v129
  let v132 : Index := Scalar.indexCast v130
  let c0_108 : Index := 0#32
  ![v132.toNat, 0]
def k0_off12 (k0_t5 : Fin k0_t5_loop.trips) : Fin 2 → Nat :=
  let c0_117 : Index := 0#32
  let c0_i32_105 : BitVec 32 := 0#32
  let c0_i32_72 : BitVec 32 := 0#32
  let c1_i32_74 : BitVec 32 := 1#32
  let arg9 : BitVec 32 := Scf.iv c0_i32_72 c1_i32_74 k0_t5
  let c1_i32_104 : BitVec 32 := 1#32
  let v127 : BitVec 32 := Scalar.muli arg9 c1_i32_104
  let v128 : BitVec 32 := Scalar.addi c0_i32_105 v127
  let c512_i32 : BitVec 32 := 512#32
  let v129 : BitVec 32 := Scalar.muli v128 c512_i32
  let v130 : BitVec 32 := v129
  let v147 : Index := Scalar.indexCast v130
  ![0, v147.toNat]
@[reducible] def k0_t6_loop : Scf.Loop 32 :=
  let c0_i32_83 : BitVec 32 := 0#32
  let c4_i32_84 : BitVec 32 := 4#32
  let v108 : BitVec 32 := Scalar.addi c0_i32_83 c4_i32_84
  let c1_i32_85 : BitVec 32 := 1#32
  ⟨c0_i32_83, v108, c1_i32_85⟩
def k0_mult6 (k0_t6 : Fin k0_t6_loop.trips) : BitVec 32 :=
  let c0_i32_105 : BitVec 32 := 0#32
  let c0_i32_83 : BitVec 32 := 0#32
  let c1_i32_85 : BitVec 32 := 1#32
  let arg9 : BitVec 32 := Scf.iv c0_i32_83 c1_i32_85 k0_t6
  let c1_i32_104 : BitVec 32 := 1#32
  let v127 : BitVec 32 := Scalar.muli arg9 c1_i32_104
  let v128 : BitVec 32 := Scalar.addi c0_i32_105 v127
  let c512_i32 : BitVec 32 := 512#32
  let v129 : BitVec 32 := Scalar.muli v128 c512_i32
  v129
def k0_off13 (k0_t6 : Fin k0_t6_loop.trips) : Fin 2 → Nat :=
  let c0_106 : Index := 0#32
  let c0_i32_105 : BitVec 32 := 0#32
  let c0_i32_83 : BitVec 32 := 0#32
  let c1_i32_85 : BitVec 32 := 1#32
  let arg9 : BitVec 32 := Scf.iv c0_i32_83 c1_i32_85 k0_t6
  let c1_i32_104 : BitVec 32 := 1#32
  let v127 : BitVec 32 := Scalar.muli arg9 c1_i32_104
  let v128 : BitVec 32 := Scalar.addi c0_i32_105 v127
  let c512_i32 : BitVec 32 := 512#32
  let v129 : BitVec 32 := Scalar.muli v128 c512_i32
  let v130 : BitVec 32 := v129
  let v131 : Index := Scalar.indexCast v130
  ![0, v131.toNat]
def k0_off14 (k0_t6 : Fin k0_t6_loop.trips) : Fin 2 → Nat :=
  let c0_i32_105 : BitVec 32 := 0#32
  let c0_i32_83 : BitVec 32 := 0#32
  let c1_i32_85 : BitVec 32 := 1#32
  let arg9 : BitVec 32 := Scf.iv c0_i32_83 c1_i32_85 k0_t6
  let c1_i32_104 : BitVec 32 := 1#32
  let v127 : BitVec 32 := Scalar.muli arg9 c1_i32_104
  let v128 : BitVec 32 := Scalar.addi c0_i32_105 v127
  let c512_i32 : BitVec 32 := 512#32
  let v129 : BitVec 32 := Scalar.muli v128 c512_i32
  let v130 : BitVec 32 := v129
  let v133 : Index := Scalar.indexCast v130
  let c0_107 : Index := 0#32
  ![v133.toNat, 0]
def k0_off15 (k0_t6 : Fin k0_t6_loop.trips) : Fin 2 → Nat :=
  let c0_i32_105 : BitVec 32 := 0#32
  let c0_i32_83 : BitVec 32 := 0#32
  let c1_i32_85 : BitVec 32 := 1#32
  let arg9 : BitVec 32 := Scf.iv c0_i32_83 c1_i32_85 k0_t6
  let c1_i32_104 : BitVec 32 := 1#32
  let v127 : BitVec 32 := Scalar.muli arg9 c1_i32_104
  let v128 : BitVec 32 := Scalar.addi c0_i32_105 v127
  let c512_i32 : BitVec 32 := 512#32
  let v129 : BitVec 32 := Scalar.muli v128 c512_i32
  let v130 : BitVec 32 := v129
  let v135 : Index := Scalar.indexCast v130
  let c0_108 : Index := 0#32
  ![v135.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  reduces_S2048x128_S2048 : S2048x128.Reduces [1] S2048
  shapeCasts_S2048_S2048x1 : S2048.ShapeCasts S2048x1
  broadcasts_S2048x1_S2048x128 : S2048x1.Broadcasts S2048x128
  bitsLt_bf16_f32 : FTy.bits .bf16 < FTy.bits .f32
  packedbf16_S2048x128_S2048x128_0_0 : (Rect.unit (s := S2048x128) ![0, 0] S2048x128.size inb_S2048x128_S2048x128_0_0).PackedRows (EltTy.packing .bf16)
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  h_S512x128 : 0 < S512x128.numel
  reduces_S2048x512_S2048 : S2048x512.Reduces [1] S2048
  h_S2048x512 : 0 < S2048x512.numel
  shapeCasts_S2048x512_S2048x512 : S2048x512.ShapeCasts S2048x512
  h_S512x1 : 0 < S512x1.numel
  broadcasts_S512x1_S512x128 : S512x1.Broadcasts S512x128
  inb_S128x128_S128x128_0_0 : ∀ a, (![0, 0] : Fin 2 → Nat) a + S128x128.size a ≤ S128x128.size a
  h_S128x128 : 0 < S128x128.numel
  shapeCasts_S2048x128_S1x2048x128 : S2048x128.ShapeCasts S1x2048x128
  dot_S2048x128_S512x128_S2048x512_1_1_0_0_n_n_wf : DotDims.WF S2048x128 S512x128 S2048x512 [1] [1] [0] [0] [] []
  dot_S2048x512_S512x128_S2048x128_1_0_0_1_n_n_wf : DotDims.WF S2048x512 S512x128 S2048x128 [1] [0] [0] [1] [] []
  dot_S2048x128_S128x128_S2048x128_1_0_0_1_n_n_wf : DotDims.WF S2048x128 S128x128 S2048x128 [1] [0] [0] [1] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S512x128.size a ≤ S2048x128.size a
  k0_off2_inb : ∀ k0_t1 : Fin k0_t1_loop.trips, ∀ a, (k0_off2 k0_t1) a + S2048x512.size a ≤ S2048x2048.size a
  k0_off2_packedbf16 : ∀ k0_t1 : Fin k0_t1_loop.trips, (Rect.unit (s := S2048x2048) (k0_off2 k0_t1) S2048x512.size (k0_off2_inb k0_t1)).PackedRows (EltTy.packing .bf16)
  k0_t2_ok : k0_t2_loop.OK
  k0_mult2_dvd : ∀ k0_t2 : Fin k0_t2_loop.trips, 512 ∣ (k0_mult2 k0_t2).toNat
  k0_off3_inb : ∀ k0_t2 : Fin k0_t2_loop.trips, ∀ a, (k0_off3 k0_t2) a + S2048x512.size a ≤ S2048x2048.size a
  k0_off4_inb : ∀ k0_t2 : Fin k0_t2_loop.trips, ∀ a, (k0_off4 k0_t2) a + S512x128.size a ≤ S2048x128.size a
  k0_off5_inb : ∀ k0_t2 : Fin k0_t2_loop.trips, ∀ a, (k0_off5 k0_t2) a + S512x1.size a ≤ S2048x1.size a
  k0_t3_ok : k0_t3_loop.OK
  k0_mult3_dvd : ∀ k0_t3 : Fin k0_t3_loop.trips, 512 ∣ (k0_mult3 k0_t3).toNat
  k0_off6_inb : ∀ k0_t3 : Fin k0_t3_loop.trips, ∀ a, (k0_off6 k0_t3) a + S512x128.size a ≤ S2048x128.size a
  k0_off7_inb : ∀ k0_t3 : Fin k0_t3_loop.trips, ∀ a, (k0_off7 k0_t3) a + S2048x512.size a ≤ S2048x2048.size a
  k0_off7_packedbf16 : ∀ k0_t3 : Fin k0_t3_loop.trips, (Rect.unit (s := S2048x2048) (k0_off7 k0_t3) S2048x512.size (k0_off7_inb k0_t3)).PackedRows (EltTy.packing .bf16)
  k0_t4_ok : k0_t4_loop.OK
  k0_mult4_dvd : ∀ k0_t4 : Fin k0_t4_loop.trips, 512 ∣ (k0_mult4 k0_t4).toNat
  k0_off8_inb : ∀ k0_t4 : Fin k0_t4_loop.trips, ∀ a, (k0_off8 k0_t4) a + S2048x512.size a ≤ S2048x2048.size a
  k0_off9_inb : ∀ k0_t4 : Fin k0_t4_loop.trips, ∀ a, (k0_off9 k0_t4) a + S512x128.size a ≤ S2048x128.size a
  k0_off10_inb : ∀ k0_t4 : Fin k0_t4_loop.trips, ∀ a, (k0_off10 k0_t4) a + S512x1.size a ≤ S2048x1.size a
  k0_t5_ok : k0_t5_loop.OK
  k0_mult5_dvd : ∀ k0_t5 : Fin k0_t5_loop.trips, 512 ∣ (k0_mult5 k0_t5).toNat
  k0_off11_inb : ∀ k0_t5 : Fin k0_t5_loop.trips, ∀ a, (k0_off11 k0_t5) a + S512x128.size a ≤ S2048x128.size a
  k0_off12_inb : ∀ k0_t5 : Fin k0_t5_loop.trips, ∀ a, (k0_off12 k0_t5) a + S2048x512.size a ≤ S2048x2048.size a
  k0_off12_packedbf16 : ∀ k0_t5 : Fin k0_t5_loop.trips, (Rect.unit (s := S2048x2048) (k0_off12 k0_t5) S2048x512.size (k0_off12_inb k0_t5)).PackedRows (EltTy.packing .bf16)
  k0_t6_ok : k0_t6_loop.OK
  k0_mult6_dvd : ∀ k0_t6 : Fin k0_t6_loop.trips, 512 ∣ (k0_mult6 k0_t6).toNat
  k0_off13_inb : ∀ k0_t6 : Fin k0_t6_loop.trips, ∀ a, (k0_off13 k0_t6) a + S2048x512.size a ≤ S2048x2048.size a
  k0_off14_inb : ∀ k0_t6 : Fin k0_t6_loop.trips, ∀ a, (k0_off14 k0_t6) a + S512x128.size a ≤ S2048x128.size a
  k0_off15_inb : ∀ k0_t6 : Fin k0_t6_loop.trips, ∀ a, (k0_off15 k0_t6) a + S512x1.size a ≤ S2048x1.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S8x2048x128.size a
  hwx0_0 : ∀ i : grid0.Coords, EltTy.bits .f32 = 32 ∨ (Rect.block (s := S8x2048x128) S1x2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S8x2048x128.size a
  hwx0_2 : ∀ i : grid0.Coords, EltTy.bits .f32 = 32 ∨ (Rect.block (s := S8x2048x128) S1x2048x128.size (cc0_transform_2 i) (hinb0_2 i)).WholeWords (EltTy.packing .f32)

variable [Facts₀]

def dot_S2048x128_S512x128_S2048x512_1_1_0_0_n_n : DotDims S2048x128 S512x128 S2048x512 where
  lhsContracting := [1]
  rhsContracting := [1]
  lhsNonContracting := [0]
  rhsNonContracting := [0]
  lhsBatch := []
  rhsBatch := []
  wf := dot_S2048x128_S512x128_S2048x512_1_1_0_0_n_n_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_arg0) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x128 : Shape := ⟨3, ![8, 2048, 128]⟩
abbrev S128x128 : Shape := ⟨2, ![128, 128]⟩
abbrev S_ : Shape := ⟨0, ![]⟩
abbrev S8x2048 : Shape := ⟨2, ![8, 2048]⟩
abbrev S8x2048x1 : Shape := ⟨3, ![8, 2048, 1]⟩
abbrev S8x2048x2048 : Shape := ⟨3, ![8, 2048, 2048]⟩
abbrev S8x1x2048 : Shape := ⟨3, ![8, 1, 2048]⟩

abbrev nBuf : Space → Nat
  | .hbm => 97
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S128x128, .f32⟩
  | .hbm, ⟨2, _⟩ => ⟨S8x2048x128, .f32⟩
  | .hbm, ⟨3, _⟩ => ⟨S_, .f32⟩
  | .hbm, ⟨4, _⟩ => ⟨S8x2048, .f32⟩
  | .hbm, ⟨5, _⟩ => ⟨S8x2048x1, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S8x2048x128, .f32⟩
  | .hbm, ⟨11, _⟩ => ⟨S8x2048x128, .f32⟩
  | .hbm, ⟨12, _⟩ => ⟨S8x2048x2048, .f32⟩
  | .hbm, ⟨13, _⟩ => ⟨S_, .f32⟩
  | .hbm, ⟨14, _⟩ => ⟨S8x2048x2048, .f32⟩
  | .hbm, ⟨15, _⟩ => ⟨S8x2048x2048, .i1⟩
  | .hbm, ⟨16, _⟩ => ⟨S_, .f32⟩
  | .hbm, ⟨17, _⟩ => ⟨S_, .f32⟩
  | .hbm, ⟨18, _⟩ => ⟨S8x2048x2048, .f32⟩
  | .hbm, ⟨19, _⟩ => ⟨S8x2048x2048, .f32⟩
  | .hbm, ⟨20, _⟩ => ⟨S_, .f32⟩
  | .hbm, ⟨21, _⟩ => ⟨S8x2048, .f32⟩
  | .hbm, ⟨22, _⟩ => ⟨S8x2048, .f32⟩
  | .hbm, ⟨23, _⟩ => ⟨S_, .f32⟩
  | .hbm, ⟨24, _⟩ => ⟨S8x2048, .f32⟩
  | .hbm, ⟨25, _⟩ => ⟨S8x2048, .f32⟩
  | .hbm, ⟨26, _⟩ => ⟨S8x2048x1, .f32⟩
  | .hbm, ⟨27, _⟩ => ⟨S8x2048x2048, .f32⟩
  | .hbm, ⟨28, _⟩ => ⟨S8x2048x2048, .f32⟩
  | .hbm, ⟨29, _⟩ => ⟨S8x1x2048, .f32⟩
  | .hbm, ⟨30, _⟩ => ⟨S8x2048x2048, .f32⟩
  | .hbm, ⟨31, _⟩ => ⟨S8x2048x2048, .f32⟩
  | .hbm, ⟨32, _⟩ => ⟨S8x2048x128, .f32⟩
  | .hbm, ⟨33, _⟩ => ⟨S8x2048x128, .f32⟩
  | .hbm, ⟨34, _⟩ => ⟨S_, .f32⟩
  | .hbm, ⟨35, _⟩ => ⟨S8x2048, .f32⟩
  | .hbm, ⟨36, _⟩ => ⟨S8x2048x1, .f32⟩
  | .hbm, ⟨37, _⟩ => ⟨S8x2048x1, .f32⟩
  | .hbm, ⟨38, _⟩ => ⟨S_, .f32⟩
  | .hbm, ⟨39, _⟩ => ⟨S8x2048x1, .f32⟩
  | .hbm, ⟨40, _⟩ => ⟨S8x2048x1, .f32⟩
  | .hbm, ⟨41, _⟩ => ⟨S8x2048x128, .f32⟩
  | .hbm, ⟨42, _⟩ => ⟨S8x2048x128, .f32⟩
  | .hbm, ⟨43, _⟩ => ⟨S8x2048x2048, .f32⟩
  | .hbm, ⟨44, _⟩ => ⟨S_, .f32⟩
  | .hbm, ⟨45, _⟩ => ⟨S8x2048x2048, .f32⟩
  | .hbm, ⟨46, _⟩ => ⟨S8x2048x2048, .i1⟩
  | .hbm, ⟨47, _⟩ => ⟨S_, .f32⟩
  | .hbm, ⟨48, _⟩ => ⟨S_, .f32⟩
  | .hbm, ⟨49, _⟩ => ⟨S8x2048x2048, .f32⟩
  | .hbm, ⟨50, _⟩ => ⟨S8x2048x2048, .f32⟩
  | .hbm, ⟨51, _⟩ => ⟨S_, .f32⟩
  | .hbm, ⟨52, _⟩ => ⟨S8x2048, .f32⟩
  | .hbm, ⟨53, _⟩ => ⟨S8x2048, .f32⟩
  | .hbm, ⟨54, _⟩ => ⟨S_, .f32⟩
  | .hbm, ⟨55, _⟩ => ⟨S8x2048, .f32⟩
  | .hbm, ⟨56, _⟩ => ⟨S8x2048, .f32⟩
  | .hbm, ⟨57, _⟩ => ⟨S8x2048x1, .f32⟩
  | .hbm, ⟨58, _⟩ => ⟨S8x2048x2048, .f32⟩
  | .hbm, ⟨59, _⟩ => ⟨S8x2048x2048, .f32⟩
  | .hbm, ⟨60, _⟩ => ⟨S8x1x2048, .f32⟩
  | .hbm, ⟨61, _⟩ => ⟨S8x2048x2048, .f32⟩
  | .hbm, ⟨62, _⟩ => ⟨S8x2048x2048, .f32⟩
  | .hbm, ⟨63, _⟩ => ⟨S8x2048x128, .f32⟩
  | .hbm, ⟨64, _⟩ => ⟨S8x2048x128, .f32⟩
  | .hbm, ⟨65, _⟩ => ⟨S_, .f32⟩
  | .hbm, ⟨66, _⟩ => ⟨S8x2048, .f32⟩
  | .hbm, ⟨67, _⟩ => ⟨S8x2048x1, .f32⟩
  | .hbm, ⟨68, _⟩ => ⟨S8x2048x1, .f32⟩
  | .hbm, ⟨69, _⟩ => ⟨S_, .f32⟩
  | .hbm, ⟨70, _⟩ => ⟨S8x2048x1, .f32⟩
  | .hbm, ⟨71, _⟩ => ⟨S8x2048x1, .f32⟩
  | .hbm, ⟨72, _⟩ => ⟨S8x2048x128, .f32⟩
  | .hbm, ⟨73, _⟩ => ⟨S8x2048x128, .f32⟩
  | .hbm, ⟨74, _⟩ => ⟨S8x2048x2048, .f32⟩
  | .hbm, ⟨75, _⟩ => ⟨S_, .f32⟩
  | .hbm, ⟨76, _⟩ => ⟨S8x2048x2048, .f32⟩
  | .hbm, ⟨77, _⟩ => ⟨S8x2048x2048, .i1⟩
  | .hbm, ⟨78, _⟩ => ⟨S_, .f32⟩
  | .hbm, ⟨79, _⟩ => ⟨S_, .f32⟩
  | .hbm, ⟨80, _⟩ => ⟨S8x2048x2048, .f32⟩
  | .hbm, ⟨81, _⟩ => ⟨S8x2048x2048, .f32⟩
  | .hbm, ⟨82, _⟩ => ⟨S_, .f32⟩
  | .hbm, ⟨83, _⟩ => ⟨S8x2048, .f32⟩
  | .hbm, ⟨84, _⟩ => ⟨S8x2048, .f32⟩
  | .hbm, ⟨85, _⟩ => ⟨S_, .f32⟩
  | .hbm, ⟨86, _⟩ => ⟨S8x2048, .f32⟩
  | .hbm, ⟨87, _⟩ => ⟨S8x2048, .f32⟩
  | .hbm, ⟨88, _⟩ => ⟨S8x2048x1, .f32⟩
  | .hbm, ⟨89, _⟩ => ⟨S8x2048x2048, .f32⟩
  | .hbm, ⟨90, _⟩ => ⟨S8x2048x2048, .f32⟩
  | .hbm, ⟨91, _⟩ => ⟨S8x1x2048, .f32⟩
  | .hbm, ⟨92, _⟩ => ⟨S8x2048x2048, .f32⟩
  | .hbm, ⟨93, _⟩ => ⟨S8x2048x2048, .f32⟩
  | .hbm, ⟨94, _⟩ => ⟨S8x2048x128, .f32⟩
  | .hbm, ⟨95, _⟩ => ⟨S8x2048x128, .f32⟩
  | .hbm, ⟨96, _⟩ => ⟨S8x2048x128, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_call1_v0 : Ref sig .tc := ⟨.hbm, 17, rfl⟩
abbrev main_call1_v1 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call2_v0 : Ref sig .tc := ⟨.hbm, 33, rfl⟩
abbrev main_call2_cst : Ref sig .tc := ⟨.hbm, 34, rfl⟩
abbrev main_call2_v1 : Ref sig .tc := ⟨.hbm, 35, rfl⟩
abbrev main_call2_v2 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev main_cst_6 : Ref sig .tc := ⟨.hbm, 47, rfl⟩
abbrev main_call3_v0 : Ref sig .tc := ⟨.hbm, 48, rfl⟩
abbrev main_call3_v1 : Ref sig .tc := ⟨.hbm, 49, rfl⟩
abbrev main_v28 : Ref sig .tc := ⟨.hbm, 50, rfl⟩
abbrev main_cst_7 : Ref sig .tc := ⟨.hbm, 51, rfl⟩
abbrev main_v29 : Ref sig .tc := ⟨.hbm, 52, rfl⟩
abbrev main_v30 : Ref sig .tc := ⟨.hbm, 53, rfl⟩
abbrev main_cst_8 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_call4_v0 : Ref sig .tc := ⟨.hbm, 64, rfl⟩
abbrev main_call4_cst : Ref sig .tc := ⟨.hbm, 65, rfl⟩
abbrev main_call4_v1 : Ref sig .tc := ⟨.hbm, 66, rfl⟩
abbrev main_call4_v2 : Ref sig .tc := ⟨.hbm, 67, rfl⟩
abbrev main_v40 : Ref sig .tc := ⟨.hbm, 68, rfl⟩
abbrev main_cst_9 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_10 : Ref sig .tc := ⟨.hbm, 75, rfl⟩
abbrev main_v46 : Ref sig .tc := ⟨.hbm, 76, rfl⟩
abbrev main_v47 : Ref sig .tc := ⟨.hbm, 77, rfl⟩
abbrev main_cst_11 : Ref sig .tc := ⟨.hbm, 78, rfl⟩
abbrev main_call5_v0 : Ref sig .tc := ⟨.hbm, 79, rfl⟩
abbrev main_call5_v1 : Ref sig .tc := ⟨.hbm, 80, rfl⟩
abbrev main_v48 : Ref sig .tc := ⟨.hbm, 81, rfl⟩
abbrev main_cst_12 : Ref sig .tc := ⟨.hbm, 82, rfl⟩
abbrev main_v49 : Ref sig .tc := ⟨.hbm, 83, rfl⟩
abbrev main_v50 : Ref sig .tc := ⟨.hbm, 84, rfl⟩
abbrev main_cst_13 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩

abbrev nD : Nat := 1
abbrev τ : Topo := Topo.v7x

variable {F : FTy → Type} [FloatOps F]

class Facts₀ : Prop where
  reducesTo_S8x2048x128_S8x2048_d2 : S8x2048x128.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x128_0_1_2 : S8x2048x1.BroadcastsInDim S8x2048x128 (![0, 1, 2] : Fin 3 → Fin S8x2048x128.rank)
  bcast_S_S8x2048x2048 : S_.BroadcastsInDim S8x2048x2048 (![] : Fin 0 → Fin S8x2048x2048.rank)
  reducesTo_S8x2048x2048_S8x2048_d2 : S8x2048x2048.ReducesTo [2] S8x2048
  bcast_S_S8x2048 : S_.BroadcastsInDim S8x2048 (![] : Fin 0 → Fin S8x2048.rank)
  bcast_S8x2048x1_S8x2048x2048_0_1_2 : S8x2048x1.BroadcastsInDim S8x2048x2048 (![0, 1, 2] : Fin 3 → Fin S8x2048x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  dot_S8x2048x128_S8x2048x128_S8x2048x2048_2_2_1_1_0_0_wf : DotDims.WF S8x2048x128 S8x2048x128 S8x2048x2048 [2] [2] [1] [1] [0] [0]
  dot_S8x2048x2048_S8x2048x128_S8x2048x128_2_1_1_2_0_0_wf : DotDims.WF S8x2048x2048 S8x2048x128 S8x2048x128 [2] [1] [1] [2] [0] [0]
  dot_S8x2048x128_S128x128_S8x2048x128_2_0_01_1_n_n_wf : DotDims.WF S8x2048x128 S128x128 S8x2048x128 [2] [0] [0, 1] [1] [] []

variable [Facts₀]

def dot_S8x2048x128_S8x2048x128_S8x2048x2048_2_2_1_1_0_0 : DotDims S8x2048x128 S8x2048x128 S8x2048x2048 where
  lhsContracting := [2]
  rhsContracting := [2]
  lhsNonContracting := [1]
  rhsNonContracting := [1]
  lhsBatch := [0]
  rhsBatch := [0]
  wf := dot_S8x2048x128_S8x2048x128_S8x2048x2048_2_2_1_1_0_0_wf
def dot_S8x2048x2048_S8x2048x128_S8x2048x128_2_1_1_2_0_0 : DotDims S8x2048x2048 S8x2048x128 S8x2048x128 where
  lhsContracting := [2]
  rhsContracting := [1]
  lhsNonContracting := [1]
  rhsNonContracting := [2]
  lhsBatch := [0]
  rhsBatch := [0]
  wf := dot_S8x2048x2048_S8x2048x128_S8x2048x128_2_1_1_2_0_0_wf
def dot_S8x2048x128_S128x128_S8x2048x128_2_0_01_1_n_n : DotDims S8x2048x128 S128x128 S8x2048x128 where
  lhsContracting := [2]
  rhsContracting := [0]
  lhsNonContracting := [0, 1]
  rhsNonContracting := [1]
  lhsBatch := []
  rhsBatch := []
  wf := dot_S8x2048x128_S128x128_S8x2048x128_2_0_01_1_n_n_wf

class Facts : Prop extends Facts₀ where

variable [Facts]
-- ==== Proof.Spec.lean ====
/-
  The mathematics both programs compute, as functions on the extended reals.

  A graph-convolution "propagate" step on a matrix `h` of `N` rows (nodes) and `F` columns (features):
  normalise each row by `max (‖row‖, ε)`; form the Gram matrix of the normalised rows; keep an entry only
  where it exceeds the threshold `t` (else zero) — the adjacency `A`; the degree of a row is the sum of its
  adjacency entries, `is = degree^(-1/2)`; the new matrix is `D^(-1/2) A D^(-1/2) h`.

  The two programs arrange this differently. The kernel multiplies by a precomputed reciprocal of the row norm,
  takes `rsqrt` of the degree, scales the rows of `h` by `is` BEFORE the product with `A` and the rows of the
  product AFTER it (`stepK`). The reference divides by the norm, takes `1 / sqrt` of the degree, and scales `A`'s
  rows and columns before the one product (`stepR`). Three steps with thresholds `t₁, t₂, t₃`, then
  `(h₃ + x) · w` (`finK`, `finR`).
-/
import Idealize.ShloMosaic.PureOps.Ideal

noncomputable section

namespace Cert.Spec

open Idealize.ShloMosaic
open scoped BigOperators

variable {N F : ℕ}

/-- The float literals of both programs, as the extended reals their patterns denote. -/
def epsW : EReal := Ideal.ofBits .f32 0x322BCC77#32
def oneW : EReal := Ideal.ofBits .f32 0x3F800000#32
def zeroW : EReal := Ideal.ofBits .f32 0x00000000#32
def t1W : EReal := Ideal.ofBits .f32 0x3D4CCCCD#32
def t2W : EReal := Ideal.ofBits .f32 0x3DCCCCCD#32
def t3W : EReal := Ideal.ofBits .f32 0x3E19999A#32

/-- Keep `a` where it exceeds the threshold, else the zero literal (a `select` on an ordered `>`). -/
def thr (t a : EReal) : EReal := Scalar.select (Ideal.cmp .ogt a t) a zeroW

/-- A row's norm, clamped below by `ε`. -/
def nrm (h : Fin N → Fin F → EReal) (n : Fin N) : EReal :=
  max (Ideal.sqrt (∑ f, h n f * h n f)) epsW

/-- The normalised rows: by a product with the reciprocal (kernel), by a quotient (reference). -/
def xnK (h : Fin N → Fin F → EReal) (n : Fin N) (f : Fin F) : EReal := h n f * Ideal.div oneW (nrm h n)
def xnR (h : Fin N → Fin F → EReal) (n : Fin N) (f : Fin F) : EReal := Ideal.div (h n f) (nrm h n)

/-- The thresholded Gram matrix of the rows of `xn`. -/
def adj (t : EReal) (xn : Fin N → Fin F → EReal) (n m : Fin N) : EReal := thr t (∑ f, xn n f * xn m f)

/-- A row's degree. -/
def deg (A : Fin N → Fin N → EReal) (n : Fin N) : EReal := ∑ m, A n m

/-- One step as the kernel arranges it. -/
def stepK (t : EReal) (h : Fin N → Fin F → EReal) (n : Fin N) (f : Fin F) : EReal :=
  Ideal.rsqrt (deg (adj t (xnK h)) n)
    * ∑ m, adj t (xnK h) n m * (h m f * Ideal.rsqrt (deg (adj t (xnK h)) m))

/-- One step as the reference arranges it. -/
def stepR (t : EReal) (h : Fin N → Fin F → EReal) (n : Fin N) (f : Fin F) : EReal :=
  ∑ m, ((adj t (xnR h) n m * Ideal.div oneW (Ideal.sqrt (deg (adj t (xnR h)) n)))
          * Ideal.div oneW (Ideal.sqrt (deg (adj t (xnR h)) m))) * h m f

/-- The whole computation on one sample `x` with weights `w`, in either arrangement. -/
def finK (x : Fin N → Fin F → EReal) (w : Fin F → Fin F → EReal) (n : Fin N) (o : Fin F) : EReal :=
  ∑ f, (stepK t3W (stepK t2W (stepK t1W x)) n f + x n f) * w f o
def finR (x : Fin N → Fin F → EReal) (w : Fin F → Fin F → EReal) (n : Fin N) (o : Fin F) : EReal :=
  ∑ f, (stepR t3W (stepR t2W (stepR t1W x)) n f + x n f) * w f o

end Cert.Spec

end
-- ==== Proof.LibWholeStore.lean ====
/-
  Whole-buffer stores and loads, read as functions.

  A kernel body that keeps a matrix in a scratch buffer overwrites the WHOLE buffer again and again. Whatever the
  buffer held and whatever was stored before, after a store of the whole buffer it reads as that store's payload;
  and a load of the whole buffer reads the buffer's contents as they are.
-/
import Idealize.ShloMosaic.Lib.Pipeline.Value

noncomputable section

namespace Cert.LibWholeStore

open Idealize.ShloMosaic

variable {Val : EltTy → Type} [∀ e, Nonempty (Val e)] {sig : RefSig} {κ : Kind} {sp : Space} {S : Shape} {e : EltTy}

/-- After a store of the whole buffer (the unit-stride rectangle at the origin, of the buffer's own size), made LAST, the
    buffer reads as that store's payload `w`, whatever contents `f` it started from and whatever list `L` of stores
    came before. -/
theorem read_writes_cons_unit_zero (v : View sig κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb]

/-- A load of the whole buffer reads the buffer's contents. -/
theorem readAt_unit_zero (v : View sig κ sp S e) (f : v.ty.Contents Val) {off : Fin S.rank → Nat}
    (h : off = fun _ => 0) (inb : ∀ a, off a + S.size a ≤ S.size a) :
    v.readAt Val (Rect.unit off S.size inb).toLoadRect f = v.read Val f :=
  (View.readAt_eq_ld v f _).trans (View.ld_unit_zero h inb _)

/-- The all-zero offsets of a rank-2 and of a rank-3 buffer, as they are printed. -/
theorem hz2 : (![0, 0] : Fin 2 → Nat) = fun _ => 0 := funext fun a => by fin_cases a <;> rfl
theorem hz3 : (![0, 0, 0] : Fin 3 → Nat) = fun _ => 0 := funext fun a => by fin_cases a <;> rfl

end Cert.LibWholeStore

end
-- ==== Proof.LibReadBack.lean ====
/-
  Reading a buffer back through the stores made into it. A kernel body that first fills a whole buffer (zeroing an
  accumulator, say), then stores the whole buffer again, and only then loads it, reads the LAST store's payload: the
  earlier stores do not matter. Stated for any list of earlier stores.
-/
import Idealize.ShloMosaic.Lib.Pipeline.Value

noncomputable section

namespace Cert.LibReadBack

open Idealize.ShloMosaic

/-- A load of a whole buffer (the unit-stride rectangle at the origin, of the buffer's own size) after a store of the
    whole buffer reads that store's payload `w`, whatever the list `L` of stores before it was. (The one-store case is the
    library's `View.readCov_unit_zero`; this is the same fact with earlier stores underneath, as when an accumulator is
    zeroed and then overwritten with its first partial result within one grid point.) -/
theorem readCov_cons_unit_zero {Val : EltTy → Type} [∀ e, Nonempty (Val e)] {sig : RefSig} {κ : Kind} {sp : Space} {S : Shape} {e : EltTy}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

end Cert.LibReadBack

end
-- ==== Proof.LibColumn.lean ====
/-
  Two keepdims column layouts read at an index given by coordinates.

  A length-a vector viewed as an a×1 column reads, at (i, 0), the vector at i; an a×1 column broadcast over b
  columns reads, at (p, c), the column's entry at row p.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibAxisReduce.lean ====
/-
  A matrix reduced along one of its two axes, read at a coordinate, at the exact (extended-real) reading of the floats.

  For an a × b matrix M: the sum over the rows (axis 0) at column n is Σ_r M[r, n]; the sum over the columns (axis 1)
  at row r is Σ_c M[r, c]; and the maximum over the rows at column n is the running maximum of M[·, n] from the
  accumulator's value. These are the library's one-axis reduction laws with the inserted index written by coordinates,
  stated for any extents a and b.
-/
import Idealize.ShloMosaic.PureOps.Ideal.Laws
import Idealize.ShloMosaic.Lib.ValueIdx

noncomputable section

open scoped BigOperators

namespace Cert.LibAxisReduce

open Idealize.ShloMosaic Idealize.ShloMosaic.ValueIdx

variable {a b : ℕ} {φ : FTy}

/-- Sum over the rows of an a × b matrix, at column n. -/
theorem add_rows_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (n : Fin b) :
    multiReduction .add [0] ⟨1, ![b]⟩ src acc h hφ hacc (ix1 n) = ∑ r : Fin a, src (ix2 r n) :=
  (Ideal.multiReduction_add_single src acc h hφ hacc (ix1 n)).trans
    (Finset.sum_congr rfl fun r _ => congrArg src
      (funext fun ax => Fin.ext (by match ax with | ⟨0, _⟩ => rfl | ⟨1, _⟩ => rfl)))

/-- Sum over the columns of an a × b matrix, at row r. -/
theorem add_cols_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ c : Fin b, src (ix2 r c) :=
  (Ideal.multiReduction_add_single src acc h hφ hacc (ix1 r)).trans
    (Finset.sum_congr rfl fun c _ => congrArg src
      (funext fun ax => Fin.ext (by match ax with | ⟨0, _⟩ => rfl | ⟨1, _⟩ => rfl)))

/-- Maximum over the rows of an a × b matrix, at column n: the running maximum from the accumulator's value. -/
theorem max_rows_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ) (n : Fin b) :
    multiReduction .maximumf [0] ⟨1, ![b]⟩ src acc h hφ hacc (ix1 n)
      = (Finset.univ : Finset (Fin a)).fold max (Ideal.ofBits φ acc) (fun r => src (ix2 r n)) :=
  (Ideal.multiReduction_maximumf_single src acc h hφ hacc (ix1 n)).trans
    (Finset.fold_congr fun r _ => congrArg src
      (funext fun ax => Fin.ext (by match ax with | ⟨0, _⟩ => rfl | ⟨1, _⟩ => rfl)))

end Cert.LibAxisReduce

end
-- ==== Proof.LibPlainDot.lean ====
/-
  The plain matrix product read at an index.

  For the dimension numbers of an M×K by K×N product (contract the left operand's axis 1 with the right operand's
  axis 0, no batch axes), the sum over the contraction index that both a matmul into a zero accumulator and a
  host dot_general denote at the ideal values is the textbook one: entry (p, q) is the sum over l of
  lhs (p, l) · rhs (l, q).
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : ℕ}

/-- Row coordinate of the left operand's index: the output's row. -/
theorem lhs_row (j : (⟨2, ![M, N]⟩ : Shape).Idx) (k : (DotDims.plain M K N).contr.Idx) :
    ((DotDims.plain M K N).lhsIdx j k 0).val = (j 0).val := by
  unfold DotDims.lhsIdx
  have hb : ¬(0 : Fin 2) ∈ (DotDims.plain M K N).lhsBatch := List.not_mem_nil
  have hn : (0 : Fin 2) ∈ (DotDims.plain M K N).lhsNonContracting := List.mem_singleton.mpr rfl
  rw [dif_neg hb, dif_pos hn]
  rfl

/-- Column coordinate of the left operand's index: the contraction position. -/
theorem lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- Row coordinate of the right operand's index: the contraction position. -/
theorem rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- Column coordinate of the right operand's index: the output's column. -/
theorem rhs_col (j : (⟨2, ![M, N]⟩ : Shape).Idx) (k : (DotDims.plain M K N).contr.Idx) :
    ((DotDims.plain M K N).rhsIdx j k 1).val = (j 1).val := by
  unfold DotDims.rhsIdx
  have hb : ¬(1 : Fin 2) ∈ (DotDims.plain M K N).rhsBatch := List.not_mem_nil
  have hn : (1 : Fin 2) ∈ (DotDims.plain M K N).rhsNonContracting := List.mem_singleton.mpr rfl
  rw [dif_neg hb, dif_pos hn]
  rfl

/-- The contraction sum of a plain product at entry (p, q), re-indexed by the one contraction coordinate. -/
theorem contr_sum (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ l : Fin K, lhs (ix2 p l) * rhs (ix2 l q) := by
  rw [← Equiv.sum_comp (contrEquiv1 (DotDims.plain M K N) K rfl rfl).symm]
  refine Finset.sum_congr rfl fun l _ => ?_
  have hl := contrEquiv1_symm_val (DotDims.plain M K N) K rfl rfl l
  have el : (DotDims.plain M K N).lhsIdx (ix2 p q) ((contrEquiv1 (DotDims.plain M K N) K rfl rfl).symm l) = ix2 p l :=
    funext fun a => Fin.ext (by
      match a with
      | ⟨0, _⟩ => exact lhs_row _ _
      | ⟨1, _⟩ => exact (lhs_col _ _).trans hl)
  have er : (DotDims.plain M K N).rhsIdx (ix2 p q) ((contrEquiv1 (DotDims.plain M K N) K rfl rfl).symm l) = ix2 l q :=
    funext fun a => Fin.ext (by
      match a with
      | ⟨0, _⟩ => exact (rhs_row _ _).trans hl
      | ⟨1, _⟩ => exact rhs_col _ _)
  rw [el, er]

/-- A matmul of plain dimension numbers into the zero accumulator, at the ideal values, read at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ l : Fin K, lhs (ix2 p l) * rhs (ix2 l q) :=
  (Ideal.matmul_constant_zero_apply (DotDims.plain M K N) prec lhs rhs (ix2 p q)).trans (contr_sum lhs rhs p q)

/-- A host dot_general of plain dimension numbers, at the ideal values, read at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  (Ideal.dotGeneral_apply (DotDims.plain M K N) prec sched lhs rhs (ix2 p q)).trans (contr_sum lhs rhs p q)

end Cert.LibPlainDot

end
-- ==== Proof.PayVal.lean ====
/-
  The kernel's straight-line payloads read at an index, at the exact (extended-real) reading of the floats.

  Each store of the kernel writes one pure term of the values loaded before it. Read at an entry given by its
  coordinates, every such term is a short expression of the loaded values at matching entries: a copy, a zero fill,
  an entry-wise inverse square root, a row scaling, the row normalisation `v[n,f] · (1 / max (‖v[n,·]‖, ε))`, and the
  closing product `Σ_f (h[n,f] + x[n,f]) · w[f,o]`. Casts between equal shapes and the format changes are the
  identity; a lane sum into the zero pattern is the bare sum; a product into the zero accumulator is the bare
  contraction sum.
-/
import proofs.«136311_j35759897706671_2_alg».proof.Proof.Gen.KernelIdeal.Skeleton
import proofs.«136311_j35759897706671_2_alg».proof.Proof.Spec
import proofs.«136311_j35759897706671_2_alg».proof.Proof.LibColumn
import proofs.«136311_j35759897706671_2_alg».proof.Proof.LibAxisReduce
import proofs.«136311_j35759897706671_2_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayVal

open Cert.KernelIdeal Cert.KernelIdeal.Gen Idealize.ShloMosaic Idealize.ShloMosaic.ValueIdx
open scoped BigOperators

/-- The input block, stored as the first `h`: a leading unit axis dropped, then a cast to the same shape. -/
theorem pay2 (v0 : Vec Ideal S1x2048x128 .f32) (n : Fin 2048) (f : Fin 128) :
    k0_pay2 (F := Ideal) v0 (ix2 n f) = v0 (ix3 (0 : Fin 1) n f) := by
  unfold k0_pay2
  rw [shapeCast_self]
  exact shapeCast_1ab_ab_apply v0 _ n f

/-- A zero fill of the degree column. -/
theorem pay4 (n : Fin 2048) : k0_pay4 (F := Ideal) (ix2 n (0 : Fin 1)) = 0 := by
  unfold k0_pay4
  rw [shapeCast_self]
  exact Ideal.ofBits_zero_f32

/-- The inverse square root of the degree column, entry by entry. -/
theorem pay8 (v25 : Vec Ideal S2048x1 .f32) (n : Fin 2048) :
    k0_pay8 (F := Ideal) v25 (ix2 n (0 : Fin 1)) = Ideal.rsqrt (v25 (ix2 n (0 : Fin 1))) := by
  unfold k0_pay8
  rw [shapeCast_self]
  rfl

/-- A constant fill of the accumulator. -/
theorem pay9 (cst_18 : Ideal .f32) (n : Fin 2048) (f : Fin 128) :
    k0_pay9 (F := Ideal) cst_18 (ix2 n f) = cst_18 := by
  unfold k0_pay9
  rw [shapeCast_self]
  rfl

/-- Each row scaled by its entry of the column. -/
theorem pay11 (v35 : Vec Ideal S2048x1 .f32) (v36 : Vec Ideal S2048x128 .f32) (n : Fin 2048) (f : Fin 128) :
    k0_pay11 (F := Ideal) v35 v36 (ix2 n f) = v35 (ix2 n (0 : Fin 1)) * v36 (ix2 n f) := by
  unfold k0_pay11
  rw [shapeCast_self]
  show broadcastTo S2048x128 v35 broadcasts_S2048x1_S2048x128 (ix2 n f) * v36 (ix2 n f) = _
  rw [Cert.LibColumn.broadcastTo_a1_ab_apply]

/-- A cast to the same shape. -/
theorem pay22 (v90 : FVec Ideal S2048x128 .bf16) (n : Fin 2048) (f : Fin 128) :
    k0_pay22 (F := Ideal) v90 (ix2 n f) = v90 (ix2 n f) := by
  unfold k0_pay22
  rw [shapeCast_self]

/-- The column of reciprocals of the clamped row norms, as the kernel forms it from a block `v`: the lane sum of the
    squares, viewed as a column, its square root clamped below by `ε`, and `1` divided by that. -/
def rcol (v : Vec Ideal S2048x128 .f32) : FVec Ideal S2048x1 .f32 :=
  divf (broadcast S2048x1 (Scalar.ofBits (F := Ideal) .f32 0x3F800000#32))
    (maximumf
      (sqrt (shapeCast S2048x1
        (multiReduction (F := Ideal) .add [1] S2048 (mulf v v) 0x00000000#32 reduces_S2048x128_S2048 (.inl rfl) rfl)
        shapeCasts_S2048_S2048x1))
      (broadcast S2048x1 (Scalar.ofBits (F := Ideal) .f32 0x322BCC77#32)))

/-- Row `n` of that column is `1 / max (√(Σ_c v[n,c]²), ε)`: the lane sum into the zero pattern is the bare sum. -/
theorem rcol_apply (v : Vec Ideal S2048x128 .f32) (n : Fin 2048) :
    rcol v (ix2 n (0 : Fin 1)) = Ideal.div Cert.Spec.oneW (Cert.Spec.nrm (fun n f => v (ix2 n f)) n) := by
  have hsum : shapeCast S2048x1
        (multiReduction (F := Ideal) .add [1] S2048 (mulf v v) 0x00000000#32 reduces_S2048x128_S2048 (.inl rfl) rfl)
        shapeCasts_S2048_S2048x1 (ix2 n (0 : Fin 1)) = ∑ c : Fin 128, v (ix2 n c) * v (ix2 n c) :=
    (Cert.LibColumn.shapeCast_a_a1_apply _ _ n 0).trans
      (Cert.LibAxisReduce.add_cols_apply (mulf v v) _ _ _ _ n)
  exact congrArg (fun s => Ideal.div Cert.Spec.oneW (max (Ideal.sqrt s) Cert.Spec.epsW)) hsum

/-- A block times its reciprocal-norm column, broadcast along the rows, is the kernel's normalised block. -/
theorem xn_apply (v : Vec Ideal S2048x128 .f32) (n : Fin 2048) (f : Fin 128) :
    mulf v (broadcastTo S2048x128 (rcol v) broadcasts_S2048x1_S2048x128) (ix2 n f)
      = Cert.Spec.xnK (fun n f => v (ix2 n f)) n f := by
  show v (ix2 n f) * broadcastTo S2048x128 (rcol v) broadcasts_S2048x1_S2048x128 (ix2 n f) = _
  rw [Cert.LibColumn.broadcastTo_a1_ab_apply, rcol_apply]
  rfl

/-- The normalised rows of the first step (the narrowing to bf16 is the identity on extended reals). -/
theorem pay3 (v5 : Vec Ideal S2048x128 .f32) (n : Fin 2048) (f : Fin 128) :
    k0_pay3 (F := Ideal) v5 (ix2 n f) = Cert.Spec.xnK (fun n f => v5 (ix2 n f)) n f := by
  unfold k0_pay3
  rw [shapeCast_self]
  exact xn_apply v5 n f

/-- The normalised rows of the second step: the same arithmetic on that step's block. -/
theorem pay12 (v42 : Vec Ideal S2048x128 .f32) (n : Fin 2048) (f : Fin 128) :
    k0_pay12 (F := Ideal) v42 (ix2 n f) = Cert.Spec.xnK (fun n f => v42 (ix2 n f)) n f := by
  unfold k0_pay12
  rw [shapeCast_self]
  exact xn_apply v42 n f

/-- The normalised rows of the third step: the same arithmetic again (here the value is handed on without a cast). -/
theorem pay21 (v79 : Vec Ideal S2048x128 .f32) (n : Fin 2048) (f : Fin 128) :
    k0_pay21 (F := Ideal) v79 (ix2 n f) = Cert.Spec.xnK (fun n f => v79 (ix2 n f)) n f := by
  unfold k0_pay21
  exact xn_apply v79 n f

/-- The zero fills of the degree column in the second and third steps. -/
theorem pay13 (n : Fin 2048) : k0_pay13 (F := Ideal) (ix2 n (0 : Fin 1)) = 0 := by
  unfold k0_pay13
  rw [shapeCast_self]
  exact Ideal.ofBits_zero_f32

theorem pay23 (n : Fin 2048) : k0_pay23 (F := Ideal) (ix2 n (0 : Fin 1)) = 0 := by
  unfold k0_pay23
  rw [shapeCast_self]
  exact Ideal.ofBits_zero_f32

/-- The zero fills of the accumulator in the second and third steps. -/
theorem pay18 (n : Fin 2048) (f : Fin 128) : k0_pay18 (F := Ideal) (ix2 n f) = 0 := by
  unfold k0_pay18
  rw [shapeCast_self]
  exact Ideal.ofBits_zero_f32

theorem pay28 (n : Fin 2048) (f : Fin 128) : k0_pay28 (F := Ideal) (ix2 n f) = 0 := by
  unfold k0_pay28
  rw [shapeCast_self]
  exact Ideal.ofBits_zero_f32

/-- The inverse square roots of the degree column in the second and third steps. -/
theorem pay17 (v62 : Vec Ideal S2048x1 .f32) (n : Fin 2048) :
    k0_pay17 (F := Ideal) v62 (ix2 n (0 : Fin 1)) = Ideal.rsqrt (v62 (ix2 n (0 : Fin 1))) := by
  unfold k0_pay17
  rw [shapeCast_self]
  rfl

theorem pay27 (v99 : Vec Ideal S2048x1 .f32) (n : Fin 2048) :
    k0_pay27 (F := Ideal) v99 (ix2 n (0 : Fin 1)) = Ideal.rsqrt (v99 (ix2 n (0 : Fin 1))) := by
  unfold k0_pay27
  rw [shapeCast_self]
  rfl

/-- The row scalings of the second and third steps. -/
theorem pay20 (v72 : Vec Ideal S2048x1 .f32) (v73 : Vec Ideal S2048x128 .f32) (n : Fin 2048) (f : Fin 128) :
    k0_pay20 (F := Ideal) v72 v73 (ix2 n f) = v72 (ix2 n (0 : Fin 1)) * v73 (ix2 n f) := by
  unfold k0_pay20
  rw [shapeCast_self]
  show broadcastTo S2048x128 v72 broadcasts_S2048x1_S2048x128 (ix2 n f) * v73 (ix2 n f) = _
  rw [Cert.LibColumn.broadcastTo_a1_ab_apply]

theorem pay30 (v109 : Vec Ideal S2048x1 .f32) (v110 : Vec Ideal S2048x128 .f32) (n : Fin 2048) (f : Fin 128) :
    k0_pay30 (F := Ideal) v109 v110 (ix2 n f) = v109 (ix2 n (0 : Fin 1)) * v110 (ix2 n f) := by
  unfold k0_pay30
  rw [shapeCast_self]
  show broadcastTo S2048x128 v109 broadcasts_S2048x1_S2048x128 (ix2 n f) * v110 (ix2 n f) = _
  rw [Cert.LibColumn.broadcastTo_a1_ab_apply]

/-- The dimension numbers of the closing product are those of a plain `2048×128` by `128×128` product. -/
theorem dot_eq_plain : dot_S2048x128_S128x128_S2048x128_1_0_0_1_n_n = DotDims.plain 2048 128 128 := rfl

/-- The output block: `(h₃ + x) · w`, entry `(n, o)` the sum over the feature index (the narrowings to bf16 are the
    identity on extended reals, and the product accumulates into zero). -/
theorem pay1 (v116 : Vec Ideal S2048x128 .f32) (v117 : Vec Ideal S1x2048x128 .f32) (v121 : Vec Ideal S128x128 .f32)
    (n : Fin 2048) (o : Fin 128) :
    k0_pay1 (F := Ideal) v116 v117 v121 (ix3 (0 : Fin 1) n o)
      = ∑ f : Fin 128, (v116 (ix2 n f) + v117 (ix3 (0 : Fin 1) n f)) * v121 (ix2 f o) := by
  unfold k0_pay1
  refine (shapeCast_ab_1ab_apply _ _ (0 : Fin 1) n o).trans ?_
  rw [dot_eq_plain]
  refine (Cert.LibPlainDot.matmul_zero_apply none _ _ n o).trans ?_
  refine Finset.sum_congr rfl fun l _ => ?_
  show (v116 (ix2 n l) + shapeCast S2048x128 v117 shapeCasts_S1x2048x128_S2048x128 (ix2 n l)) * v121 (ix2 l o) = _
  rw [shapeCast_1ab_ab_apply]

end Cert.KernelIdeal.PayVal

end
-- ==== Proof.LibMatmulNT.lean ====
/-
  Two general facts about values read at an index, at the exact (extended-real) reading of the float operations.

  * The product `A · Bᵀ` of an `m × k` and an `n × k` matrix — a matrix unit's product whose dimension numbers contract
    the LAST axis of both operands and keep no batch axis — accumulated into the zero matrix, read at `(a, b)`, is the
    inner product of row `a` of `A` with row `b` of `B`:  Σ_{c < k} A[a, c] · B[b, c].
  * A block `[1, 1, a, b]` viewed as the matrix `[a, b]` reads `(0, 0, i, j)` at `(i, j)`.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Gram

open Idealize.ShloMosaic Idealize.ShloMosaic.ValueIdx

/-- `A · Bᵀ` into the zero accumulator, read at `(a, b)`: the inner product of the two rows. `w` is the record's
    well-formedness, which a program states. -/
theorem matmul_nt_zero_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B (constant ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- A `[1, 1, a, b]` block cast to the matrix `[a, b]` reads, at `(i, j)`, the block at `(0, 0, i, j)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

end Cert.Gram

end
-- ==== Proof.LoopDeg.lean ====
/-
  What the three degree loops of the kernel leave in the degree column and in the adjacency cache.

  Each loop makes four trips over 512-column chunks of the 2048 × 2048 thresholded Gram matrix of the rows of the
  normalised matrix Xn. Trip b forms the chunk  A_b[n, j] = thr t (Σ_f Xn[n, f] · Xn[512 b + j, f]),  adds its row sums
  to the degree column and stores the chunk into columns 512 b … 512 b + 511 of the cache. After the four trips the
  degree column holds its initial value plus  Σ_m adj t Xn n m,  and the cache reads  adj t Xn n m  at (n, m).
-/
import proofs.«136311_j35759897706671_2_alg».proof.Proof.Gen.KernelIdeal.Loops
import proofs.«136311_j35759897706671_2_alg».proof.Proof.Spec
import proofs.«136311_j35759897706671_2_alg».proof.Proof.LibMatmulNT
import proofs.«136311_j35759897706671_2_alg».proof.Proof.LibAxisReduce
import proofs.«136311_j35759897706671_2_alg».proof.Proof.LibColumn
import Idealize.ShloMosaic.Lib.WritesUnit
import Idealize.ShloMosaic.Lib.ValueIdx
import Idealize.ShloMosaic.Lib.Pipeline.Value

set_option maxRecDepth 16384

noncomputable section

open scoped BigOperators

namespace Cert.KernelIdeal.LoopVal

open Cert.KernelIdeal Cert.KernelIdeal.Gen Idealize.ShloMosaic Idealize.ShloMosaic.ValueIdx

/-! ## General facts -/

/-- A load through a unit-stride rectangle of a rank-2 buffer reads, at (p, q), the buffer at the offsets plus (p, q). -/
theorem ld_block_apply {α : Type} {d0 d1 s0 s1 : ℕ} (X : (⟨2, ![d0, d1]⟩ : Shape).Idx → α) (off off' : Fin 2 → ℕ)
    (inb : ∀ a, off a + (![s0, s1] : Fin 2 → ℕ) a ≤ (⟨2, ![d0, d1]⟩ : Shape).size a) (heq : off = off')
    (p : Fin s0) (q : Fin s1) (P : Fin d0) (Q : Fin d1) (hP : P.val = off' 0 + p.val) (hQ : Q.val = off' 1 + q.val) :
    X ((Rect.unit (s := ⟨2, ![d0, d1]⟩) off ![s0, s1] inb).toLoadRect.idx (ix2 p q)) = X (ix2 P Q) := by
  subst heq
  refine congrArg X (funext fun a => Fin.ext ?_)
  match a with
  | ⟨0, _⟩ => show off 0 + 1 * p.val = P.val; rw [Nat.one_mul, hP]
  | ⟨1, _⟩ => show off 1 + 1 * q.val = Q.val; rw [Nat.one_mul, hQ]

/-- A sum over 2048 indices, taken as four consecutive chunks of 512 added one after the other to a start value. -/
theorem sum_chunks {M : Type*} [AddCommMonoid M] (g : Fin 2048 → M) (z : M) :
    (((z + ∑ j : Fin 512, g ⟨512 * 0 + j.val, by have := j.isLt; omega⟩)
        + ∑ j : Fin 512, g ⟨512 * 1 + j.val, by have := j.isLt; omega⟩)
        + ∑ j : Fin 512, g ⟨512 * 2 + j.val, by have := j.isLt; omega⟩)
        + ∑ j : Fin 512, g ⟨512 * 3 + j.val, by have := j.isLt; omega⟩
      = z + ∑ m : Fin 2048, g m := by
  have h : ∑ m : Fin 2048, g m
      = ∑ b : Fin 4, ∑ j : Fin 512, g ⟨512 * b.val + j.val, by have := b.isLt; have := j.isLt; omega⟩ := by
    rw [← Equiv.sum_comp (finProdFinEquiv (m := 4) (n := 512)) g, Fintype.sum_prod_type]
    refine Finset.sum_congr rfl fun b _ => Finset.sum_congr rfl fun j _ => congrArg g (Fin.ext ?_)
    show j.val + 512 * b.val = 512 * b.val + j.val
    omega
  rw [h, Fin.sum_univ_four]
  simp only [add_assoc]
  rfl

/-- The thresholded inner product of row n of A with row j of B is the adjacency at (n, m) when those rows are rows n and
    m of xn. -/
theorem thr_eq_adj (t : EReal) (xn : Fin 2048 → Fin 128 → EReal) (A : FVec Ideal S2048x128 .bf16) (B : FVec Ideal S512x128 .bf16)
    (n m : Fin 2048) (j : Fin 512) (hA : ∀ f, A (ix2 n f) = xn n f) (hB : ∀ f, B (ix2 j f) = xn m f) :
    Cert.Spec.thr t (∑ f : Fin 128, A (ix2 n f) * B (ix2 j f)) = Cert.Spec.adj t xn n m := by
  unfold Cert.Spec.adj
  refine congrArg (Cert.Spec.thr t) (Finset.sum_congr rfl fun f _ => ?_)
  rw [hA f, hB f]

/-! ## The loop with threshold `t1W` -/

/-- The thresholded chunk at (n, j): the inner product of row n of A with row j of B, kept where it exceeds the threshold. -/
theorem k0_pay5_apply (A : FVec Ideal S2048x128 .bf16) (B : FVec Ideal S512x128 .bf16) (n : Fin 2048) (j : Fin 512) :
    k0_pay5 (F := Ideal) A B (ix2 n j) = Cert.Spec.thr Cert.Spec.t1W (∑ f : Fin 128, A (ix2 n f) * B (ix2 j f)) := by
  unfold k0_pay5
  have hm : matmul dot_S2048x128_S512x128_S2048x512_1_1_0_0_n_n none A B (constant (F := Ideal) S2048x512 .f32 0x00000000#32) (ix2 n j)
      = ∑ f : Fin 128, A (ix2 n f) * B (ix2 j f) :=
    Cert.Gram.matmul_nt_zero_apply (m := 2048) (n := 512) (k := 128) _ none A B n j
  show Scalar.select (FloatOps.cmpf .ogt
      (matmul dot_S2048x128_S512x128_S2048x512_1_1_0_0_n_n none A B (constant (F := Ideal) S2048x512 .f32 0x00000000#32) (ix2 n j)) _)
      (matmul dot_S2048x128_S512x128_S2048x512_1_1_0_0_n_n none A B (constant (F := Ideal) S2048x512 .f32 0x00000000#32) (ix2 n j)) _ = _
  rw [hm]
  rfl

/-- The degree column after one trip, at row n: what it held plus the row sum of the chunk. -/
theorem k0_pay6_apply (A : FVec Ideal S2048x128 .bf16) (B : FVec Ideal S512x128 .bf16) (d : FVec Ideal S2048x1 .f32) (n : Fin 2048) :
    k0_pay6 (F := Ideal) A B d (ix2 n (0 : Fin 1))
      = d (ix2 n (0 : Fin 1)) + ∑ j : Fin 512, Cert.Spec.thr Cert.Spec.t1W (∑ f : Fin 128, A (ix2 n f) * B (ix2 j f)) := by
  unfold k0_pay6
  show shapeCast S2048x1 (addf d (shapeCast S2048x1
      (multiReduction (F := Ideal) .add [1] S2048 (k0_pay5 A B) 0x00000000#32 reduces_S2048x512_S2048 (.inl rfl) rfl)
      shapeCasts_S2048_S2048x1)) shapeCasts_S2048x1_S2048x1 (ix2 n (0 : Fin 1)) = _
  rw [shapeCast_self, addf_apply, Cert.LibColumn.shapeCast_a_a1_apply]
  refine congrArg (fun z => d (ix2 n (0 : Fin 1)) + z) ?_
  refine (Cert.LibAxisReduce.add_cols_apply (a := 2048) (b := 512) (k0_pay5 (F := Ideal) A B) 0x00000000#32
    reduces_S2048x512_S2048 (.inl rfl) rfl n).trans ?_
  exact Finset.sum_congr rfl fun j _ => k0_pay5_apply A B n j

/-- The chunk as it is stored into the cache: narrowing to bf16 changes no value at the exact reading. -/
theorem k0_pay7_apply (A : FVec Ideal S2048x128 .bf16) (B : FVec Ideal S512x128 .bf16) (n : Fin 2048) (j : Fin 512) :
    k0_pay7 (F := Ideal) A B (ix2 n j) = Cert.Spec.thr Cert.Spec.t1W (∑ f : Fin 128, A (ix2 n f) * B (ix2 j f)) := by
  unfold k0_pay7
  show shapeCast S2048x512 (truncf .bf16 (k0_pay5 (F := Ideal) A B) bitsLt_bf16_f32) shapeCasts_S2048x512_S2048x512 (ix2 n j) = _
  rw [shapeCast_self, truncf_apply]
  exact k0_pay5_apply A B n j

/-- What one trip writes into the degree column: one store over the whole column. -/
theorem trip7_t1 {F : FTy → Type} [FloatOps F] (𝒱 : Variants) (c : Dev nD) (bd : Option 𝒱.V) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x2048 .bf16) (harg8 : arg8.IsWhole) (X : BufTy.Contents (Elt F) arg5.view.ty) (k : Fin k0_t1_loop.trips)
    (f7 : BufTy.Contents (Elt F) arg7.view.ty) (f8 : BufTy.Contents (Elt F) arg8.view.ty) :
    (trip_k0_t1 (F := F) 𝒱 c bd i arg1 harg1 arg2 harg2 arg3 harg3 arg4 harg4 arg5 harg5 arg6 harg6 arg7 harg7 arg8 harg8 X k).1 f7 f8
      = [⟨Rect.unit (s := S2048x1) ![0, 0] S2048x1.size inb_S2048x1_S2048x1_0_0,
          k0_pay6 (arg5.view.readAt (Elt F) (Rect.unit (s := S2048x128) ![0, 0] S2048x128.size inb_S2048x128_S2048x128_0_0).toLoadRect X) (arg5.view.readAt (Elt F) (Rect.unit (s := S2048x128) (k0_off1 k) S512x128.size (k0_off1_inb k)).toLoadRect X) (arg7.view.readAt (Elt F) (Rect.unit (s := S2048x1) ![0, 0] S2048x1.size inb_S2048x1_S2048x1_0_0).toLoadRect f7)⟩] := by
  unfold trip_k0_t1
  rfl

/-- What one trip writes into the cache: one store over its 512 columns. -/
theorem trip8_t1 {F : FTy → Type} [FloatOps F] (𝒱 : Variants) (c : Dev nD) (bd : Option 𝒱.V) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x2048 .bf16) (harg8 : arg8.IsWhole) (X : BufTy.Contents (Elt F) arg5.view.ty) (k : Fin k0_t1_loop.trips)
    (f7 : BufTy.Contents (Elt F) arg7.view.ty) (f8 : BufTy.Contents (Elt F) arg8.view.ty) :
    (trip_k0_t1 (F := F) 𝒱 c bd i arg1 harg1 arg2 harg2 arg3 harg3 arg4 harg4 arg5 harg5 arg6 harg6 arg7 harg7 arg8 harg8 X k).2.1 f7 f8
      = [⟨Rect.unit (s := S2048x2048) (k0_off2 k) S2048x512.size (k0_off2_inb k),
          k0_pay7 (arg5.view.readAt (Elt F) (Rect.unit (s := S2048x128) ![0, 0] S2048x128.size inb_S2048x128_S2048x128_0_0).toLoadRect X) (arg5.view.readAt (Elt F) (Rect.unit (s := S2048x128) (k0_off1 k) S512x128.size (k0_off1_inb k)).toLoadRect X)⟩] := by
  unfold trip_k0_t1
  rfl

theorem trips_t1 : k0_t1_loop.trips = 4 := by decide +kernel

/-- The chunk of trip k at (n, j) is the adjacency at (n, m), m = 512 k + j. -/
theorem chunk_t1 (𝒱 : Variants) (c : Dev nD) (bd : Option 𝒱.V) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x2048 .bf16) (harg8 : arg8.IsWhole) (X : BufTy.Contents (Elt Ideal) arg5.view.ty) (k : Fin k0_t1_loop.trips) (n : Fin 2048) (j : Fin 512) (m : Fin 2048)
    (hm : m.val = 512 * k.val + j.val) :
    Cert.Spec.thr Cert.Spec.t1W (∑ f : Fin 128,
        (arg5.view.readAt (Elt Ideal) (Rect.unit (s := S2048x128) ![0, 0] S2048x128.size inb_S2048x128_S2048x128_0_0).toLoadRect X : FVec Ideal S2048x128 .bf16) (ix2 n f)
          * (arg5.view.readAt (Elt Ideal) (Rect.unit (s := S2048x128) (k0_off1 k) S512x128.size (k0_off1_inb k)).toLoadRect X : FVec Ideal S512x128 .bf16) (ix2 j f))
      = Cert.Spec.adj Cert.Spec.t1W (fun n f => arg5.view.read (Elt Ideal) X (ix2 n f)) n m :=
  thr_eq_adj Cert.Spec.t1W (fun n f => arg5.view.read (Elt Ideal) X (ix2 n f)) _ _ n m j
    (fun f => ld_block_apply (arg5.view.read (Elt Ideal) X) ![0, 0] ![0, 0] inb_S2048x128_S2048x128_0_0 rfl n f n f
      (Nat.zero_add _).symm (Nat.zero_add _).symm)
    (fun f => ld_block_apply (arg5.view.read (Elt Ideal) X) (k0_off1 k) ![512 * k.val, 0] (k0_off1_inb k) (k0_off1_eq k) j f m f
      hm (Nat.zero_add _).symm)

/-- One trip adds the row sums of its chunk to the degree column. -/
theorem deg_step_t1 (𝒱 : Variants) (c : Dev nD) (bd : Option 𝒱.V) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x2048 .bf16) (harg8 : arg8.IsWhole) (X : BufTy.Contents (Elt Ideal) arg5.view.ty) (G7 : BufTy.Contents (Elt Ideal) arg7.view.ty)
    (G8 : BufTy.Contents (Elt Ideal) arg8.view.ty) (k : Fin k0_t1_loop.trips) (n : Fin 2048) :
    arg7.view.read (Elt Ideal) (arg7.view.writes (Elt Ideal) G7 (pb_k0_t1 (F := Ideal) 𝒱 c bd i arg1 harg1 arg2 harg2 arg3 harg3 arg4 harg4 arg5 harg5 arg6 harg6 arg7 harg7 arg8 harg8 X G7 G8 (k.val + 1)).1) (ix2 n (0 : Fin 1))
      = arg7.view.read (Elt Ideal) (arg7.view.writes (Elt Ideal) G7 (pb_k0_t1 (F := Ideal) 𝒱 c bd i arg1 harg1 arg2 harg2 arg3 harg3 arg4 harg4 arg5 harg5 arg6 harg6 arg7 harg7 arg8 harg8 X G7 G8 k.val).1) (ix2 n (0 : Fin 1))
        + ∑ j : Fin 512, Cert.Spec.adj Cert.Spec.t1W (fun n f => arg5.view.read (Elt Ideal) X (ix2 n f)) n
            ⟨512 * k.val + j.val, by have := k.isLt; have := trips_t1; have := j.isLt; omega⟩ := by
  rw [pb_k0_t1_succ]
  generalize pb_k0_t1 (F := Ideal) 𝒱 c bd i arg1 harg1 arg2 harg2 arg3 harg3 arg4 harg4 arg5 harg5 arg6 harg6 arg7 harg7 arg8 harg8 X G7 G8 k.val = P
  show arg7.view.read (Elt Ideal) (arg7.view.writes (Elt Ideal) G7
      ((trip_k0_t1 (F := Ideal) 𝒱 c bd i arg1 harg1 arg2 harg2 arg3 harg3 arg4 harg4 arg5 harg5 arg6 harg6 arg7 harg7 arg8 harg8 X k).1 (arg7.view.writes (Elt Ideal) G7 P.1) (arg8.view.writes (Elt Ideal) G8 P.2) ++ P.1))
      (ix2 n (0 : Fin 1)) = _
  rw [trip7_t1, List.singleton_append]
  refine (View.read_writes_cons_unit_of_mem arg7.view G7 inb_S2048x1_S2048x1_0_0 _ P.1 (ix2 n (0 : Fin 1)) (ix2 n (0 : Fin 1))
    (rfl : (![0, 0] : Fin 2 → ℕ) = ![0, 0])
    (fun a => match a with | ⟨0, _⟩ => (Nat.zero_add _).symm | ⟨1, _⟩ => (Nat.zero_add _).symm)).trans ?_
  rw [k0_pay6_apply]
  refine congrArg₂ (fun a b => a + b) ?_ (Finset.sum_congr rfl fun j _ => chunk_t1 𝒱 c bd i arg1 harg1 arg2 harg2 arg3 harg3 arg4 harg4 arg5 harg5 arg6 harg6 arg7 harg7 arg8 harg8 X k n j _ rfl)
  exact ld_block_apply (arg7.view.read (Elt Ideal) (arg7.view.writes (Elt Ideal) G7 P.1)) ![0, 0] ![0, 0] inb_S2048x1_S2048x1_0_0 rfl
    n (0 : Fin 1) n (0 : Fin 1) (Nat.zero_add _).symm (Nat.zero_add _).symm

/-- After the four trips the degree column holds what it held plus the row sums of the whole adjacency. -/
theorem deg1 (𝒱 : Variants) (c : Dev nD) (bd : Option 𝒱.V) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x2048 .bf16) (harg8 : arg8.IsWhole) (X : BufTy.Contents (Elt Ideal) arg5.view.ty) (G7 : BufTy.Contents (Elt Ideal) arg7.view.ty)
    (G8 : BufTy.Contents (Elt Ideal) arg8.view.ty) (n : Fin 2048) :
    arg7.view.read (Elt Ideal) (arg7.view.writes (Elt Ideal) G7 (pb_k0_t1 (F := Ideal) 𝒱 c bd i arg1 harg1 arg2 harg2 arg3 harg3 arg4 harg4 arg5 harg5 arg6 harg6 arg7 harg7 arg8 harg8 X G7 G8 k0_t1_loop.trips).1) (ValueIdx.ix2 n (0 : Fin 1))
      = arg7.view.read (Elt Ideal) G7 (ValueIdx.ix2 n (0 : Fin 1))
        + ∑ m : Fin 2048, Cert.Spec.adj Cert.Spec.t1W (fun n f => arg5.view.read (Elt Ideal) X (ValueIdx.ix2 n f)) n m := by
  have h4 := trips_t1
  rw [h4]
  have s3 := deg_step_t1 𝒱 c bd i arg1 harg1 arg2 harg2 arg3 harg3 arg4 harg4 arg5 harg5 arg6 harg6 arg7 harg7 arg8 harg8 X G7 G8 ⟨3, by omega⟩ n
  have s2 := deg_step_t1 𝒱 c bd i arg1 harg1 arg2 harg2 arg3 harg3 arg4 harg4 arg5 harg5 arg6 harg6 arg7 harg7 arg8 harg8 X G7 G8 ⟨2, by omega⟩ n
  have s1 := deg_step_t1 𝒱 c bd i arg1 harg1 arg2 harg2 arg3 harg3 arg4 harg4 arg5 harg5 arg6 harg6 arg7 harg7 arg8 harg8 X G7 G8 ⟨1, by omega⟩ n
  have s0 := deg_step_t1 𝒱 c bd i arg1 harg1 arg2 harg2 arg3 harg3 arg4 harg4 arg5 harg5 arg6 harg6 arg7 harg7 arg8 harg8 X G7 G8 ⟨0, by omega⟩ n
  refine (s3.trans ?_).trans (sum_chunks (fun m => Cert.Spec.adj Cert.Spec.t1W (fun n f => arg5.view.read (Elt Ideal) X (ix2 n f)) n m)
    (arg7.view.read (Elt Ideal) G7 (ix2 n (0 : Fin 1))))
  refine congrArg (fun z => z + _) (s2.trans ?_)
  refine congrArg (fun z => z + _) (s1.trans ?_)
  exact congrArg (fun z => z + _) s0

/-- The cache's pieces grow by one store per trip, whatever the buffers held. -/
theorem pb_snd_t1 (𝒱 : Variants) (c : Dev nD) (bd : Option 𝒱.V) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x2048 .bf16) (harg8 : arg8.IsWhole) (X : BufTy.Contents (Elt Ideal) arg5.view.ty) (G7 : BufTy.Contents (Elt Ideal) arg7.view.ty)
    (G8 : BufTy.Contents (Elt Ideal) arg8.view.ty) (k : Fin k0_t1_loop.trips) :
    (pb_k0_t1 (F := Ideal) 𝒱 c bd i arg1 harg1 arg2 harg2 arg3 harg3 arg4 harg4 arg5 harg5 arg6 harg6 arg7 harg7 arg8 harg8 X G7 G8 (k.val + 1)).2
      = (⟨Rect.unit (s := S2048x2048) (k0_off2 k) S2048x512.size (k0_off2_inb k),
          k0_pay7 (arg5.view.readAt (Elt Ideal) (Rect.unit (s := S2048x128) ![0, 0] S2048x128.size inb_S2048x128_S2048x128_0_0).toLoadRect X) (arg5.view.readAt (Elt Ideal) (Rect.unit (s := S2048x128) (k0_off1 k) S512x128.size (k0_off1_inb k)).toLoadRect X)⟩ : View.Piece (Elt Ideal) S2048x2048 .bf16) :: (pb_k0_t1 (F := Ideal) 𝒱 c bd i arg1 harg1 arg2 harg2 arg3 harg3 arg4 harg4 arg5 harg5 arg6 harg6 arg7 harg7 arg8 harg8 X G7 G8 k.val).2 := by
  rw [pb_k0_t1_succ]
  generalize pb_k0_t1 (F := Ideal) 𝒱 c bd i arg1 harg1 arg2 harg2 arg3 harg3 arg4 harg4 arg5 harg5 arg6 harg6 arg7 harg7 arg8 harg8 X G7 G8 k.val = P
  show (trip_k0_t1 (F := Ideal) 𝒱 c bd i arg1 harg1 arg2 harg2 arg3 harg3 arg4 harg4 arg5 harg5 arg6 harg6 arg7 harg7 arg8 harg8 X k).2.1 (arg7.view.writes (Elt Ideal) G7 P.1) (arg8.view.writes (Elt Ideal) G8 P.2) ++ P.2 = _
  rw [trip8_t1, List.singleton_append]

/-- A column of trip k's chunk reads that trip's store when it is the newest. -/
theorem adj_hit_t1 (𝒱 : Variants) (c : Dev nD) (bd : Option 𝒱.V) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x2048 .bf16) (harg8 : arg8.IsWhole) (X : BufTy.Contents (Elt Ideal) arg5.view.ty) (G8 : BufTy.Contents (Elt Ideal) arg8.view.ty)
    (k : Fin k0_t1_loop.trips) (L : List (View.Piece (Elt Ideal) S2048x2048 .bf16)) (n m : Fin 2048)
    (hlo : 512 * k.val ≤ m.val) (hhi : m.val < 512 * k.val + 512) :
    arg8.view.read (Elt Ideal) (arg8.view.writes (Elt Ideal) G8 ((⟨Rect.unit (s := S2048x2048) (k0_off2 k) S2048x512.size (k0_off2_inb k),
          k0_pay7 (arg5.view.readAt (Elt Ideal) (Rect.unit (s := S2048x128) ![0, 0] S2048x128.size inb_S2048x128_S2048x128_0_0).toLoadRect X) (arg5.view.readAt (Elt Ideal) (Rect.unit (s := S2048x128) (k0_off1 k) S512x128.size (k0_off1_inb k)).toLoadRect X)⟩ : View.Piece (Elt Ideal) S2048x2048 .bf16) :: L)) (ix2 n m)
      = Cert.Spec.adj Cert.Spec.t1W (fun n f => arg5.view.read (Elt Ideal) X (ix2 n f)) n m := by
  refine (View.read_writes_cons_unit_of_mem arg8.view G8 (k0_off2_inb k) _ L (ix2 n m)
    (ix2 n (⟨m.val - 512 * k.val, by omega⟩ : Fin 512)) (k0_off2_eq k)
    (fun a => match a with
      | ⟨0, _⟩ => (Nat.zero_add _).symm
      | ⟨1, _⟩ => by show m.val = 512 * k.val + (m.val - 512 * k.val); omega)).trans ?_
  rw [k0_pay7_apply]
  exact chunk_t1 𝒱 c bd i arg1 harg1 arg2 harg2 arg3 harg3 arg4 harg4 arg5 harg5 arg6 harg6 arg7 harg7 arg8 harg8 X k n _ m (by show m.val = 512 * k.val + (m.val - 512 * k.val); omega)

/-- A column outside trip k's chunk reads what the earlier stores left. -/
theorem adj_miss_t1 (𝒱 : Variants) (c : Dev nD) (bd : Option 𝒱.V) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x2048 .bf16) (harg8 : arg8.IsWhole) (X : BufTy.Contents (Elt Ideal) arg5.view.ty) (G8 : BufTy.Contents (Elt Ideal) arg8.view.ty)
    (k : Fin k0_t1_loop.trips) (L : List (View.Piece (Elt Ideal) S2048x2048 .bf16)) (n m : Fin 2048)
    (h : m.val < 512 * k.val ∨ 512 * k.val + 512 ≤ m.val) :
    arg8.view.read (Elt Ideal) (arg8.view.writes (Elt Ideal) G8 ((⟨Rect.unit (s := S2048x2048) (k0_off2 k) S2048x512.size (k0_off2_inb k),
          k0_pay7 (arg5.view.readAt (Elt Ideal) (Rect.unit (s := S2048x128) ![0, 0] S2048x128.size inb_S2048x128_S2048x128_0_0).toLoadRect X) (arg5.view.readAt (Elt Ideal) (Rect.unit (s := S2048x128) (k0_off1 k) S512x128.size (k0_off1_inb k)).toLoadRect X)⟩ : View.Piece (Elt Ideal) S2048x2048 .bf16) :: L)) (ix2 n m)
      = arg8.view.read (Elt Ideal) (arg8.view.writes (Elt Ideal) G8 L) (ix2 n m) := by
  refine View.read_writes_cons_unit_of_not_mem arg8.view G8 (k0_off2_inb k) _ L (ix2 n m) (k0_off2_eq k) (⟨1, Nat.one_lt_two⟩ : Fin 2) ?_
  exact h

/-- After K trips the first 512 K columns of the cache read the adjacency. -/
theorem adj_upto_t1 (𝒱 : Variants) (c : Dev nD) (bd : Option 𝒱.V) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x2048 .bf16) (harg8 : arg8.IsWhole) (X : BufTy.Contents (Elt Ideal) arg5.view.ty) (G7 : BufTy.Contents (Elt Ideal) arg7.view.ty)
    (G8 : BufTy.Contents (Elt Ideal) arg8.view.ty) (n : Fin 2048) :
    ∀ K : ℕ, K ≤ k0_t1_loop.trips → ∀ m : Fin 2048, m.val < 512 * K →
      arg8.view.read (Elt Ideal) (arg8.view.writes (Elt Ideal) G8 (pb_k0_t1 (F := Ideal) 𝒱 c bd i arg1 harg1 arg2 harg2 arg3 harg3 arg4 harg4 arg5 harg5 arg6 harg6 arg7 harg7 arg8 harg8 X G7 G8 K).2) (ix2 n m)
        = Cert.Spec.adj Cert.Spec.t1W (fun n f => arg5.view.read (Elt Ideal) X (ix2 n f)) n m
  | 0, _, m, hm => absurd hm (by omega)
  | K + 1, hK, m, hm => by
    have e := pb_snd_t1 𝒱 c bd i arg1 harg1 arg2 harg2 arg3 harg3 arg4 harg4 arg5 harg5 arg6 harg6 arg7 harg7 arg8 harg8 X G7 G8 ⟨K, Nat.lt_of_succ_le hK⟩
    refine (congrArg (fun L => arg8.view.read (Elt Ideal) (arg8.view.writes (Elt Ideal) G8 L) (ix2 n m)) e).trans ?_
    by_cases h : m.val < 512 * K
    · exact (adj_miss_t1 𝒱 c bd i arg1 harg1 arg2 harg2 arg3 harg3 arg4 harg4 arg5 harg5 arg6 harg6 arg7 harg7 arg8 harg8 X G8 ⟨K, Nat.lt_of_succ_le hK⟩ _ n m (Or.inl h)).trans
        (adj_upto_t1 𝒱 c bd i arg1 harg1 arg2 harg2 arg3 harg3 arg4 harg4 arg5 harg5 arg6 harg6 arg7 harg7 arg8 harg8 X G7 G8 n K (Nat.le_of_succ_le hK) m h)
    · exact adj_hit_t1 𝒱 c bd i arg1 harg1 arg2 harg2 arg3 harg3 arg4 harg4 arg5 harg5 arg6 harg6 arg7 harg7 arg8 harg8 X G8 ⟨K, Nat.lt_of_succ_le hK⟩ _ n m (by show 512 * K ≤ m.val; omega)
        (by show m.val < 512 * K + 512; omega)

/-- After the four trips the cache reads the adjacency everywhere, whatever it held. -/
theorem adj1 (𝒱 : Variants) (c : Dev nD) (bd : Option 𝒱.V) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x2048 .bf16) (harg8 : arg8.IsWhole) (X : BufTy.Contents (Elt Ideal) arg5.view.ty) (G7 : BufTy.Contents (Elt Ideal) arg7.view.ty)
    (G8 : BufTy.Contents (Elt Ideal) arg8.view.ty) (n m : Fin 2048) :
    arg8.view.read (Elt Ideal) (arg8.view.writes (Elt Ideal) G8 (pb_k0_t1 (F := Ideal) 𝒱 c bd i arg1 harg1 arg2 harg2 arg3 harg3 arg4 harg4 arg5 harg5 arg6 harg6 arg7 harg7 arg8 harg8 X G7 G8 k0_t1_loop.trips).2) (ValueIdx.ix2 n m)
      = Cert.Spec.adj Cert.Spec.t1W (fun n f => arg5.view.read (Elt Ideal) X (ValueIdx.ix2 n f)) n m :=
  adj_upto_t1 𝒱 c bd i arg1 harg1 arg2 harg2 arg3 harg3 arg4 harg4 arg5 harg5 arg6 harg6 arg7 harg7 arg8 harg8 X G7 G8 n k0_t1_loop.trips le_rfl m (by have := trips_t1; have := m.isLt; omega)

/-! ## The loop with threshold `t2W` -/

/-- The thresholded chunk at (n, j): the inner product of row n of A with row j of B, kept where it exceeds the threshold. -/
theorem k0_pay14_apply (A : FVec Ideal S2048x128 .bf16) (B : FVec Ideal S512x128 .bf16) (n : Fin 2048) (j : Fin 512) :
    k0_pay14 (F := Ideal) A B (ix2 n j) = Cert.Spec.thr Cert.Spec.t2W (∑ f : Fin 128, A (ix2 n f) * B (ix2 j f)) := by
  unfold k0_pay14
  have hm : matmul dot_S2048x128_S512x128_S2048x512_1_1_0_0_n_n none A B (constant (F := Ideal) S2048x512 .f32 0x00000000#32) (ix2 n j)
      = ∑ f : Fin 128, A (ix2 n f) * B (ix2 j f) :=
    Cert.Gram.matmul_nt_zero_apply (m := 2048) (n := 512) (k := 128) _ none A B n j
  show Scalar.select (FloatOps.cmpf .ogt
      (matmul dot_S2048x128_S512x128_S2048x512_1_1_0_0_n_n none A B (constant (F := Ideal) S2048x512 .f32 0x00000000#32) (ix2 n j)) _)
      (matmul dot_S2048x128_S512x128_S2048x512_1_1_0_0_n_n none A B (constant (F := Ideal) S2048x512 .f32 0x00000000#32) (ix2 n j)) _ = _
  rw [hm]
  rfl

/-- The degree column after one trip, at row n: what it held plus the row sum of the chunk. -/
theorem k0_pay15_apply (A : FVec Ideal S2048x128 .bf16) (B : FVec Ideal S512x128 .bf16) (d : FVec Ideal S2048x1 .f32) (n : Fin 2048) :
    k0_pay15 (F := Ideal) A B d (ix2 n (0 : Fin 1))
      = d (ix2 n (0 : Fin 1)) + ∑ j : Fin 512, Cert.Spec.thr Cert.Spec.t2W (∑ f : Fin 128, A (ix2 n f) * B (ix2 j f)) := by
  unfold k0_pay15
  show shapeCast S2048x1 (addf d (shapeCast S2048x1
      (multiReduction (F := Ideal) .add [1] S2048 (k0_pay14 A B) 0x00000000#32 reduces_S2048x512_S2048 (.inl rfl) rfl)
      shapeCasts_S2048_S2048x1)) shapeCasts_S2048x1_S2048x1 (ix2 n (0 : Fin 1)) = _
  rw [shapeCast_self, addf_apply, Cert.LibColumn.shapeCast_a_a1_apply]
  refine congrArg (fun z => d (ix2 n (0 : Fin 1)) + z) ?_
  refine (Cert.LibAxisReduce.add_cols_apply (a := 2048) (b := 512) (k0_pay14 (F := Ideal) A B) 0x00000000#32
    reduces_S2048x512_S2048 (.inl rfl) rfl n).trans ?_
  exact Finset.sum_congr rfl fun j _ => k0_pay14_apply A B n j

/-- The chunk as it is stored into the cache: narrowing to bf16 changes no value at the exact reading. -/
theorem k0_pay16_apply (A : FVec Ideal S2048x128 .bf16) (B : FVec Ideal S512x128 .bf16) (n : Fin 2048) (j : Fin 512) :
    k0_pay16 (F := Ideal) A B (ix2 n j) = Cert.Spec.thr Cert.Spec.t2W (∑ f : Fin 128, A (ix2 n f) * B (ix2 j f)) := by
  unfold k0_pay16
  show shapeCast S2048x512 (truncf .bf16 (k0_pay14 (F := Ideal) A B) bitsLt_bf16_f32) shapeCasts_S2048x512_S2048x512 (ix2 n j) = _
  rw [shapeCast_self, truncf_apply]
  exact k0_pay14_apply A B n j

/-- What one trip writes into the degree column: one store over the whole column. -/
theorem trip7_t3 {F : FTy → Type} [FloatOps F] (𝒱 : Variants) (c : Dev nD) (bd : Option 𝒱.V) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x2048 .bf16) (harg8 : arg8.IsWhole) (c0_i32_41 : BitVec 32) (c4_i32_42 : BitVec 32) (X : BufTy.Contents (Elt F) arg5.view.ty) (k : Fin k0_t3_loop.trips)
    (f7 : BufTy.Contents (Elt F) arg7.view.ty) (f8 : BufTy.Contents (Elt F) arg8.view.ty) :
    (trip_k0_t3 (F := F) 𝒱 c bd i arg1 harg1 arg2 harg2 arg3 harg3 arg4 harg4 arg5 harg5 arg6 harg6 arg7 harg7 arg8 harg8 c0_i32_41 c4_i32_42 X k).1 f7 f8
      = [⟨Rect.unit (s := S2048x1) ![0, 0] S2048x1.size inb_S2048x1_S2048x1_0_0,
          k0_pay15 (arg5.view.readAt (Elt F) (Rect.unit (s := S2048x128) ![0, 0] S2048x128.size inb_S2048x128_S2048x128_0_0).toLoadRect X) (arg5.view.readAt (Elt F) (Rect.unit (s := S2048x128) (k0_off6 k) S512x128.size (k0_off6_inb k)).toLoadRect X) (arg7.view.readAt (Elt F) (Rect.unit (s := S2048x1) ![0, 0] S2048x1.size inb_S2048x1_S2048x1_0_0).toLoadRect f7)⟩] := by
  unfold trip_k0_t3
  rfl

/-- What one trip writes into the cache: one store over its 512 columns. -/
theorem trip8_t3 {F : FTy → Type} [FloatOps F] (𝒱 : Variants) (c : Dev nD) (bd : Option 𝒱.V) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x2048 .bf16) (harg8 : arg8.IsWhole) (c0_i32_41 : BitVec 32) (c4_i32_42 : BitVec 32) (X : BufTy.Contents (Elt F) arg5.view.ty) (k : Fin k0_t3_loop.trips)
    (f7 : BufTy.Contents (Elt F) arg7.view.ty) (f8 : BufTy.Contents (Elt F) arg8.view.ty) :
    (trip_k0_t3 (F := F) 𝒱 c bd i arg1 harg1 arg2 harg2 arg3 harg3 arg4 harg4 arg5 harg5 arg6 harg6 arg7 harg7 arg8 harg8 c0_i32_41 c4_i32_42 X k).2.1 f7 f8
      = [⟨Rect.unit (s := S2048x2048) (k0_off7 k) S2048x512.size (k0_off7_inb k),
          k0_pay16 (arg5.view.readAt (Elt F) (Rect.unit (s := S2048x128) ![0, 0] S2048x128.size inb_S2048x128_S2048x128_0_0).toLoadRect X) (arg5.view.readAt (Elt F) (Rect.unit (s := S2048x128) (k0_off6 k) S512x128.size (k0_off6_inb k)).toLoadRect X)⟩] := by
  unfold trip_k0_t3
  rfl

theorem trips_t3 : k0_t3_loop.trips = 4 := by decide +kernel

/-- The chunk of trip k at (n, j) is the adjacency at (n, m), m = 512 k + j. -/
theorem chunk_t3 (𝒱 : Variants) (c : Dev nD) (bd : Option 𝒱.V) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x2048 .bf16) (harg8 : arg8.IsWhole) (c0_i32_41 : BitVec 32) (c4_i32_42 : BitVec 32) (X : BufTy.Contents (Elt Ideal) arg5.view.ty) (k : Fin k0_t3_loop.trips) (n : Fin 2048) (j : Fin 512) (m : Fin 2048)
    (hm : m.val = 512 * k.val + j.val) :
    Cert.Spec.thr Cert.Spec.t2W (∑ f : Fin 128,
        (arg5.view.readAt (Elt Ideal) (Rect.unit (s := S2048x128) ![0, 0] S2048x128.size inb_S2048x128_S2048x128_0_0).toLoadRect X : FVec Ideal S2048x128 .bf16) (ix2 n f)
          * (arg5.view.readAt (Elt Ideal) (Rect.unit (s := S2048x128) (k0_off6 k) S512x128.size (k0_off6_inb k)).toLoadRect X : FVec Ideal S512x128 .bf16) (ix2 j f))
      = Cert.Spec.adj Cert.Spec.t2W (fun n f => arg5.view.read (Elt Ideal) X (ix2 n f)) n m :=
  thr_eq_adj Cert.Spec.t2W (fun n f => arg5.view.read (Elt Ideal) X (ix2 n f)) _ _ n m j
    (fun f => ld_block_apply (arg5.view.read (Elt Ideal) X) ![0, 0] ![0, 0] inb_S2048x128_S2048x128_0_0 rfl n f n f
      (Nat.zero_add _).symm (Nat.zero_add _).symm)
    (fun f => ld_block_apply (arg5.view.read (Elt Ideal) X) (k0_off6 k) ![512 * k.val, 0] (k0_off6_inb k) (k0_off6_eq k) j f m f
      hm (Nat.zero_add _).symm)

/-- One trip adds the row sums of its chunk to the degree column. -/
theorem deg_step_t3 (𝒱 : Variants) (c : Dev nD) (bd : Option 𝒱.V) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x2048 .bf16) (harg8 : arg8.IsWhole) (c0_i32_41 : BitVec 32) (c4_i32_42 : BitVec 32) (X : BufTy.Contents (Elt Ideal) arg5.view.ty) (G7 : BufTy.Contents (Elt Ideal) arg7.view.ty)
    (G8 : BufTy.Contents (Elt Ideal) arg8.view.ty) (k : Fin k0_t3_loop.trips) (n : Fin 2048) :
    arg7.view.read (Elt Ideal) (arg7.view.writes (Elt Ideal) G7 (pb_k0_t3 (F := Ideal) 𝒱 c bd i arg1 harg1 arg2 harg2 arg3 harg3 arg4 harg4 arg5 harg5 arg6 harg6 arg7 harg7 arg8 harg8 c0_i32_41 c4_i32_42 X G7 G8 (k.val + 1)).1) (ix2 n (0 : Fin 1))
      = arg7.view.read (Elt Ideal) (arg7.view.writes (Elt Ideal) G7 (pb_k0_t3 (F := Ideal) 𝒱 c bd i arg1 harg1 arg2 harg2 arg3 harg3 arg4 harg4 arg5 harg5 arg6 harg6 arg7 harg7 arg8 harg8 c0_i32_41 c4_i32_42 X G7 G8 k.val).1) (ix2 n (0 : Fin 1))
        + ∑ j : Fin 512, Cert.Spec.adj Cert.Spec.t2W (fun n f => arg5.view.read (Elt Ideal) X (ix2 n f)) n
            ⟨512 * k.val + j.val, by have := k.isLt; have := trips_t3; have := j.isLt; omega⟩ := by
  rw [pb_k0_t3_succ]
  generalize pb_k0_t3 (F := Ideal) 𝒱 c bd i arg1 harg1 arg2 harg2 arg3 harg3 arg4 harg4 arg5 harg5 arg6 harg6 arg7 harg7 arg8 harg8 c0_i32_41 c4_i32_42 X G7 G8 k.val = P
  show arg7.view.read (Elt Ideal) (arg7.view.writes (Elt Ideal) G7
      ((trip_k0_t3 (F := Ideal) 𝒱 c bd i arg1 harg1 arg2 harg2 arg3 harg3 arg4 harg4 arg5 harg5 arg6 harg6 arg7 harg7 arg8 harg8 c0_i32_41 c4_i32_42 X k).1 (arg7.view.writes (Elt Ideal) G7 P.1) (arg8.view.writes (Elt Ideal) G8 P.2) ++ P.1))
      (ix2 n (0 : Fin 1)) = _
  rw [trip7_t3, List.singleton_append]
  refine (View.read_writes_cons_unit_of_mem arg7.view G7 inb_S2048x1_S2048x1_0_0 _ P.1 (ix2 n (0 : Fin 1)) (ix2 n (0 : Fin 1))
    (rfl : (![0, 0] : Fin 2 → ℕ) = ![0, 0])
    (fun a => match a with | ⟨0, _⟩ => (Nat.zero_add _).symm | ⟨1, _⟩ => (Nat.zero_add _).symm)).trans ?_
  rw [k0_pay15_apply]
  refine congrArg₂ (fun a b => a + b) ?_ (Finset.sum_congr rfl fun j _ => chunk_t3 𝒱 c bd i arg1 harg1 arg2 harg2 arg3 harg3 arg4 harg4 arg5 harg5 arg6 harg6 arg7 harg7 arg8 harg8 c0_i32_41 c4_i32_42 X k n j _ rfl)
  exact ld_block_apply (arg7.view.read (Elt Ideal) (arg7.view.writes (Elt Ideal) G7 P.1)) ![0, 0] ![0, 0] inb_S2048x1_S2048x1_0_0 rfl
    n (0 : Fin 1) n (0 : Fin 1) (Nat.zero_add _).symm (Nat.zero_add _).symm

/-- After the four trips the degree column holds what it held plus the row sums of the whole adjacency. -/
theorem deg3 (𝒱 : Variants) (c : Dev nD) (bd : Option 𝒱.V) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x2048 .bf16) (harg8 : arg8.IsWhole) (c0_i32_41 : BitVec 32) (c4_i32_42 : BitVec 32) (X : BufTy.Contents (Elt Ideal) arg5.view.ty) (G7 : BufTy.Contents (Elt Ideal) arg7.view.ty)
    (G8 : BufTy.Contents (Elt Ideal) arg8.view.ty) (n : Fin 2048) :
    arg7.view.read (Elt Ideal) (arg7.view.writes (Elt Ideal) G7 (pb_k0_t3 (F := Ideal) 𝒱 c bd i arg1 harg1 arg2 harg2 arg3 harg3 arg4 harg4 arg5 harg5 arg6 harg6 arg7 harg7 arg8 harg8 c0_i32_41 c4_i32_42 X G7 G8 k0_t3_loop.trips).1) (ValueIdx.ix2 n (0 : Fin 1))
      = arg7.view.read (Elt Ideal) G7 (ValueIdx.ix2 n (0 : Fin 1))
        + ∑ m : Fin 2048, Cert.Spec.adj Cert.Spec.t2W (fun n f => arg5.view.read (Elt Ideal) X (ValueIdx.ix2 n f)) n m := by
  have h4 := trips_t3
  rw [h4]
  have s3 := deg_step_t3 𝒱 c bd i arg1 harg1 arg2 harg2 arg3 harg3 arg4 harg4 arg5 harg5 arg6 harg6 arg7 harg7 arg8 harg8 c0_i32_41 c4_i32_42 X G7 G8 ⟨3, by omega⟩ n
  have s2 := deg_step_t3 𝒱 c bd i arg1 harg1 arg2 harg2 arg3 harg3 arg4 harg4 arg5 harg5 arg6 harg6 arg7 harg7 arg8 harg8 c0_i32_41 c4_i32_42 X G7 G8 ⟨2, by omega⟩ n
  have s1 := deg_step_t3 𝒱 c bd i arg1 harg1 arg2 harg2 arg3 harg3 arg4 harg4 arg5 harg5 arg6 harg6 arg7 harg7 arg8 harg8 c0_i32_41 c4_i32_42 X G7 G8 ⟨1, by omega⟩ n
  have s0 := deg_step_t3 𝒱 c bd i arg1 harg1 arg2 harg2 arg3 harg3 arg4 harg4 arg5 harg5 arg6 harg6 arg7 harg7 arg8 harg8 c0_i32_41 c4_i32_42 X G7 G8 ⟨0, by omega⟩ n
  refine (s3.trans ?_).trans (sum_chunks (fun m => Cert.Spec.adj Cert.Spec.t2W (fun n f => arg5.view.read (Elt Ideal) X (ix2 n f)) n m)
    (arg7.view.read (Elt Ideal) G7 (ix2 n (0 : Fin 1))))
  refine congrArg (fun z => z + _) (s2.trans ?_)
  refine congrArg (fun z => z + _) (s1.trans ?_)
  exact congrArg (fun z => z + _) s0

/-- The cache's pieces grow by one store per trip, whatever the buffers held. -/
theorem pb_snd_t3 (𝒱 : Variants) (c : Dev nD) (bd : Option 𝒱.V) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x2048 .bf16) (harg8 : arg8.IsWhole) (c0_i32_41 : BitVec 32) (c4_i32_42 : BitVec 32) (X : BufTy.Contents (Elt Ideal) arg5.view.ty) (G7 : BufTy.Contents (Elt Ideal) arg7.view.ty)
    (G8 : BufTy.Contents (Elt Ideal) arg8.view.ty) (k : Fin k0_t3_loop.trips) :
    (pb_k0_t3 (F := Ideal) 𝒱 c bd i arg1 harg1 arg2 harg2 arg3 harg3 arg4 harg4 arg5 harg5 arg6 harg6 arg7 harg7 arg8 harg8 c0_i32_41 c4_i32_42 X G7 G8 (k.val + 1)).2
      = (⟨Rect.unit (s := S2048x2048) (k0_off7 k) S2048x512.size (k0_off7_inb k),
          k0_pay16 (arg5.view.readAt (Elt Ideal) (Rect.unit (s := S2048x128) ![0, 0] S2048x128.size inb_S2048x128_S2048x128_0_0).toLoadRect X) (arg5.view.readAt (Elt Ideal) (Rect.unit (s := S2048x128) (k0_off6 k) S512x128.size (k0_off6_inb k)).toLoadRect X)⟩ : View.Piece (Elt Ideal) S2048x2048 .bf16) :: (pb_k0_t3 (F := Ideal) 𝒱 c bd i arg1 harg1 arg2 harg2 arg3 harg3 arg4 harg4 arg5 harg5 arg6 harg6 arg7 harg7 arg8 harg8 c0_i32_41 c4_i32_42 X G7 G8 k.val).2 := by
  rw [pb_k0_t3_succ]
  generalize pb_k0_t3 (F := Ideal) 𝒱 c bd i arg1 harg1 arg2 harg2 arg3 harg3 arg4 harg4 arg5 harg5 arg6 harg6 arg7 harg7 arg8 harg8 c0_i32_41 c4_i32_42 X G7 G8 k.val = P
  show (trip_k0_t3 (F := Ideal) 𝒱 c bd i arg1 harg1 arg2 harg2 arg3 harg3 arg4 harg4 arg5 harg5 arg6 harg6 arg7 harg7 arg8 harg8 c0_i32_41 c4_i32_42 X k).2.1 (arg7.view.writes (Elt Ideal) G7 P.1) (arg8.view.writes (Elt Ideal) G8 P.2) ++ P.2 = _
  rw [trip8_t3, List.singleton_append]

/-- A column of trip k's chunk reads that trip's store when it is the newest. -/
theorem adj_hit_t3 (𝒱 : Variants) (c : Dev nD) (bd : Option 𝒱.V) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x2048 .bf16) (harg8 : arg8.IsWhole) (c0_i32_41 : BitVec 32) (c4_i32_42 : BitVec 32) (X : BufTy.Contents (Elt Ideal) arg5.view.ty) (G8 : BufTy.Contents (Elt Ideal) arg8.view.ty)
    (k : Fin k0_t3_loop.trips) (L : List (View.Piece (Elt Ideal) S2048x2048 .bf16)) (n m : Fin 2048)
    (hlo : 512 * k.val ≤ m.val) (hhi : m.val < 512 * k.val + 512) :
    arg8.view.read (Elt Ideal) (arg8.view.writes (Elt Ideal) G8 ((⟨Rect.unit (s := S2048x2048) (k0_off7 k) S2048x512.size (k0_off7_inb k),
          k0_pay16 (arg5.view.readAt (Elt Ideal) (Rect.unit (s := S2048x128) ![0, 0] S2048x128.size inb_S2048x128_S2048x128_0_0).toLoadRect X) (arg5.view.readAt (Elt Ideal) (Rect.unit (s := S2048x128) (k0_off6 k) S512x128.size (k0_off6_inb k)).toLoadRect X)⟩ : View.Piece (Elt Ideal) S2048x2048 .bf16) :: L)) (ix2 n m)
      = Cert.Spec.adj Cert.Spec.t2W (fun n f => arg5.view.read (Elt Ideal) X (ix2 n f)) n m := by
  refine (View.read_writes_cons_unit_of_mem arg8.view G8 (k0_off7_inb k) _ L (ix2 n m)
    (ix2 n (⟨m.val - 512 * k.val, by omega⟩ : Fin 512)) (k0_off7_eq k)
    (fun a => match a with
      | ⟨0, _⟩ => (Nat.zero_add _).symm
      | ⟨1, _⟩ => by show m.val = 512 * k.val + (m.val - 512 * k.val); omega)).trans ?_
  rw [k0_pay16_apply]
  exact chunk_t3 𝒱 c bd i arg1 harg1 arg2 harg2 arg3 harg3 arg4 harg4 arg5 harg5 arg6 harg6 arg7 harg7 arg8 harg8 c0_i32_41 c4_i32_42 X k n _ m (by show m.val = 512 * k.val + (m.val - 512 * k.val); omega)

/-- A column outside trip k's chunk reads what the earlier stores left. -/
theorem adj_miss_t3 (𝒱 : Variants) (c : Dev nD) (bd : Option 𝒱.V) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x2048 .bf16) (harg8 : arg8.IsWhole) (c0_i32_41 : BitVec 32) (c4_i32_42 : BitVec 32) (X : BufTy.Contents (Elt Ideal) arg5.view.ty) (G8 : BufTy.Contents (Elt Ideal) arg8.view.ty)
    (k : Fin k0_t3_loop.trips) (L : List (View.Piece (Elt Ideal) S2048x2048 .bf16)) (n m : Fin 2048)
    (h : m.val < 512 * k.val ∨ 512 * k.val + 512 ≤ m.val) :
    arg8.view.read (Elt Ideal) (arg8.view.writes (Elt Ideal) G8 ((⟨Rect.unit (s := S2048x2048) (k0_off7 k) S2048x512.size (k0_off7_inb k),
          k0_pay16 (arg5.view.readAt (Elt Ideal) (Rect.unit (s := S2048x128) ![0, 0] S2048x128.size inb_S2048x128_S2048x128_0_0).toLoadRect X) (arg5.view.readAt (Elt Ideal) (Rect.unit (s := S2048x128) (k0_off6 k) S512x128.size (k0_off6_inb k)).toLoadRect X)⟩ : View.Piece (Elt Ideal) S2048x2048 .bf16) :: L)) (ix2 n m)
      = arg8.view.read (Elt Ideal) (arg8.view.writes (Elt Ideal) G8 L) (ix2 n m) := by
  refine View.read_writes_cons_unit_of_not_mem arg8.view G8 (k0_off7_inb k) _ L (ix2 n m) (k0_off7_eq k) (⟨1, Nat.one_lt_two⟩ : Fin 2) ?_
  exact h

/-- After K trips the first 512 K columns of the cache read the adjacency. -/
theorem adj_upto_t3 (𝒱 : Variants) (c : Dev nD) (bd : Option 𝒱.V) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x2048 .bf16) (harg8 : arg8.IsWhole) (c0_i32_41 : BitVec 32) (c4_i32_42 : BitVec 32) (X : BufTy.Contents (Elt Ideal) arg5.view.ty) (G7 : BufTy.Contents (Elt Ideal) arg7.view.ty)
    (G8 : BufTy.Contents (Elt Ideal) arg8.view.ty) (n : Fin 2048) :
    ∀ K : ℕ, K ≤ k0_t3_loop.trips → ∀ m : Fin 2048, m.val < 512 * K →
      arg8.view.read (Elt Ideal) (arg8.view.writes (Elt Ideal) G8 (pb_k0_t3 (F := Ideal) 𝒱 c bd i arg1 harg1 arg2 harg2 arg3 harg3 arg4 harg4 arg5 harg5 arg6 harg6 arg7 harg7 arg8 harg8 c0_i32_41 c4_i32_42 X G7 G8 K).2) (ix2 n m)
        = Cert.Spec.adj Cert.Spec.t2W (fun n f => arg5.view.read (Elt Ideal) X (ix2 n f)) n m
  | 0, _, m, hm => absurd hm (by omega)
  | K + 1, hK, m, hm => by
    have e := pb_snd_t3 𝒱 c bd i arg1 harg1 arg2 harg2 arg3 harg3 arg4 harg4 arg5 harg5 arg6 harg6 arg7 harg7 arg8 harg8 c0_i32_41 c4_i32_42 X G7 G8 ⟨K, Nat.lt_of_succ_le hK⟩
    refine (congrArg (fun L => arg8.view.read (Elt Ideal) (arg8.view.writes (Elt Ideal) G8 L) (ix2 n m)) e).trans ?_
    by_cases h : m.val < 512 * K
    · exact (adj_miss_t3 𝒱 c bd i arg1 harg1 arg2 harg2 arg3 harg3 arg4 harg4 arg5 harg5 arg6 harg6 arg7 harg7 arg8 harg8 c0_i32_41 c4_i32_42 X G8 ⟨K, Nat.lt_of_succ_le hK⟩ _ n m (Or.inl h)).trans
        (adj_upto_t3 𝒱 c bd i arg1 harg1 arg2 harg2 arg3 harg3 arg4 harg4 arg5 harg5 arg6 harg6 arg7 harg7 arg8 harg8 c0_i32_41 c4_i32_42 X G7 G8 n K (Nat.le_of_succ_le hK) m h)
    · exact adj_hit_t3 𝒱 c bd i arg1 harg1 arg2 harg2 arg3 harg3 arg4 harg4 arg5 harg5 arg6 harg6 arg7 harg7 arg8 harg8 c0_i32_41 c4_i32_42 X G8 ⟨K, Nat.lt_of_succ_le hK⟩ _ n m (by show 512 * K ≤ m.val; omega)
        (by show m.val < 512 * K + 512; omega)

/-- After the four trips the cache reads the adjacency everywhere, whatever it held. -/
theorem adj3 (𝒱 : Variants) (c : Dev nD) (bd : Option 𝒱.V) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x2048 .bf16) (harg8 : arg8.IsWhole) (c0_i32_41 : BitVec 32) (c4_i32_42 : BitVec 32) (X : BufTy.Contents (Elt Ideal) arg5.view.ty) (G7 : BufTy.Contents (Elt Ideal) arg7.view.ty)
    (G8 : BufTy.Contents (Elt Ideal) arg8.view.ty) (n m : Fin 2048) :
    arg8.view.read (Elt Ideal) (arg8.view.writes (Elt Ideal) G8 (pb_k0_t3 (F := Ideal) 𝒱 c bd i arg1 harg1 arg2 harg2 arg3 harg3 arg4 harg4 arg5 harg5 arg6 harg6 arg7 harg7 arg8 harg8 c0_i32_41 c4_i32_42 X G7 G8 k0_t3_loop.trips).2) (ValueIdx.ix2 n m)
      = Cert.Spec.adj Cert.Spec.t2W (fun n f => arg5.view.read (Elt Ideal) X (ValueIdx.ix2 n f)) n m :=
  adj_upto_t3 𝒱 c bd i arg1 harg1 arg2 harg2 arg3 harg3 arg4 harg4 arg5 harg5 arg6 harg6 arg7 harg7 arg8 harg8 c0_i32_41 c4_i32_42 X G7 G8 n k0_t3_loop.trips le_rfl m (by have := trips_t3; have := m.isLt; omega)

/-! ## The loop with threshold `t3W` -/

/-- The thresholded chunk at (n, j): the inner product of row n of A with row j of B, kept where it exceeds the threshold. -/
theorem k0_pay24_apply (A : FVec Ideal S2048x128 .bf16) (B : FVec Ideal S512x128 .bf16) (n : Fin 2048) (j : Fin 512) :
    k0_pay24 (F := Ideal) A B (ix2 n j) = Cert.Spec.thr Cert.Spec.t3W (∑ f : Fin 128, A (ix2 n f) * B (ix2 j f)) := by
  unfold k0_pay24
  have hm : matmul dot_S2048x128_S512x128_S2048x512_1_1_0_0_n_n none A B (constant (F := Ideal) S2048x512 .f32 0x00000000#32) (ix2 n j)
      = ∑ f : Fin 128, A (ix2 n f) * B (ix2 j f) :=
    Cert.Gram.matmul_nt_zero_apply (m := 2048) (n := 512) (k := 128) _ none A B n j
  show Scalar.select (FloatOps.cmpf .ogt
      (matmul dot_S2048x128_S512x128_S2048x512_1_1_0_0_n_n none A B (constant (F := Ideal) S2048x512 .f32 0x00000000#32) (ix2 n j)) _)
      (matmul dot_S2048x128_S512x128_S2048x512_1_1_0_0_n_n none A B (constant (F := Ideal) S2048x512 .f32 0x00000000#32) (ix2 n j)) _ = _
  rw [hm]
  rfl

/-- The degree column after one trip, at row n: what it held plus the row sum of the chunk. -/
theorem k0_pay25_apply (A : FVec Ideal S2048x128 .bf16) (B : FVec Ideal S512x128 .bf16) (d : FVec Ideal S2048x1 .f32) (n : Fin 2048) :
    k0_pay25 (F := Ideal) A B d (ix2 n (0 : Fin 1))
      = d (ix2 n (0 : Fin 1)) + ∑ j : Fin 512, Cert.Spec.thr Cert.Spec.t3W (∑ f : Fin 128, A (ix2 n f) * B (ix2 j f)) := by
  unfold k0_pay25
  show shapeCast S2048x1 (addf d (shapeCast S2048x1
      (multiReduction (F := Ideal) .add [1] S2048 (k0_pay24 A B) 0x00000000#32 reduces_S2048x512_S2048 (.inl rfl) rfl)
      shapeCasts_S2048_S2048x1)) shapeCasts_S2048x1_S2048x1 (ix2 n (0 : Fin 1)) = _
  rw [shapeCast_self, addf_apply, Cert.LibColumn.shapeCast_a_a1_apply]
  refine congrArg (fun z => d (ix2 n (0 : Fin 1)) + z) ?_
  refine (Cert.LibAxisReduce.add_cols_apply (a := 2048) (b := 512) (k0_pay24 (F := Ideal) A B) 0x00000000#32
    reduces_S2048x512_S2048 (.inl rfl) rfl n).trans ?_
  exact Finset.sum_congr rfl fun j _ => k0_pay24_apply A B n j

/-- The chunk as it is stored into the cache: narrowing to bf16 changes no value at the exact reading. -/
theorem k0_pay26_apply (A : FVec Ideal S2048x128 .bf16) (B : FVec Ideal S512x128 .bf16) (n : Fin 2048) (j : Fin 512) :
    k0_pay26 (F := Ideal) A B (ix2 n j) = Cert.Spec.thr Cert.Spec.t3W (∑ f : Fin 128, A (ix2 n f) * B (ix2 j f)) := by
  unfold k0_pay26
  show shapeCast S2048x512 (truncf .bf16 (k0_pay24 (F := Ideal) A B) bitsLt_bf16_f32) shapeCasts_S2048x512_S2048x512 (ix2 n j) = _
  rw [shapeCast_self, truncf_apply]
  exact k0_pay24_apply A B n j

/-- What one trip writes into the degree column: one store over the whole column. -/
theorem trip7_t5 {F : FTy → Type} [FloatOps F] (𝒱 : Variants) (c : Dev nD) (bd : Option 𝒱.V) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x2048 .bf16) (harg8 : arg8.IsWhole) (v90 : FVec F S2048x128 .bf16) (X : BufTy.Contents (Elt F) arg5.view.ty) (k : Fin k0_t5_loop.trips)
    (f7 : BufTy.Contents (Elt F) arg7.view.ty) (f8 : BufTy.Contents (Elt F) arg8.view.ty) :
    (trip_k0_t5 (F := F) 𝒱 c bd i arg1 harg1 arg2 harg2 arg3 harg3 arg4 harg4 arg5 harg5 arg6 harg6 arg7 harg7 arg8 harg8 v90 X k).1 f7 f8
      = [⟨Rect.unit (s := S2048x1) ![0, 0] S2048x1.size inb_S2048x1_S2048x1_0_0,
          k0_pay25 (arg5.view.readAt (Elt F) (Rect.unit (s := S2048x128) ![0, 0] S2048x128.size inb_S2048x128_S2048x128_0_0).toLoadRect X) (arg5.view.readAt (Elt F) (Rect.unit (s := S2048x128) (k0_off11 k) S512x128.size (k0_off11_inb k)).toLoadRect X) (arg7.view.readAt (Elt F) (Rect.unit (s := S2048x1) ![0, 0] S2048x1.size inb_S2048x1_S2048x1_0_0).toLoadRect f7)⟩] := by
  unfold trip_k0_t5
  rfl

/-- What one trip writes into the cache: one store over its 512 columns. -/
theorem trip8_t5 {F : FTy → Type} [FloatOps F] (𝒱 : Variants) (c : Dev nD) (bd : Option 𝒱.V) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x2048 .bf16) (harg8 : arg8.IsWhole) (v90 : FVec F S2048x128 .bf16) (X : BufTy.Contents (Elt F) arg5.view.ty) (k : Fin k0_t5_loop.trips)
    (f7 : BufTy.Contents (Elt F) arg7.view.ty) (f8 : BufTy.Contents (Elt F) arg8.view.ty) :
    (trip_k0_t5 (F := F) 𝒱 c bd i arg1 harg1 arg2 harg2 arg3 harg3 arg4 harg4 arg5 harg5 arg6 harg6 arg7 harg7 arg8 harg8 v90 X k).2.1 f7 f8
      = [⟨Rect.unit (s := S2048x2048) (k0_off12 k) S2048x512.size (k0_off12_inb k),
          k0_pay26 (arg5.view.readAt (Elt F) (Rect.unit (s := S2048x128) ![0, 0] S2048x128.size inb_S2048x128_S2048x128_0_0).toLoadRect X) (arg5.view.readAt (Elt F) (Rect.unit (s := S2048x128) (k0_off11 k) S512x128.size (k0_off11_inb k)).toLoadRect X)⟩] := by
  unfold trip_k0_t5
  rfl

theorem trips_t5 : k0_t5_loop.trips = 4 := by decide +kernel

/-- The chunk of trip k at (n, j) is the adjacency at (n, m), m = 512 k + j. -/
theorem chunk_t5 (𝒱 : Variants) (c : Dev nD) (bd : Option 𝒱.V) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x2048 .bf16) (harg8 : arg8.IsWhole) (v90 : FVec Ideal S2048x128 .bf16) (X : BufTy.Contents (Elt Ideal) arg5.view.ty) (k : Fin k0_t5_loop.trips) (n : Fin 2048) (j : Fin 512) (m : Fin 2048)
    (hm : m.val = 512 * k.val + j.val) :
    Cert.Spec.thr Cert.Spec.t3W (∑ f : Fin 128,
        (arg5.view.readAt (Elt Ideal) (Rect.unit (s := S2048x128) ![0, 0] S2048x128.size inb_S2048x128_S2048x128_0_0).toLoadRect X : FVec Ideal S2048x128 .bf16) (ix2 n f)
          * (arg5.view.readAt (Elt Ideal) (Rect.unit (s := S2048x128) (k0_off11 k) S512x128.size (k0_off11_inb k)).toLoadRect X : FVec Ideal S512x128 .bf16) (ix2 j f))
      = Cert.Spec.adj Cert.Spec.t3W (fun n f => arg5.view.read (Elt Ideal) X (ix2 n f)) n m :=
  thr_eq_adj Cert.Spec.t3W (fun n f => arg5.view.read (Elt Ideal) X (ix2 n f)) _ _ n m j
    (fun f => ld_block_apply (arg5.view.read (Elt Ideal) X) ![0, 0] ![0, 0] inb_S2048x128_S2048x128_0_0 rfl n f n f
      (Nat.zero_add _).symm (Nat.zero_add _).symm)
    (fun f => ld_block_apply (arg5.view.read (Elt Ideal) X) (k0_off11 k) ![512 * k.val, 0] (k0_off11_inb k) (k0_off11_eq k) j f m f
      hm (Nat.zero_add _).symm)

/-- One trip adds the row sums of its chunk to the degree column. -/
theorem deg_step_t5 (𝒱 : Variants) (c : Dev nD) (bd : Option 𝒱.V) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x2048 .bf16) (harg8 : arg8.IsWhole) (v90 : FVec Ideal S2048x128 .bf16) (X : BufTy.Contents (Elt Ideal) arg5.view.ty) (G7 : BufTy.Contents (Elt Ideal) arg7.view.ty)
    (G8 : BufTy.Contents (Elt Ideal) arg8.view.ty) (k : Fin k0_t5_loop.trips) (n : Fin 2048) :
    arg7.view.read (Elt Ideal) (arg7.view.writes (Elt Ideal) G7 (pb_k0_t5 (F := Ideal) 𝒱 c bd i arg1 harg1 arg2 harg2 arg3 harg3 arg4 harg4 arg5 harg5 arg6 harg6 arg7 harg7 arg8 harg8 v90 X G7 G8 (k.val + 1)).1) (ix2 n (0 : Fin 1))
      = arg7.view.read (Elt Ideal) (arg7.view.writes (Elt Ideal) G7 (pb_k0_t5 (F := Ideal) 𝒱 c bd i arg1 harg1 arg2 harg2 arg3 harg3 arg4 harg4 arg5 harg5 arg6 harg6 arg7 harg7 arg8 harg8 v90 X G7 G8 k.val).1) (ix2 n (0 : Fin 1))
        + ∑ j : Fin 512, Cert.Spec.adj Cert.Spec.t3W (fun n f => arg5.view.read (Elt Ideal) X (ix2 n f)) n
            ⟨512 * k.val + j.val, by have := k.isLt; have := trips_t5; have := j.isLt; omega⟩ := by
  rw [pb_k0_t5_succ]
  generalize pb_k0_t5 (F := Ideal) 𝒱 c bd i arg1 harg1 arg2 harg2 arg3 harg3 arg4 harg4 arg5 harg5 arg6 harg6 arg7 harg7 arg8 harg8 v90 X G7 G8 k.val = P
  show arg7.view.read (Elt Ideal) (arg7.view.writes (Elt Ideal) G7
      ((trip_k0_t5 (F := Ideal) 𝒱 c bd i arg1 harg1 arg2 harg2 arg3 harg3 arg4 harg4 arg5 harg5 arg6 harg6 arg7 harg7 arg8 harg8 v90 X k).1 (arg7.view.writes (Elt Ideal) G7 P.1) (arg8.view.writes (Elt Ideal) G8 P.2) ++ P.1))
      (ix2 n (0 : Fin 1)) = _
  rw [trip7_t5, List.singleton_append]
  refine (View.read_writes_cons_unit_of_mem arg7.view G7 inb_S2048x1_S2048x1_0_0 _ P.1 (ix2 n (0 : Fin 1)) (ix2 n (0 : Fin 1))
    (rfl : (![0, 0] : Fin 2 → ℕ) = ![0, 0])
    (fun a => match a with | ⟨0, _⟩ => (Nat.zero_add _).symm | ⟨1, _⟩ => (Nat.zero_add _).symm)).trans ?_
  rw [k0_pay25_apply]
  refine congrArg₂ (fun a b => a + b) ?_ (Finset.sum_congr rfl fun j _ => chunk_t5 𝒱 c bd i arg1 harg1 arg2 harg2 arg3 harg3 arg4 harg4 arg5 harg5 arg6 harg6 arg7 harg7 arg8 harg8 v90 X k n j _ rfl)
  exact ld_block_apply (arg7.view.read (Elt Ideal) (arg7.view.writes (Elt Ideal) G7 P.1)) ![0, 0] ![0, 0] inb_S2048x1_S2048x1_0_0 rfl
    n (0 : Fin 1) n (0 : Fin 1) (Nat.zero_add _).symm (Nat.zero_add _).symm

/-- After the four trips the degree column holds what it held plus the row sums of the whole adjacency. -/
theorem deg5 (𝒱 : Variants) (c : Dev nD) (bd : Option 𝒱.V) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x2048 .bf16) (harg8 : arg8.IsWhole) (v90 : FVec Ideal S2048x128 .bf16) (X : BufTy.Contents (Elt Ideal) arg5.view.ty) (G7 : BufTy.Contents (Elt Ideal) arg7.view.ty)
    (G8 : BufTy.Contents (Elt Ideal) arg8.view.ty) (n : Fin 2048) :
    arg7.view.read (Elt Ideal) (arg7.view.writes (Elt Ideal) G7 (pb_k0_t5 (F := Ideal) 𝒱 c bd i arg1 harg1 arg2 harg2 arg3 harg3 arg4 harg4 arg5 harg5 arg6 harg6 arg7 harg7 arg8 harg8 v90 X G7 G8 k0_t5_loop.trips).1) (ValueIdx.ix2 n (0 : Fin 1))
      = arg7.view.read (Elt Ideal) G7 (ValueIdx.ix2 n (0 : Fin 1))
        + ∑ m : Fin 2048, Cert.Spec.adj Cert.Spec.t3W (fun n f => arg5.view.read (Elt Ideal) X (ValueIdx.ix2 n f)) n m := by
  have h4 := trips_t5
  rw [h4]
  have s3 := deg_step_t5 𝒱 c bd i arg1 harg1 arg2 harg2 arg3 harg3 arg4 harg4 arg5 harg5 arg6 harg6 arg7 harg7 arg8 harg8 v90 X G7 G8 ⟨3, by omega⟩ n
  have s2 := deg_step_t5 𝒱 c bd i arg1 harg1 arg2 harg2 arg3 harg3 arg4 harg4 arg5 harg5 arg6 harg6 arg7 harg7 arg8 harg8 v90 X G7 G8 ⟨2, by omega⟩ n
  have s1 := deg_step_t5 𝒱 c bd i arg1 harg1 arg2 harg2 arg3 harg3 arg4 harg4 arg5 harg5 arg6 harg6 arg7 harg7 arg8 harg8 v90 X G7 G8 ⟨1, by omega⟩ n
  have s0 := deg_step_t5 𝒱 c bd i arg1 harg1 arg2 harg2 arg3 harg3 arg4 harg4 arg5 harg5 arg6 harg6 arg7 harg7 arg8 harg8 v90 X G7 G8 ⟨0, by omega⟩ n
  refine (s3.trans ?_).trans (sum_chunks (fun m => Cert.Spec.adj Cert.Spec.t3W (fun n f => arg5.view.read (Elt Ideal) X (ix2 n f)) n m)
    (arg7.view.read (Elt Ideal) G7 (ix2 n (0 : Fin 1))))
  refine congrArg (fun z => z + _) (s2.trans ?_)
  refine congrArg (fun z => z + _) (s1.trans ?_)
  exact congrArg (fun z => z + _) s0

/-- The cache's pieces grow by one store per trip, whatever the buffers held. -/
theorem pb_snd_t5 (𝒱 : Variants) (c : Dev nD) (bd : Option 𝒱.V) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x2048 .bf16) (harg8 : arg8.IsWhole) (v90 : FVec Ideal S2048x128 .bf16) (X : BufTy.Contents (Elt Ideal) arg5.view.ty) (G7 : BufTy.Contents (Elt Ideal) arg7.view.ty)
    (G8 : BufTy.Contents (Elt Ideal) arg8.view.ty) (k : Fin k0_t5_loop.trips) :
    (pb_k0_t5 (F := Ideal) 𝒱 c bd i arg1 harg1 arg2 harg2 arg3 harg3 arg4 harg4 arg5 harg5 arg6 harg6 arg7 harg7 arg8 harg8 v90 X G7 G8 (k.val + 1)).2
      = (⟨Rect.unit (s := S2048x2048) (k0_off12 k) S2048x512.size (k0_off12_inb k),
          k0_pay26 (arg5.view.readAt (Elt Ideal) (Rect.unit (s := S2048x128) ![0, 0] S2048x128.size inb_S2048x128_S2048x128_0_0).toLoadRect X) (arg5.view.readAt (Elt Ideal) (Rect.unit (s := S2048x128) (k0_off11 k) S512x128.size (k0_off11_inb k)).toLoadRect X)⟩ : View.Piece (Elt Ideal) S2048x2048 .bf16) :: (pb_k0_t5 (F := Ideal) 𝒱 c bd i arg1 harg1 arg2 harg2 arg3 harg3 arg4 harg4 arg5 harg5 arg6 harg6 arg7 harg7 arg8 harg8 v90 X G7 G8 k.val).2 := by
  rw [pb_k0_t5_succ]
  generalize pb_k0_t5 (F := Ideal) 𝒱 c bd i arg1 harg1 arg2 harg2 arg3 harg3 arg4 harg4 arg5 harg5 arg6 harg6 arg7 harg7 arg8 harg8 v90 X G7 G8 k.val = P
  show (trip_k0_t5 (F := Ideal) 𝒱 c bd i arg1 harg1 arg2 harg2 arg3 harg3 arg4 harg4 arg5 harg5 arg6 harg6 arg7 harg7 arg8 harg8 v90 X k).2.1 (arg7.view.writes (Elt Ideal) G7 P.1) (arg8.view.writes (Elt Ideal) G8 P.2) ++ P.2 = _
  rw [trip8_t5, List.singleton_append]

/-- A column of trip k's chunk reads that trip's store when it is the newest. -/
theorem adj_hit_t5 (𝒱 : Variants) (c : Dev nD) (bd : Option 𝒱.V) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x2048 .bf16) (harg8 : arg8.IsWhole) (v90 : FVec Ideal S2048x128 .bf16) (X : BufTy.Contents (Elt Ideal) arg5.view.ty) (G8 : BufTy.Contents (Elt Ideal) arg8.view.ty)
    (k : Fin k0_t5_loop.trips) (L : List (View.Piece (Elt Ideal) S2048x2048 .bf16)) (n m : Fin 2048)
    (hlo : 512 * k.val ≤ m.val) (hhi : m.val < 512 * k.val + 512) :
    arg8.view.read (Elt Ideal) (arg8.view.writes (Elt Ideal) G8 ((⟨Rect.unit (s := S2048x2048) (k0_off12 k) S2048x512.size (k0_off12_inb k),
          k0_pay26 (arg5.view.readAt (Elt Ideal) (Rect.unit (s := S2048x128) ![0, 0] S2048x128.size inb_S2048x128_S2048x128_0_0).toLoadRect X) (arg5.view.readAt (Elt Ideal) (Rect.unit (s := S2048x128) (k0_off11 k) S512x128.size (k0_off11_inb k)).toLoadRect X)⟩ : View.Piece (Elt Ideal) S2048x2048 .bf16) :: L)) (ix2 n m)
      = Cert.Spec.adj Cert.Spec.t3W (fun n f => arg5.view.read (Elt Ideal) X (ix2 n f)) n m := by
  refine (View.read_writes_cons_unit_of_mem arg8.view G8 (k0_off12_inb k) _ L (ix2 n m)
    (ix2 n (⟨m.val - 512 * k.val, by omega⟩ : Fin 512)) (k0_off12_eq k)
    (fun a => match a with
      | ⟨0, _⟩ => (Nat.zero_add _).symm
      | ⟨1, _⟩ => by show m.val = 512 * k.val + (m.val - 512 * k.val); omega)).trans ?_
  rw [k0_pay26_apply]
  exact chunk_t5 𝒱 c bd i arg1 harg1 arg2 harg2 arg3 harg3 arg4 harg4 arg5 harg5 arg6 harg6 arg7 harg7 arg8 harg8 v90 X k n _ m (by show m.val = 512 * k.val + (m.val - 512 * k.val); omega)

/-- A column outside trip k's chunk reads what the earlier stores left. -/
theorem adj_miss_t5 (𝒱 : Variants) (c : Dev nD) (bd : Option 𝒱.V) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x2048 .bf16) (harg8 : arg8.IsWhole) (v90 : FVec Ideal S2048x128 .bf16) (X : BufTy.Contents (Elt Ideal) arg5.view.ty) (G8 : BufTy.Contents (Elt Ideal) arg8.view.ty)
    (k : Fin k0_t5_loop.trips) (L : List (View.Piece (Elt Ideal) S2048x2048 .bf16)) (n m : Fin 2048)
    (h : m.val < 512 * k.val ∨ 512 * k.val + 512 ≤ m.val) :
    arg8.view.read (Elt Ideal) (arg8.view.writes (Elt Ideal) G8 ((⟨Rect.unit (s := S2048x2048) (k0_off12 k) S2048x512.size (k0_off12_inb k),
          k0_pay26 (arg5.view.readAt (Elt Ideal) (Rect.unit (s := S2048x128) ![0, 0] S2048x128.size inb_S2048x128_S2048x128_0_0).toLoadRect X) (arg5.view.readAt (Elt Ideal) (Rect.unit (s := S2048x128) (k0_off11 k) S512x128.size (k0_off11_inb k)).toLoadRect X)⟩ : View.Piece (Elt Ideal) S2048x2048 .bf16) :: L)) (ix2 n m)
      = arg8.view.read (Elt Ideal) (arg8.view.writes (Elt Ideal) G8 L) (ix2 n m) := by
  refine View.read_writes_cons_unit_of_not_mem arg8.view G8 (k0_off12_inb k) _ L (ix2 n m) (k0_off12_eq k) (⟨1, Nat.one_lt_two⟩ : Fin 2) ?_
  exact h

/-- After K trips the first 512 K columns of the cache read the adjacency. -/
theorem adj_upto_t5 (𝒱 : Variants) (c : Dev nD) (bd : Option 𝒱.V) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x2048 .bf16) (harg8 : arg8.IsWhole) (v90 : FVec Ideal S2048x128 .bf16) (X : BufTy.Contents (Elt Ideal) arg5.view.ty) (G7 : BufTy.Contents (Elt Ideal) arg7.view.ty)
    (G8 : BufTy.Contents (Elt Ideal) arg8.view.ty) (n : Fin 2048) :
    ∀ K : ℕ, K ≤ k0_t5_loop.trips → ∀ m : Fin 2048, m.val < 512 * K →
      arg8.view.read (Elt Ideal) (arg8.view.writes (Elt Ideal) G8 (pb_k0_t5 (F := Ideal) 𝒱 c bd i arg1 harg1 arg2 harg2 arg3 harg3 arg4 harg4 arg5 harg5 arg6 harg6 arg7 harg7 arg8 harg8 v90 X G7 G8 K).2) (ix2 n m)
        = Cert.Spec.adj Cert.Spec.t3W (fun n f => arg5.view.read (Elt Ideal) X (ix2 n f)) n m
  | 0, _, m, hm => absurd hm (by omega)
  | K + 1, hK, m, hm => by
    have e := pb_snd_t5 𝒱 c bd i arg1 harg1 arg2 harg2 arg3 harg3 arg4 harg4 arg5 harg5 arg6 harg6 arg7 harg7 arg8 harg8 v90 X G7 G8 ⟨K, Nat.lt_of_succ_le hK⟩
    refine (congrArg (fun L => arg8.view.read (Elt Ideal) (arg8.view.writes (Elt Ideal) G8 L) (ix2 n m)) e).trans ?_
    by_cases h : m.val < 512 * K
    · exact (adj_miss_t5 𝒱 c bd i arg1 harg1 arg2 harg2 arg3 harg3 arg4 harg4 arg5 harg5 arg6 harg6 arg7 harg7 arg8 harg8 v90 X G8 ⟨K, Nat.lt_of_succ_le hK⟩ _ n m (Or.inl h)).trans
        (adj_upto_t5 𝒱 c bd i arg1 harg1 arg2 harg2 arg3 harg3 arg4 harg4 arg5 harg5 arg6 harg6 arg7 harg7 arg8 harg8 v90 X G7 G8 n K (Nat.le_of_succ_le hK) m h)
    · exact adj_hit_t5 𝒱 c bd i arg1 harg1 arg2 harg2 arg3 harg3 arg4 harg4 arg5 harg5 arg6 harg6 arg7 harg7 arg8 harg8 v90 X G8 ⟨K, Nat.lt_of_succ_le hK⟩ _ n m (by show 512 * K ≤ m.val; omega)
        (by show m.val < 512 * K + 512; omega)

/-- After the four trips the cache reads the adjacency everywhere, whatever it held. -/
theorem adj5 (𝒱 : Variants) (c : Dev nD) (bd : Option 𝒱.V) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x2048 .bf16) (harg8 : arg8.IsWhole) (v90 : FVec Ideal S2048x128 .bf16) (X : BufTy.Contents (Elt Ideal) arg5.view.ty) (G7 : BufTy.Contents (Elt Ideal) arg7.view.ty)
    (G8 : BufTy.Contents (Elt Ideal) arg8.view.ty) (n m : Fin 2048) :
    arg8.view.read (Elt Ideal) (arg8.view.writes (Elt Ideal) G8 (pb_k0_t5 (F := Ideal) 𝒱 c bd i arg1 harg1 arg2 harg2 arg3 harg3 arg4 harg4 arg5 harg5 arg6 harg6 arg7 harg7 arg8 harg8 v90 X G7 G8 k0_t5_loop.trips).2) (ValueIdx.ix2 n m)
      = Cert.Spec.adj Cert.Spec.t3W (fun n f => arg5.view.read (Elt Ideal) X (ValueIdx.ix2 n f)) n m :=
  adj_upto_t5 𝒱 c bd i arg1 harg1 arg2 harg2 arg3 harg3 arg4 harg4 arg5 harg5 arg6 harg6 arg7 harg7 arg8 harg8 v90 X G7 G8 n k0_t5_loop.trips le_rfl m (by have := trips_t5; have := m.isLt; omega)

end Cert.KernelIdeal.LoopVal

end
-- ==== Proof.LoopAcc.lean ====
/-
  The accumulator after the aggregation loops.

  Each of the three aggregation loops makes four trips. Trip b multiplies the block of columns 512·b … 512·b + 511 of
  the cached adjacency by the block of rows 512·b … of the feature array, each row scaled by the matching entry of
  the inverse-root column, and adds the product to the accumulator. After the four trips the accumulator holds, at
  (n, f), its initial value plus the full sum over m < 2048 of A (n, m) · (h (m, f) · s (m, 0)).
-/
import proofs.«136311_j35759897706671_2_alg».proof.Proof.Gen.KernelIdeal.Loops
import proofs.«136311_j35759897706671_2_alg».proof.Proof.LibPlainDot
import proofs.«136311_j35759897706671_2_alg».proof.Proof.LibColumn
import Idealize.ShloMosaic.Lib.Writes
import Idealize.ShloMosaic.Lib.Pipeline.FrameBody
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.LoopVal

open Cert.KernelIdeal Cert.KernelIdeal.Gen Idealize.ShloMosaic Idealize.ShloMosaic.ValueIdx

/-! ## General facts -/

/-- The pair of zero offsets, however spelt, is the zero function. -/
theorem zero2 : (![0, 0] : Fin 2 → Nat) = fun _ => 0 := by
  funext a
  match a with
  | ⟨0, _⟩ => rfl
  | ⟨1, _⟩ => rfl

/-- After a store over the whole of a buffer made last, the buffer reads as that store's payload, whatever was
    stored before. -/
theorem read_writes_whole_cons {sig : RefSig} {κ : Kind} {sp : Space} {S : Shape} {e : EltTy} {Val : EltTy → Type}
    [∀ e, Nonempty (Val e)] (v : View sig κ sp S e) (f : v.ty.Contents Val) {off : Fin S.rank → Nat}
    (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩)]
  exact View.canon_cons_unit_zero h inb w L

/-- A sum over 2048 consecutive indices is the sum of its four blocks of 512. -/
theorem sum_blocks {M : Type*} [AddCommMonoid M] (g : Fin 2048 → M) :
    ∑ m : Fin 2048, g m
      = ∑ b : Fin 4, ∑ j : Fin 512, g ⟨512 * b.val + j.val, by have := b.isLt; have := j.isLt; omega⟩ := by
  have e := Equiv.sum_comp (finProdFinEquiv (m := 4) (n := 512)) g
  rw [Fintype.sum_prod_type] at e
  rw [← e]
  refine Finset.sum_congr rfl fun b _ => Finset.sum_congr rfl fun j _ => congrArg g (Fin.ext ?_)
  show j.val + 512 * b.val = 512 * b.val + j.val
  exact Nat.add_comm _ _

/-- Four block sums added one after the other onto a starting value give the starting value plus the full sum. -/
theorem add_four_blocks {M : Type*} [AddCommMonoid M] (g : Fin 2048 → M) (z : M) :
    (((z + ∑ j : Fin 512, g ⟨512 * 0 + j.val, by have := j.isLt; omega⟩)
          + ∑ j : Fin 512, g ⟨512 * 1 + j.val, by have := j.isLt; omega⟩)
        + ∑ j : Fin 512, g ⟨512 * 2 + j.val, by have := j.isLt; omega⟩)
      + ∑ j : Fin 512, g ⟨512 * 3 + j.val, by have := j.isLt; omega⟩
      = z + ∑ m : Fin 2048, g m := by
  rw [sum_blocks g, Fin.sum_univ_four]
  simp only [add_assoc]
  rfl

/-- A load of a block through a unit-stride rectangle of a two-axis buffer reads, at (p, q), the buffer at the
    offsets plus (p, q). -/
theorem ld_unit_ix2 {N0 N1 s0 s1 : ℕ} {e : EltTy} (X : (⟨2, ![N0, N1]⟩ : Shape).Idx → Elt Ideal e) (off : Fin 2 → ℕ)
    (inb : ∀ a, off a + (![s0, s1] : Fin 2 → ℕ) a ≤ (⟨2, ![N0, N1]⟩ : Shape).size a) (p : Fin s0) (q : Fin s1)
    (p' : Fin N0) (q' : Fin N1) (hp : p'.val = off 0 + p.val) (hq : q'.val = off 1 + q.val) :
    View.ld (Val := Elt Ideal) X (Rect.unit (s := ⟨2, ![N0, N1]⟩) off ![s0, s1] inb) (ix2 p q) = X (ix2 p' q') := by
  show X ((Rect.unit (s := ⟨2, ![N0, N1]⟩) off ![s0, s1] inb).idx (ix2 p q)) = X (ix2 p' q')
  refine congrArg X (funext fun a => Fin.ext ?_)
  match a with
  | ⟨0, _⟩ =>
    show off 0 + 1 * p.val = p'.val
    rw [Nat.one_mul, hp]
  | ⟨1, _⟩ =>
    show off 1 + 1 * q.val = q'.val
    rw [Nat.one_mul, hq]

/-- The value a trip stores, read at (n, f): the accumulator there plus the block product of the adjacency block's
    row n with the scaled feature block's column f. -/
theorem pay10_apply (A : Vec Ideal S2048x512 .bf16) (h : Vec Ideal S512x128 .f32) (s : Vec Ideal S512x1 .f32)
    (acc : Vec Ideal S2048x128 .f32) (n : Fin 2048) (f : Fin 128) :
    k0_pay10 (F := Ideal) A h s acc (ix2 n f)
      = acc (ix2 n f) + ∑ j : Fin 512, A (ix2 n j) * (h (ix2 j f) * s (ix2 j (0 : Fin 1))) := by
  unfold k0_pay10
  rw [shapeCast_self, addf_apply]
  have hd : dot_S2048x512_S512x128_S2048x128_1_0_0_1_n_n = DotDims.plain 2048 512 128 := rfl
  rw [hd]
  unfold Idealize.ShloMosaic.matmul
  rw [Cert.LibPlainDot.matmul_zero_apply]
  refine congrArg (acc (ix2 n f) + ·) (Finset.sum_congr rfl fun j _ => ?_)
  rw [truncf_apply, mulf_apply, Cert.LibColumn.broadcastTo_a1_ab_apply]

/-- The second and third aggregation loops store the same expression of their loads as the first. -/
theorem pay19_apply (A : Vec Ideal S2048x512 .bf16) (h : Vec Ideal S512x128 .f32) (s : Vec Ideal S512x1 .f32)
    (acc : Vec Ideal S2048x128 .f32) (n : Fin 2048) (f : Fin 128) :
    k0_pay19 (F := Ideal) A h s acc (ix2 n f)
      = acc (ix2 n f) + ∑ j : Fin 512, A (ix2 n j) * (h (ix2 j f) * s (ix2 j (0 : Fin 1))) :=
  pay10_apply A h s acc n f

theorem pay29_apply (A : Vec Ideal S2048x512 .bf16) (h : Vec Ideal S512x128 .f32) (s : Vec Ideal S512x1 .f32)
    (acc : Vec Ideal S2048x128 .f32) (n : Fin 2048) (f : Fin 128) :
    k0_pay29 (F := Ideal) A h s acc (ix2 n f)
      = acc (ix2 n f) + ∑ j : Fin 512, A (ix2 n j) * (h (ix2 j f) * s (ix2 j (0 : Fin 1))) :=
  pay10_apply A h s acc n f

/-! ## The aggregation loop `k0_t2_loop` -/

/-- The loop makes four trips. -/
theorem trips2 : k0_t2_loop.trips = 4 := by decide +kernel

/-- The one store a trip makes: over the whole accumulator, the payload of the trip's three block loads and of the
    accumulator as the trip found it. -/
theorem tripL2_eq {F : FTy → Type} [FloatOps F] (𝒱 : Variants) (c : Dev nD) (bd : Option 𝒱.V) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x2048 .bf16) (harg8 : arg8.IsWhole) (cst_18 : F .f32) (X4 : BufTy.Contents (Elt F) arg4.view.ty) (X7 : BufTy.Contents (Elt F) arg7.view.ty) (X8 : BufTy.Contents (Elt F) arg8.view.ty)
    (k : Fin k0_t2_loop.trips) (f6 : BufTy.Contents (Elt F) arg6.view.ty) :
    tripL_k0_t2 (F := F) 𝒱 c bd i arg1 harg1 arg2 harg2 arg3 harg3 arg4 harg4 arg5 harg5 arg6 harg6 arg7 harg7 arg8 harg8 cst_18 X4 X7 X8 k f6
      = [⟨Rect.unit (s := S2048x128) ![0, 0] S2048x128.size Gen.inb_S2048x128_S2048x128_0_0,
          k0_pay10
            (View.readAt (Elt F) arg8.view (Rect.unit (s := S2048x2048) (k0_off3 k) S2048x512.size (Gen.k0_off3_inb k)).toLoadRect X8)
            (View.readAt (Elt F) arg4.view (Rect.unit (s := S2048x128) (k0_off4 k) S512x128.size (Gen.k0_off4_inb k)).toLoadRect X4)
            (View.readAt (Elt F) arg7.view (Rect.unit (s := S2048x1) (k0_off5 k) S512x1.size (Gen.k0_off5_inb k)).toLoadRect X7)
            (View.readAt (Elt F) arg6.view (Rect.unit (s := S2048x128) ![0, 0] S2048x128.size Gen.inb_S2048x128_S2048x128_0_0).toLoadRect f6)⟩] := by
  unfold tripL_k0_t2 trip_k0_t2
  rfl

/-- What the accumulator reads as after one more trip: the trip's payload, of the three blocks the trip loads and of
    what the accumulator read as before the trip. -/
theorem read_succ2 (𝒱 : Variants) (c : Dev nD) (bd : Option 𝒱.V) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x2048 .bf16) (harg8 : arg8.IsWhole) (cst_18 : Ideal .f32) (X4 : BufTy.Contents (Elt Ideal) arg4.view.ty) (X7 : BufTy.Contents (Elt Ideal) arg7.view.ty) (X8 : BufTy.Contents (Elt Ideal) arg8.view.ty) (G6 : BufTy.Contents (Elt Ideal) arg6.view.ty)
    (k : Fin k0_t2_loop.trips) :
    arg6.view.read (Elt Ideal) (arg6.view.writes (Elt Ideal) G6 (pb_k0_t2 (F := Ideal) 𝒱 c bd i arg1 harg1 arg2 harg2 arg3 harg3 arg4 harg4 arg5 harg5 arg6 harg6 arg7 harg7 arg8 harg8 cst_18 X4 X7 X8 G6 (k.val + 1)))
      = k0_pay10 (F := Ideal)
          (View.ld (Val := Elt Ideal) (arg8.view.read (Elt Ideal) X8) (Rect.unit (s := S2048x2048) (k0_off3 k) S2048x512.size (Gen.k0_off3_inb k)))
          (View.ld (Val := Elt Ideal) (arg4.view.read (Elt Ideal) X4) (Rect.unit (s := S2048x128) (k0_off4 k) S512x128.size (Gen.k0_off4_inb k)))
          (View.ld (Val := Elt Ideal) (arg7.view.read (Elt Ideal) X7) (Rect.unit (s := S2048x1) (k0_off5 k) S512x1.size (Gen.k0_off5_inb k)))
          (arg6.view.read (Elt Ideal) (arg6.view.writes (Elt Ideal) G6 (pb_k0_t2 (F := Ideal) 𝒱 c bd i arg1 harg1 arg2 harg2 arg3 harg3 arg4 harg4 arg5 harg5 arg6 harg6 arg7 harg7 arg8 harg8 cst_18 X4 X7 X8 G6 k.val))) := by
  rw [pb_k0_t2_succ, tripL2_eq, List.singleton_append, read_writes_whole_cons _ _ zero2,
    View.readAt_eq_ld arg6.view, View.ld_unit_zero zero2]
  rfl

/-- One more trip adds to the accumulator, at (n, f), the part of the full sum over the trip's block of 512 indices. -/
theorem acc_step2 (𝒱 : Variants) (c : Dev nD) (bd : Option 𝒱.V) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x2048 .bf16) (harg8 : arg8.IsWhole) (cst_18 : Ideal .f32) (X4 : BufTy.Contents (Elt Ideal) arg4.view.ty) (X7 : BufTy.Contents (Elt Ideal) arg7.view.ty) (X8 : BufTy.Contents (Elt Ideal) arg8.view.ty) (G6 : BufTy.Contents (Elt Ideal) arg6.view.ty)
    (k : ℕ) (hk : k < k0_t2_loop.trips) (n : Fin 2048) (f : Fin 128) :
    arg6.view.read (Elt Ideal) (arg6.view.writes (Elt Ideal) G6 (pb_k0_t2 (F := Ideal) 𝒱 c bd i arg1 harg1 arg2 harg2 arg3 harg3 arg4 harg4 arg5 harg5 arg6 harg6 arg7 harg7 arg8 harg8 cst_18 X4 X7 X8 G6 (k + 1))) (ix2 n f)
      = arg6.view.read (Elt Ideal) (arg6.view.writes (Elt Ideal) G6 (pb_k0_t2 (F := Ideal) 𝒱 c bd i arg1 harg1 arg2 harg2 arg3 harg3 arg4 harg4 arg5 harg5 arg6 harg6 arg7 harg7 arg8 harg8 cst_18 X4 X7 X8 G6 k)) (ix2 n f)
        + ∑ j : Fin 512, arg8.view.read (Elt Ideal) X8 (ix2 n ⟨512 * k + j.val, by have := j.isLt; have := k0_t2_abs.2.1; omega⟩)
            * (arg4.view.read (Elt Ideal) X4 (ix2 ⟨512 * k + j.val, by have := j.isLt; have := k0_t2_abs.2.1; omega⟩ f)
                * arg7.view.read (Elt Ideal) X7 (ix2 ⟨512 * k + j.val, by have := j.isLt; have := k0_t2_abs.2.1; omega⟩ (0 : Fin 1))) := by
  refine (congrFun (read_succ2 𝒱 c bd i arg1 harg1 arg2 harg2 arg3 harg3 arg4 harg4 arg5 harg5 arg6 harg6 arg7 harg7 arg8 harg8 cst_18 X4 X7 X8 G6 ⟨k, hk⟩) (ix2 n f)).trans ?_
  rw [pay10_apply]
  refine congrArg (_ + ·) (Finset.sum_congr rfl fun j _ => ?_)
  have hA := k0_off3_eq ⟨k, hk⟩
  have hH := k0_off4_eq ⟨k, hk⟩
  have hI := k0_off5_eq ⟨k, hk⟩
  rw [ld_unit_ix2 (arg8.view.read (Elt Ideal) X8) _ _ n j n ⟨512 * k + j.val, by have := j.isLt; have := k0_t2_abs.2.1; omega⟩
      (by rw [hA]; exact (Nat.zero_add _).symm) (by rw [hA]; rfl),
    ld_unit_ix2 (arg4.view.read (Elt Ideal) X4) _ _ j f ⟨512 * k + j.val, by have := j.isLt; have := k0_t2_abs.2.1; omega⟩ f
      (by rw [hH]; rfl) (by rw [hH]; exact (Nat.zero_add _).symm),
    ld_unit_ix2 (arg7.view.read (Elt Ideal) X7) _ _ j (0 : Fin 1) ⟨512 * k + j.val, by have := j.isLt; have := k0_t2_abs.2.1; omega⟩ (0 : Fin 1)
      (by rw [hI]; rfl) (by rw [hI]; rfl)]

/-- After the loop the accumulator holds, at (n, f), what it held before plus the full sum over the 2048 indices. -/
theorem acc2 (𝒱 : Variants) (c : Dev nD) (bd : Option 𝒱.V) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x2048 .bf16) (harg8 : arg8.IsWhole) (cst_18 : Ideal .f32) (X4 : BufTy.Contents (Elt Ideal) arg4.view.ty) (X7 : BufTy.Contents (Elt Ideal) arg7.view.ty) (X8 : BufTy.Contents (Elt Ideal) arg8.view.ty) (G6 : BufTy.Contents (Elt Ideal) arg6.view.ty)
    (n : Fin 2048) (f : Fin 128) :
    arg6.view.read (Elt Ideal) (arg6.view.writes (Elt Ideal) G6 (pb_k0_t2 (F := Ideal) 𝒱 c bd i arg1 harg1 arg2 harg2 arg3 harg3 arg4 harg4 arg5 harg5 arg6 harg6 arg7 harg7 arg8 harg8 cst_18 X4 X7 X8 G6 k0_t2_loop.trips)) (ValueIdx.ix2 n f)
      = arg6.view.read (Elt Ideal) G6 (ValueIdx.ix2 n f)
        + ∑ m : Fin 2048, arg8.view.read (Elt Ideal) X8 (ValueIdx.ix2 n m)
            * (arg4.view.read (Elt Ideal) X4 (ValueIdx.ix2 m f) * arg7.view.read (Elt Ideal) X7 (ValueIdx.ix2 m (0 : Fin 1))) := by
  rw [trips2]
  have h0 : (0 : ℕ) < k0_t2_loop.trips := by rw [trips2]; omega
  have h1 : (1 : ℕ) < k0_t2_loop.trips := by rw [trips2]; omega
  have h2 : (2 : ℕ) < k0_t2_loop.trips := by rw [trips2]; omega
  have h3 : (3 : ℕ) < k0_t2_loop.trips := by rw [trips2]; omega
  have e0 := acc_step2 𝒱 c bd i arg1 harg1 arg2 harg2 arg3 harg3 arg4 harg4 arg5 harg5 arg6 harg6 arg7 harg7 arg8 harg8 cst_18 X4 X7 X8 G6 0 h0 n f
  have e1 := acc_step2 𝒱 c bd i arg1 harg1 arg2 harg2 arg3 harg3 arg4 harg4 arg5 harg5 arg6 harg6 arg7 harg7 arg8 harg8 cst_18 X4 X7 X8 G6 1 h1 n f
  have e2 := acc_step2 𝒱 c bd i arg1 harg1 arg2 harg2 arg3 harg3 arg4 harg4 arg5 harg5 arg6 harg6 arg7 harg7 arg8 harg8 cst_18 X4 X7 X8 G6 2 h2 n f
  have e3 := acc_step2 𝒱 c bd i arg1 harg1 arg2 harg2 arg3 harg3 arg4 harg4 arg5 harg5 arg6 harg6 arg7 harg7 arg8 harg8 cst_18 X4 X7 X8 G6 3 h3 n f
  have eb : arg6.view.read (Elt Ideal) (arg6.view.writes (Elt Ideal) G6 (pb_k0_t2 (F := Ideal) 𝒱 c bd i arg1 harg1 arg2 harg2 arg3 harg3 arg4 harg4 arg5 harg5 arg6 harg6 arg7 harg7 arg8 harg8 cst_18 X4 X7 X8 G6 0)) = arg6.view.read (Elt Ideal) G6 := by
    rw [show (pb_k0_t2 (F := Ideal) 𝒱 c bd i arg1 harg1 arg2 harg2 arg3 harg3 arg4 harg4 arg5 harg5 arg6 harg6 arg7 harg7 arg8 harg8 cst_18 X4 X7 X8 G6 0) = [] from rfl, View.writes_nil]
  rw [eb] at e0
  refine e3.trans ?_
  rw [e2, e1, e0]
  exact add_four_blocks (fun m : Fin 2048 => arg8.view.read (Elt Ideal) X8 (ix2 n m)
    * (arg4.view.read (Elt Ideal) X4 (ix2 m f) * arg7.view.read (Elt Ideal) X7 (ix2 m (0 : Fin 1)))) _

/-! ## The aggregation loop `k0_t4_loop` -/

/-- The loop makes four trips. -/
theorem trips4 : k0_t4_loop.trips = 4 := by decide +kernel

/-- The one store a trip makes: over the whole accumulator, the payload of the trip's three block loads and of the
    accumulator as the trip found it. -/
theorem tripL4_eq {F : FTy → Type} [FloatOps F] (𝒱 : Variants) (c : Dev nD) (bd : Option 𝒱.V) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x2048 .bf16) (harg8 : arg8.IsWhole) (c0_i32_41 : BitVec 32) (c4_i32_42 : BitVec 32) (X4 : BufTy.Contents (Elt F) arg4.view.ty) (X7 : BufTy.Contents (Elt F) arg7.view.ty) (X8 : BufTy.Contents (Elt F) arg8.view.ty)
    (k : Fin k0_t4_loop.trips) (f6 : BufTy.Contents (Elt F) arg6.view.ty) :
    tripL_k0_t4 (F := F) 𝒱 c bd i arg1 harg1 arg2 harg2 arg3 harg3 arg4 harg4 arg5 harg5 arg6 harg6 arg7 harg7 arg8 harg8 c0_i32_41 c4_i32_42 X4 X7 X8 k f6
      = [⟨Rect.unit (s := S2048x128) ![0, 0] S2048x128.size Gen.inb_S2048x128_S2048x128_0_0,
          k0_pay19
            (View.readAt (Elt F) arg8.view (Rect.unit (s := S2048x2048) (k0_off8 k) S2048x512.size (Gen.k0_off8_inb k)).toLoadRect X8)
            (View.readAt (Elt F) arg4.view (Rect.unit (s := S2048x128) (k0_off9 k) S512x128.size (Gen.k0_off9_inb k)).toLoadRect X4)
            (View.readAt (Elt F) arg7.view (Rect.unit (s := S2048x1) (k0_off10 k) S512x1.size (Gen.k0_off10_inb k)).toLoadRect X7)
            (View.readAt (Elt F) arg6.view (Rect.unit (s := S2048x128) ![0, 0] S2048x128.size Gen.inb_S2048x128_S2048x128_0_0).toLoadRect f6)⟩] := by
  unfold tripL_k0_t4 trip_k0_t4
  rfl

/-- What the accumulator reads as after one more trip: the trip's payload, of the three blocks the trip loads and of
    what the accumulator read as before the trip. -/
theorem read_succ4 (𝒱 : Variants) (c : Dev nD) (bd : Option 𝒱.V) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x2048 .bf16) (harg8 : arg8.IsWhole) (c0_i32_41 : BitVec 32) (c4_i32_42 : BitVec 32) (X4 : BufTy.Contents (Elt Ideal) arg4.view.ty) (X7 : BufTy.Contents (Elt Ideal) arg7.view.ty) (X8 : BufTy.Contents (Elt Ideal) arg8.view.ty) (G6 : BufTy.Contents (Elt Ideal) arg6.view.ty)
    (k : Fin k0_t4_loop.trips) :
    arg6.view.read (Elt Ideal) (arg6.view.writes (Elt Ideal) G6 (pb_k0_t4 (F := Ideal) 𝒱 c bd i arg1 harg1 arg2 harg2 arg3 harg3 arg4 harg4 arg5 harg5 arg6 harg6 arg7 harg7 arg8 harg8 c0_i32_41 c4_i32_42 X4 X7 X8 G6 (k.val + 1)))
      = k0_pay19 (F := Ideal)
          (View.ld (Val := Elt Ideal) (arg8.view.read (Elt Ideal) X8) (Rect.unit (s := S2048x2048) (k0_off8 k) S2048x512.size (Gen.k0_off8_inb k)))
          (View.ld (Val := Elt Ideal) (arg4.view.read (Elt Ideal) X4) (Rect.unit (s := S2048x128) (k0_off9 k) S512x128.size (Gen.k0_off9_inb k)))
          (View.ld (Val := Elt Ideal) (arg7.view.read (Elt Ideal) X7) (Rect.unit (s := S2048x1) (k0_off10 k) S512x1.size (Gen.k0_off10_inb k)))
          (arg6.view.read (Elt Ideal) (arg6.view.writes (Elt Ideal) G6 (pb_k0_t4 (F := Ideal) 𝒱 c bd i arg1 harg1 arg2 harg2 arg3 harg3 arg4 harg4 arg5 harg5 arg6 harg6 arg7 harg7 arg8 harg8 c0_i32_41 c4_i32_42 X4 X7 X8 G6 k.val))) := by
  rw [pb_k0_t4_succ, tripL4_eq, List.singleton_append, read_writes_whole_cons _ _ zero2,
    View.readAt_eq_ld arg6.view, View.ld_unit_zero zero2]
  rfl

/-- One more trip adds to the accumulator, at (n, f), the part of the full sum over the trip's block of 512 indices. -/
theorem acc_step4 (𝒱 : Variants) (c : Dev nD) (bd : Option 𝒱.V) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x2048 .bf16) (harg8 : arg8.IsWhole) (c0_i32_41 : BitVec 32) (c4_i32_42 : BitVec 32) (X4 : BufTy.Contents (Elt Ideal) arg4.view.ty) (X7 : BufTy.Contents (Elt Ideal) arg7.view.ty) (X8 : BufTy.Contents (Elt Ideal) arg8.view.ty) (G6 : BufTy.Contents (Elt Ideal) arg6.view.ty)
    (k : ℕ) (hk : k < k0_t4_loop.trips) (n : Fin 2048) (f : Fin 128) :
    arg6.view.read (Elt Ideal) (arg6.view.writes (Elt Ideal) G6 (pb_k0_t4 (F := Ideal) 𝒱 c bd i arg1 harg1 arg2 harg2 arg3 harg3 arg4 harg4 arg5 harg5 arg6 harg6 arg7 harg7 arg8 harg8 c0_i32_41 c4_i32_42 X4 X7 X8 G6 (k + 1))) (ix2 n f)
      = arg6.view.read (Elt Ideal) (arg6.view.writes (Elt Ideal) G6 (pb_k0_t4 (F := Ideal) 𝒱 c bd i arg1 harg1 arg2 harg2 arg3 harg3 arg4 harg4 arg5 harg5 arg6 harg6 arg7 harg7 arg8 harg8 c0_i32_41 c4_i32_42 X4 X7 X8 G6 k)) (ix2 n f)
        + ∑ j : Fin 512, arg8.view.read (Elt Ideal) X8 (ix2 n ⟨512 * k + j.val, by have := j.isLt; have := k0_t4_abs.2.1; omega⟩)
            * (arg4.view.read (Elt Ideal) X4 (ix2 ⟨512 * k + j.val, by have := j.isLt; have := k0_t4_abs.2.1; omega⟩ f)
                * arg7.view.read (Elt Ideal) X7 (ix2 ⟨512 * k + j.val, by have := j.isLt; have := k0_t4_abs.2.1; omega⟩ (0 : Fin 1))) := by
  refine (congrFun (read_succ4 𝒱 c bd i arg1 harg1 arg2 harg2 arg3 harg3 arg4 harg4 arg5 harg5 arg6 harg6 arg7 harg7 arg8 harg8 c0_i32_41 c4_i32_42 X4 X7 X8 G6 ⟨k, hk⟩) (ix2 n f)).trans ?_
  rw [pay19_apply]
  refine congrArg (_ + ·) (Finset.sum_congr rfl fun j _ => ?_)
  have hA := k0_off8_eq ⟨k, hk⟩
  have hH := k0_off9_eq ⟨k, hk⟩
  have hI := k0_off10_eq ⟨k, hk⟩
  rw [ld_unit_ix2 (arg8.view.read (Elt Ideal) X8) _ _ n j n ⟨512 * k + j.val, by have := j.isLt; have := k0_t4_abs.2.1; omega⟩
      (by rw [hA]; exact (Nat.zero_add _).symm) (by rw [hA]; rfl),
    ld_unit_ix2 (arg4.view.read (Elt Ideal) X4) _ _ j f ⟨512 * k + j.val, by have := j.isLt; have := k0_t4_abs.2.1; omega⟩ f
      (by rw [hH]; rfl) (by rw [hH]; exact (Nat.zero_add _).symm),
    ld_unit_ix2 (arg7.view.read (Elt Ideal) X7) _ _ j (0 : Fin 1) ⟨512 * k + j.val, by have := j.isLt; have := k0_t4_abs.2.1; omega⟩ (0 : Fin 1)
      (by rw [hI]; rfl) (by rw [hI]; rfl)]

/-- After the loop the accumulator holds, at (n, f), what it held before plus the full sum over the 2048 indices. -/
theorem acc4 (𝒱 : Variants) (c : Dev nD) (bd : Option 𝒱.V) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x2048 .bf16) (harg8 : arg8.IsWhole) (c0_i32_41 : BitVec 32) (c4_i32_42 : BitVec 32) (X4 : BufTy.Contents (Elt Ideal) arg4.view.ty) (X7 : BufTy.Contents (Elt Ideal) arg7.view.ty) (X8 : BufTy.Contents (Elt Ideal) arg8.view.ty) (G6 : BufTy.Contents (Elt Ideal) arg6.view.ty)
    (n : Fin 2048) (f : Fin 128) :
    arg6.view.read (Elt Ideal) (arg6.view.writes (Elt Ideal) G6 (pb_k0_t4 (F := Ideal) 𝒱 c bd i arg1 harg1 arg2 harg2 arg3 harg3 arg4 harg4 arg5 harg5 arg6 harg6 arg7 harg7 arg8 harg8 c0_i32_41 c4_i32_42 X4 X7 X8 G6 k0_t4_loop.trips)) (ValueIdx.ix2 n f)
      = arg6.view.read (Elt Ideal) G6 (ValueIdx.ix2 n f)
        + ∑ m : Fin 2048, arg8.view.read (Elt Ideal) X8 (ValueIdx.ix2 n m)
            * (arg4.view.read (Elt Ideal) X4 (ValueIdx.ix2 m f) * arg7.view.read (Elt Ideal) X7 (ValueIdx.ix2 m (0 : Fin 1))) := by
  rw [trips4]
  have h0 : (0 : ℕ) < k0_t4_loop.trips := by rw [trips4]; omega
  have h1 : (1 : ℕ) < k0_t4_loop.trips := by rw [trips4]; omega
  have h2 : (2 : ℕ) < k0_t4_loop.trips := by rw [trips4]; omega
  have h3 : (3 : ℕ) < k0_t4_loop.trips := by rw [trips4]; omega
  have e0 := acc_step4 𝒱 c bd i arg1 harg1 arg2 harg2 arg3 harg3 arg4 harg4 arg5 harg5 arg6 harg6 arg7 harg7 arg8 harg8 c0_i32_41 c4_i32_42 X4 X7 X8 G6 0 h0 n f
  have e1 := acc_step4 𝒱 c bd i arg1 harg1 arg2 harg2 arg3 harg3 arg4 harg4 arg5 harg5 arg6 harg6 arg7 harg7 arg8 harg8 c0_i32_41 c4_i32_42 X4 X7 X8 G6 1 h1 n f
  have e2 := acc_step4 𝒱 c bd i arg1 harg1 arg2 harg2 arg3 harg3 arg4 harg4 arg5 harg5 arg6 harg6 arg7 harg7 arg8 harg8 c0_i32_41 c4_i32_42 X4 X7 X8 G6 2 h2 n f
  have e3 := acc_step4 𝒱 c bd i arg1 harg1 arg2 harg2 arg3 harg3 arg4 harg4 arg5 harg5 arg6 harg6 arg7 harg7 arg8 harg8 c0_i32_41 c4_i32_42 X4 X7 X8 G6 3 h3 n f
  have eb : arg6.view.read (Elt Ideal) (arg6.view.writes (Elt Ideal) G6 (pb_k0_t4 (F := Ideal) 𝒱 c bd i arg1 harg1 arg2 harg2 arg3 harg3 arg4 harg4 arg5 harg5 arg6 harg6 arg7 harg7 arg8 harg8 c0_i32_41 c4_i32_42 X4 X7 X8 G6 0)) = arg6.view.read (Elt Ideal) G6 := by
    rw [show (pb_k0_t4 (F := Ideal) 𝒱 c bd i arg1 harg1 arg2 harg2 arg3 harg3 arg4 harg4 arg5 harg5 arg6 harg6 arg7 harg7 arg8 harg8 c0_i32_41 c4_i32_42 X4 X7 X8 G6 0) = [] from rfl, View.writes_nil]
  rw [eb] at e0
  refine e3.trans ?_
  rw [e2, e1, e0]
  exact add_four_blocks (fun m : Fin 2048 => arg8.view.read (Elt Ideal) X8 (ix2 n m)
    * (arg4.view.read (Elt Ideal) X4 (ix2 m f) * arg7.view.read (Elt Ideal) X7 (ix2 m (0 : Fin 1)))) _

/-! ## The aggregation loop `k0_t6_loop` -/

/-- The loop makes four trips. -/
theorem trips6 : k0_t6_loop.trips = 4 := by decide +kernel

/-- The one store a trip makes: over the whole accumulator, the payload of the trip's three block loads and of the
    accumulator as the trip found it. -/
theorem tripL6_eq {F : FTy → Type} [FloatOps F] (𝒱 : Variants) (c : Dev nD) (bd : Option 𝒱.V) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x2048 .bf16) (harg8 : arg8.IsWhole) (v90 : FVec F S2048x128 .bf16) (X4 : BufTy.Contents (Elt F) arg4.view.ty) (X7 : BufTy.Contents (Elt F) arg7.view.ty) (X8 : BufTy.Contents (Elt F) arg8.view.ty)
    (k : Fin k0_t6_loop.trips) (f6 : BufTy.Contents (Elt F) arg6.view.ty) :
    tripL_k0_t6 (F := F) 𝒱 c bd i arg1 harg1 arg2 harg2 arg3 harg3 arg4 harg4 arg5 harg5 arg6 harg6 arg7 harg7 arg8 harg8 v90 X4 X7 X8 k f6
      = [⟨Rect.unit (s := S2048x128) ![0, 0] S2048x128.size Gen.inb_S2048x128_S2048x128_0_0,
          k0_pay29
            (View.readAt (Elt F) arg8.view (Rect.unit (s := S2048x2048) (k0_off13 k) S2048x512.size (Gen.k0_off13_inb k)).toLoadRect X8)
            (View.readAt (Elt F) arg4.view (Rect.unit (s := S2048x128) (k0_off14 k) S512x128.size (Gen.k0_off14_inb k)).toLoadRect X4)
            (View.readAt (Elt F) arg7.view (Rect.unit (s := S2048x1) (k0_off15 k) S512x1.size (Gen.k0_off15_inb k)).toLoadRect X7)
            (View.readAt (Elt F) arg6.view (Rect.unit (s := S2048x128) ![0, 0] S2048x128.size Gen.inb_S2048x128_S2048x128_0_0).toLoadRect f6)⟩] := by
  unfold tripL_k0_t6 trip_k0_t6
  rfl

/-- What the accumulator reads as after one more trip: the trip's payload, of the three blocks the trip loads and of
    what the accumulator read as before the trip. -/
theorem read_succ6 (𝒱 : Variants) (c : Dev nD) (bd : Option 𝒱.V) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x2048 .bf16) (harg8 : arg8.IsWhole) (v90 : FVec Ideal S2048x128 .bf16) (X4 : BufTy.Contents (Elt Ideal) arg4.view.ty) (X7 : BufTy.Contents (Elt Ideal) arg7.view.ty) (X8 : BufTy.Contents (Elt Ideal) arg8.view.ty) (G6 : BufTy.Contents (Elt Ideal) arg6.view.ty)
    (k : Fin k0_t6_loop.trips) :
    arg6.view.read (Elt Ideal) (arg6.view.writes (Elt Ideal) G6 (pb_k0_t6 (F := Ideal) 𝒱 c bd i arg1 harg1 arg2 harg2 arg3 harg3 arg4 harg4 arg5 harg5 arg6 harg6 arg7 harg7 arg8 harg8 v90 X4 X7 X8 G6 (k.val + 1)))
      = k0_pay29 (F := Ideal)
          (View.ld (Val := Elt Ideal) (arg8.view.read (Elt Ideal) X8) (Rect.unit (s := S2048x2048) (k0_off13 k) S2048x512.size (Gen.k0_off13_inb k)))
          (View.ld (Val := Elt Ideal) (arg4.view.read (Elt Ideal) X4) (Rect.unit (s := S2048x128) (k0_off14 k) S512x128.size (Gen.k0_off14_inb k)))
          (View.ld (Val := Elt Ideal) (arg7.view.read (Elt Ideal) X7) (Rect.unit (s := S2048x1) (k0_off15 k) S512x1.size (Gen.k0_off15_inb k)))
          (arg6.view.read (Elt Ideal) (arg6.view.writes (Elt Ideal) G6 (pb_k0_t6 (F := Ideal) 𝒱 c bd i arg1 harg1 arg2 harg2 arg3 harg3 arg4 harg4 arg5 harg5 arg6 harg6 arg7 harg7 arg8 harg8 v90 X4 X7 X8 G6 k.val))) := by
  rw [pb_k0_t6_succ, tripL6_eq, List.singleton_append, read_writes_whole_cons _ _ zero2,
    View.readAt_eq_ld arg6.view, View.ld_unit_zero zero2]
  rfl

/-- One more trip adds to the accumulator, at (n, f), the part of the full sum over the trip's block of 512 indices. -/
theorem acc_step6 (𝒱 : Variants) (c : Dev nD) (bd : Option 𝒱.V) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x2048 .bf16) (harg8 : arg8.IsWhole) (v90 : FVec Ideal S2048x128 .bf16) (X4 : BufTy.Contents (Elt Ideal) arg4.view.ty) (X7 : BufTy.Contents (Elt Ideal) arg7.view.ty) (X8 : BufTy.Contents (Elt Ideal) arg8.view.ty) (G6 : BufTy.Contents (Elt Ideal) arg6.view.ty)
    (k : ℕ) (hk : k < k0_t6_loop.trips) (n : Fin 2048) (f : Fin 128) :
    arg6.view.read (Elt Ideal) (arg6.view.writes (Elt Ideal) G6 (pb_k0_t6 (F := Ideal) 𝒱 c bd i arg1 harg1 arg2 harg2 arg3 harg3 arg4 harg4 arg5 harg5 arg6 harg6 arg7 harg7 arg8 harg8 v90 X4 X7 X8 G6 (k + 1))) (ix2 n f)
      = arg6.view.read (Elt Ideal) (arg6.view.writes (Elt Ideal) G6 (pb_k0_t6 (F := Ideal) 𝒱 c bd i arg1 harg1 arg2 harg2 arg3 harg3 arg4 harg4 arg5 harg5 arg6 harg6 arg7 harg7 arg8 harg8 v90 X4 X7 X8 G6 k)) (ix2 n f)
        + ∑ j : Fin 512, arg8.view.read (Elt Ideal) X8 (ix2 n ⟨512 * k + j.val, by have := j.isLt; have := k0_t6_abs.2.1; omega⟩)
            * (arg4.view.read (Elt Ideal) X4 (ix2 ⟨512 * k + j.val, by have := j.isLt; have := k0_t6_abs.2.1; omega⟩ f)
                * arg7.view.read (Elt Ideal) X7 (ix2 ⟨512 * k + j.val, by have := j.isLt; have := k0_t6_abs.2.1; omega⟩ (0 : Fin 1))) := by
  refine (congrFun (read_succ6 𝒱 c bd i arg1 harg1 arg2 harg2 arg3 harg3 arg4 harg4 arg5 harg5 arg6 harg6 arg7 harg7 arg8 harg8 v90 X4 X7 X8 G6 ⟨k, hk⟩) (ix2 n f)).trans ?_
  rw [pay29_apply]
  refine congrArg (_ + ·) (Finset.sum_congr rfl fun j _ => ?_)
  have hA := k0_off13_eq ⟨k, hk⟩
  have hH := k0_off14_eq ⟨k, hk⟩
  have hI := k0_off15_eq ⟨k, hk⟩
  rw [ld_unit_ix2 (arg8.view.read (Elt Ideal) X8) _ _ n j n ⟨512 * k + j.val, by have := j.isLt; have := k0_t6_abs.2.1; omega⟩
      (by rw [hA]; exact (Nat.zero_add _).symm) (by rw [hA]; rfl),
    ld_unit_ix2 (arg4.view.read (Elt Ideal) X4) _ _ j f ⟨512 * k + j.val, by have := j.isLt; have := k0_t6_abs.2.1; omega⟩ f
      (by rw [hH]; rfl) (by rw [hH]; exact (Nat.zero_add _).symm),
    ld_unit_ix2 (arg7.view.read (Elt Ideal) X7) _ _ j (0 : Fin 1) ⟨512 * k + j.val, by have := j.isLt; have := k0_t6_abs.2.1; omega⟩ (0 : Fin 1)
      (by rw [hI]; rfl) (by rw [hI]; rfl)]

/-- After the loop the accumulator holds, at (n, f), what it held before plus the full sum over the 2048 indices. -/
theorem acc6 (𝒱 : Variants) (c : Dev nD) (bd : Option 𝒱.V) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x2048 .bf16) (harg8 : arg8.IsWhole) (v90 : FVec Ideal S2048x128 .bf16) (X4 : BufTy.Contents (Elt Ideal) arg4.view.ty) (X7 : BufTy.Contents (Elt Ideal) arg7.view.ty) (X8 : BufTy.Contents (Elt Ideal) arg8.view.ty) (G6 : BufTy.Contents (Elt Ideal) arg6.view.ty)
    (n : Fin 2048) (f : Fin 128) :
    arg6.view.read (Elt Ideal) (arg6.view.writes (Elt Ideal) G6 (pb_k0_t6 (F := Ideal) 𝒱 c bd i arg1 harg1 arg2 harg2 arg3 harg3 arg4 harg4 arg5 harg5 arg6 harg6 arg7 harg7 arg8 harg8 v90 X4 X7 X8 G6 k0_t6_loop.trips)) (ValueIdx.ix2 n f)
      = arg6.view.read (Elt Ideal) G6 (ValueIdx.ix2 n f)
        + ∑ m : Fin 2048, arg8.view.read (Elt Ideal) X8 (ValueIdx.ix2 n m)
            * (arg4.view.read (Elt Ideal) X4 (ValueIdx.ix2 m f) * arg7.view.read (Elt Ideal) X7 (ValueIdx.ix2 m (0 : Fin 1))) := by
  rw [trips6]
  have h0 : (0 : ℕ) < k0_t6_loop.trips := by rw [trips6]; omega
  have h1 : (1 : ℕ) < k0_t6_loop.trips := by rw [trips6]; omega
  have h2 : (2 : ℕ) < k0_t6_loop.trips := by rw [trips6]; omega
  have h3 : (3 : ℕ) < k0_t6_loop.trips := by rw [trips6]; omega
  have e0 := acc_step6 𝒱 c bd i arg1 harg1 arg2 harg2 arg3 harg3 arg4 harg4 arg5 harg5 arg6 harg6 arg7 harg7 arg8 harg8 v90 X4 X7 X8 G6 0 h0 n f
  have e1 := acc_step6 𝒱 c bd i arg1 harg1 arg2 harg2 arg3 harg3 arg4 harg4 arg5 harg5 arg6 harg6 arg7 harg7 arg8 harg8 v90 X4 X7 X8 G6 1 h1 n f
  have e2 := acc_step6 𝒱 c bd i arg1 harg1 arg2 harg2 arg3 harg3 arg4 harg4 arg5 harg5 arg6 harg6 arg7 harg7 arg8 harg8 v90 X4 X7 X8 G6 2 h2 n f
  have e3 := acc_step6 𝒱 c bd i arg1 harg1 arg2 harg2 arg3 harg3 arg4 harg4 arg5 harg5 arg6 harg6 arg7 harg7 arg8 harg8 v90 X4 X7 X8 G6 3 h3 n f
  have eb : arg6.view.read (Elt Ideal) (arg6.view.writes (Elt Ideal) G6 (pb_k0_t6 (F := Ideal) 𝒱 c bd i arg1 harg1 arg2 harg2 arg3 harg3 arg4 harg4 arg5 harg5 arg6 harg6 arg7 harg7 arg8 harg8 v90 X4 X7 X8 G6 0)) = arg6.view.read (Elt Ideal) G6 := by
    rw [show (pb_k0_t6 (F := Ideal) 𝒱 c bd i arg1 harg1 arg2 harg2 arg3 harg3 arg4 harg4 arg5 harg5 arg6 harg6 arg7 harg7 arg8 harg8 v90 X4 X7 X8 G6 0) = [] from rfl, View.writes_nil]
  rw [eb] at e0
  refine e3.trans ?_
  rw [e2, e1, e0]
  exact add_four_blocks (fun m : Fin 2048 => arg8.view.read (Elt Ideal) X8 (ix2 n m)
    * (arg4.view.read (Elt Ideal) X4 (ix2 m f) * arg7.view.read (Elt Ideal) X7 (ix2 m (0 : Fin 1)))) _

end Cert.KernelIdeal.LoopVal

end
-- ==== Proof.StepVal.lean ====
/-
  One propagate step of the kernel, from its two loops.

  A step of the kernel runs a degree loop and then an accumulation loop. The degree loop leaves, in the degree column,
  the row sums of the thresholded Gram matrix of the normalised rows, and caches that matrix; the accumulation loop
  leaves, in the accumulator, the product of the cached matrix with the rows scaled by the inverse square roots of the
  degrees. Over arbitrary buffer contents that meet the hypotheses below (the normalised rows, the rows, zero fills,
  the inverse square roots of the degree column), the inverse square root of the degree times the accumulator is the
  specification's step `stepK t h`.
-/
import proofs.«136311_j35759897706671_2_alg».proof.Proof.LoopDeg
import proofs.«136311_j35759897706671_2_alg».proof.Proof.LoopAcc
import proofs.«136311_j35759897706671_2_alg».proof.Proof.Spec

noncomputable section

open scoped BigOperators

namespace Cert.KernelIdeal.StepVal

open Cert.KernelIdeal Cert.KernelIdeal.Gen Cert.KernelIdeal.LoopVal Idealize.ShloMosaic Idealize.ShloMosaic.ValueIdx

/-- **The first propagate step.** After the degree loop the degree column holds `deg (adj t₁ (xnK h))` (it started at zero)
    and the cache holds `adj t₁ (xnK h)`; after the accumulation loop the accumulator holds
    `Σ_m adj[n,m] · (h[m,f] · rsqrt deg[m])` (it started at zero, and the column then held the inverse square roots).
    The inverse square root of the degree times the accumulator is the specification's step. -/
theorem step1 (𝒱 : Variants) (c : Dev nD) (bd : Option 𝒱.V) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x2048 .bf16) (harg8 : arg8.IsWhole) (cst_18 : Ideal .f32) (h : Fin 2048 → Fin 128 → EReal)
    (X5 : BufTy.Contents (Elt Ideal) arg5.view.ty) (G7 X7 : BufTy.Contents (Elt Ideal) arg7.view.ty) (G8 : BufTy.Contents (Elt Ideal) arg8.view.ty)
    (X4 : BufTy.Contents (Elt Ideal) arg4.view.ty) (G6 : BufTy.Contents (Elt Ideal) arg6.view.ty)
    (hX5 : ∀ n f, arg5.view.read (Elt Ideal) X5 (ix2 n f) = Cert.Spec.xnK h n f)
    (hG7 : ∀ n, arg7.view.read (Elt Ideal) G7 (ix2 n (0 : Fin 1)) = 0)
    (hX4 : ∀ n f, arg4.view.read (Elt Ideal) X4 (ix2 n f) = h n f)
    (hG6 : ∀ n f, arg6.view.read (Elt Ideal) G6 (ix2 n f) = 0)
    (hX7 : ∀ n, arg7.view.read (Elt Ideal) X7 (ix2 n (0 : Fin 1)) = Ideal.rsqrt (arg7.view.read (Elt Ideal) (arg7.view.writes (Elt Ideal) G7 (pb_k0_t1 (F := Ideal) 𝒱 c bd i arg1 harg1 arg2 harg2 arg3 harg3 arg4 harg4 arg5 harg5 arg6 harg6 arg7 harg7 arg8 harg8 X5 G7 G8 k0_t1_loop.trips).1) (ix2 n (0 : Fin 1))))
    (n : Fin 2048) (f : Fin 128) :
    Ideal.rsqrt (arg7.view.read (Elt Ideal) (arg7.view.writes (Elt Ideal) G7 (pb_k0_t1 (F := Ideal) 𝒱 c bd i arg1 harg1 arg2 harg2 arg3 harg3 arg4 harg4 arg5 harg5 arg6 harg6 arg7 harg7 arg8 harg8 X5 G7 G8 k0_t1_loop.trips).1) (ix2 n (0 : Fin 1)))
      * arg6.view.read (Elt Ideal) (arg6.view.writes (Elt Ideal) G6 (pb_k0_t2 (F := Ideal) 𝒱 c bd i arg1 harg1 arg2 harg2 arg3 harg3 arg4 harg4 arg5 harg5 arg6 harg6 arg7 harg7 arg8 harg8 cst_18 X4 X7 (arg8.view.writes (Elt Ideal) G8 (pb_k0_t1 (F := Ideal) 𝒱 c bd i arg1 harg1 arg2 harg2 arg3 harg3 arg4 harg4 arg5 harg5 arg6 harg6 arg7 harg7 arg8 harg8 X5 G7 G8 k0_t1_loop.trips).2) G6 k0_t2_loop.trips)) (ix2 n f)
      = Cert.Spec.stepK Cert.Spec.t1W h n f := by
  have hxn : (fun n f => arg5.view.read (Elt Ideal) X5 (ix2 n f)) = Cert.Spec.xnK h :=
    funext fun n => funext fun f => hX5 n f
  have hadj : ∀ n m : Fin 2048, Cert.Spec.adj Cert.Spec.t1W (fun n f => arg5.view.read (Elt Ideal) X5 (ix2 n f)) n m
      = Cert.Spec.adj Cert.Spec.t1W (Cert.Spec.xnK h) n m := fun n m =>
    congrArg (fun x => Cert.Spec.adj Cert.Spec.t1W x n m) hxn
  have hD : ∀ n : Fin 2048, arg7.view.read (Elt Ideal) (arg7.view.writes (Elt Ideal) G7 (pb_k0_t1 (F := Ideal) 𝒱 c bd i arg1 harg1 arg2 harg2 arg3 harg3 arg4 harg4 arg5 harg5 arg6 harg6 arg7 harg7 arg8 harg8 X5 G7 G8 k0_t1_loop.trips).1) (ix2 n (0 : Fin 1))
      = Cert.Spec.deg (Cert.Spec.adj Cert.Spec.t1W (Cert.Spec.xnK h)) n := fun n =>
    (deg1 𝒱 c bd i arg1 harg1 arg2 harg2 arg3 harg3 arg4 harg4 arg5 harg5 arg6 harg6 arg7 harg7 arg8 harg8 X5 G7 G8 n).trans (by
      rw [hG7 n]
      exact (zero_add _).trans (Finset.sum_congr rfl fun m _ => hadj n m))
  have hacc : arg6.view.read (Elt Ideal) (arg6.view.writes (Elt Ideal) G6 (pb_k0_t2 (F := Ideal) 𝒱 c bd i arg1 harg1 arg2 harg2 arg3 harg3 arg4 harg4 arg5 harg5 arg6 harg6 arg7 harg7 arg8 harg8 cst_18 X4 X7 (arg8.view.writes (Elt Ideal) G8 (pb_k0_t1 (F := Ideal) 𝒱 c bd i arg1 harg1 arg2 harg2 arg3 harg3 arg4 harg4 arg5 harg5 arg6 harg6 arg7 harg7 arg8 harg8 X5 G7 G8 k0_t1_loop.trips).2) G6 k0_t2_loop.trips)) (ix2 n f)
      = ∑ m : Fin 2048, Cert.Spec.adj Cert.Spec.t1W (Cert.Spec.xnK h) n m
          * (h m f * Ideal.rsqrt (Cert.Spec.deg (Cert.Spec.adj Cert.Spec.t1W (Cert.Spec.xnK h)) m)) :=
    (acc2 𝒱 c bd i arg1 harg1 arg2 harg2 arg3 harg3 arg4 harg4 arg5 harg5 arg6 harg6 arg7 harg7 arg8 harg8 cst_18 X4 X7 (arg8.view.writes (Elt Ideal) G8 (pb_k0_t1 (F := Ideal) 𝒱 c bd i arg1 harg1 arg2 harg2 arg3 harg3 arg4 harg4 arg5 harg5 arg6 harg6 arg7 harg7 arg8 harg8 X5 G7 G8 k0_t1_loop.trips).2) G6 n f).trans (by
      rw [hG6 n f]
      refine (zero_add _).trans (Finset.sum_congr rfl fun m _ => ?_)
      rw [adj1 𝒱 c bd i arg1 harg1 arg2 harg2 arg3 harg3 arg4 harg4 arg5 harg5 arg6 harg6 arg7 harg7 arg8 harg8 X5 G7 G8 n m, hadj n m, hX4 m f, hX7 m, hD m])
  rw [hD n, hacc]
  rfl

/-- **The second propagate step**: the same combination of its degree loop and its accumulation loop, at the threshold `t₂`. -/
theorem step3 (𝒱 : Variants) (c : Dev nD) (bd : Option 𝒱.V) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x2048 .bf16) (harg8 : arg8.IsWhole) (c0_i32_41 : BitVec 32) (c4_i32_42 : BitVec 32) (h : Fin 2048 → Fin 128 → EReal)
    (X5 : BufTy.Contents (Elt Ideal) arg5.view.ty) (G7 X7 : BufTy.Contents (Elt Ideal) arg7.view.ty) (G8 : BufTy.Contents (Elt Ideal) arg8.view.ty)
    (X4 : BufTy.Contents (Elt Ideal) arg4.view.ty) (G6 : BufTy.Contents (Elt Ideal) arg6.view.ty)
    (hX5 : ∀ n f, arg5.view.read (Elt Ideal) X5 (ix2 n f) = Cert.Spec.xnK h n f)
    (hG7 : ∀ n, arg7.view.read (Elt Ideal) G7 (ix2 n (0 : Fin 1)) = 0)
    (hX4 : ∀ n f, arg4.view.read (Elt Ideal) X4 (ix2 n f) = h n f)
    (hG6 : ∀ n f, arg6.view.read (Elt Ideal) G6 (ix2 n f) = 0)
    (hX7 : ∀ n, arg7.view.read (Elt Ideal) X7 (ix2 n (0 : Fin 1)) = Ideal.rsqrt (arg7.view.read (Elt Ideal) (arg7.view.writes (Elt Ideal) G7 (pb_k0_t3 (F := Ideal) 𝒱 c bd i arg1 harg1 arg2 harg2 arg3 harg3 arg4 harg4 arg5 harg5 arg6 harg6 arg7 harg7 arg8 harg8 c0_i32_41 c4_i32_42 X5 G7 G8 k0_t3_loop.trips).1) (ix2 n (0 : Fin 1))))
    (n : Fin 2048) (f : Fin 128) :
    Ideal.rsqrt (arg7.view.read (Elt Ideal) (arg7.view.writes (Elt Ideal) G7 (pb_k0_t3 (F := Ideal) 𝒱 c bd i arg1 harg1 arg2 harg2 arg3 harg3 arg4 harg4 arg5 harg5 arg6 harg6 arg7 harg7 arg8 harg8 c0_i32_41 c4_i32_42 X5 G7 G8 k0_t3_loop.trips).1) (ix2 n (0 : Fin 1)))
      * arg6.view.read (Elt Ideal) (arg6.view.writes (Elt Ideal) G6 (pb_k0_t4 (F := Ideal) 𝒱 c bd i arg1 harg1 arg2 harg2 arg3 harg3 arg4 harg4 arg5 harg5 arg6 harg6 arg7 harg7 arg8 harg8 c0_i32_41 c4_i32_42 X4 X7 (arg8.view.writes (Elt Ideal) G8 (pb_k0_t3 (F := Ideal) 𝒱 c bd i arg1 harg1 arg2 harg2 arg3 harg3 arg4 harg4 arg5 harg5 arg6 harg6 arg7 harg7 arg8 harg8 c0_i32_41 c4_i32_42 X5 G7 G8 k0_t3_loop.trips).2) G6 k0_t4_loop.trips)) (ix2 n f)
      = Cert.Spec.stepK Cert.Spec.t2W h n f := by
  have hxn : (fun n f => arg5.view.read (Elt Ideal) X5 (ix2 n f)) = Cert.Spec.xnK h :=
    funext fun n => funext fun f => hX5 n f
  have hadj : ∀ n m : Fin 2048, Cert.Spec.adj Cert.Spec.t2W (fun n f => arg5.view.read (Elt Ideal) X5 (ix2 n f)) n m
      = Cert.Spec.adj Cert.Spec.t2W (Cert.Spec.xnK h) n m := fun n m =>
    congrArg (fun x => Cert.Spec.adj Cert.Spec.t2W x n m) hxn
  have hD : ∀ n : Fin 2048, arg7.view.read (Elt Ideal) (arg7.view.writes (Elt Ideal) G7 (pb_k0_t3 (F := Ideal) 𝒱 c bd i arg1 harg1 arg2 harg2 arg3 harg3 arg4 harg4 arg5 harg5 arg6 harg6 arg7 harg7 arg8 harg8 c0_i32_41 c4_i32_42 X5 G7 G8 k0_t3_loop.trips).1) (ix2 n (0 : Fin 1))
      = Cert.Spec.deg (Cert.Spec.adj Cert.Spec.t2W (Cert.Spec.xnK h)) n := fun n =>
    (deg3 𝒱 c bd i arg1 harg1 arg2 harg2 arg3 harg3 arg4 harg4 arg5 harg5 arg6 harg6 arg7 harg7 arg8 harg8 c0_i32_41 c4_i32_42 X5 G7 G8 n).trans (by
      rw [hG7 n]
      exact (zero_add _).trans (Finset.sum_congr rfl fun m _ => hadj n m))
  have hacc : arg6.view.read (Elt Ideal) (arg6.view.writes (Elt Ideal) G6 (pb_k0_t4 (F := Ideal) 𝒱 c bd i arg1 harg1 arg2 harg2 arg3 harg3 arg4 harg4 arg5 harg5 arg6 harg6 arg7 harg7 arg8 harg8 c0_i32_41 c4_i32_42 X4 X7 (arg8.view.writes (Elt Ideal) G8 (pb_k0_t3 (F := Ideal) 𝒱 c bd i arg1 harg1 arg2 harg2 arg3 harg3 arg4 harg4 arg5 harg5 arg6 harg6 arg7 harg7 arg8 harg8 c0_i32_41 c4_i32_42 X5 G7 G8 k0_t3_loop.trips).2) G6 k0_t4_loop.trips)) (ix2 n f)
      = ∑ m : Fin 2048, Cert.Spec.adj Cert.Spec.t2W (Cert.Spec.xnK h) n m
          * (h m f * Ideal.rsqrt (Cert.Spec.deg (Cert.Spec.adj Cert.Spec.t2W (Cert.Spec.xnK h)) m)) :=
    (acc4 𝒱 c bd i arg1 harg1 arg2 harg2 arg3 harg3 arg4 harg4 arg5 harg5 arg6 harg6 arg7 harg7 arg8 harg8 c0_i32_41 c4_i32_42 X4 X7 (arg8.view.writes (Elt Ideal) G8 (pb_k0_t3 (F := Ideal) 𝒱 c bd i arg1 harg1 arg2 harg2 arg3 harg3 arg4 harg4 arg5 harg5 arg6 harg6 arg7 harg7 arg8 harg8 c0_i32_41 c4_i32_42 X5 G7 G8 k0_t3_loop.trips).2) G6 n f).trans (by
      rw [hG6 n f]
      refine (zero_add _).trans (Finset.sum_congr rfl fun m _ => ?_)
      rw [adj3 𝒱 c bd i arg1 harg1 arg2 harg2 arg3 harg3 arg4 harg4 arg5 harg5 arg6 harg6 arg7 harg7 arg8 harg8 c0_i32_41 c4_i32_42 X5 G7 G8 n m, hadj n m, hX4 m f, hX7 m, hD m])
  rw [hD n, hacc]
  rfl

/-- **The third propagate step**: the same combination again, at the threshold `t₃`. -/
theorem step5 (𝒱 : Variants) (c : Dev nD) (bd : Option 𝒱.V) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x2048 .bf16) (harg8 : arg8.IsWhole) (v90 : FVec Ideal S2048x128 .bf16) (h : Fin 2048 → Fin 128 → EReal)
    (X5 : BufTy.Contents (Elt Ideal) arg5.view.ty) (G7 X7 : BufTy.Contents (Elt Ideal) arg7.view.ty) (G8 : BufTy.Contents (Elt Ideal) arg8.view.ty)
    (X4 : BufTy.Contents (Elt Ideal) arg4.view.ty) (G6 : BufTy.Contents (Elt Ideal) arg6.view.ty)
    (hX5 : ∀ n f, arg5.view.read (Elt Ideal) X5 (ix2 n f) = Cert.Spec.xnK h n f)
    (hG7 : ∀ n, arg7.view.read (Elt Ideal) G7 (ix2 n (0 : Fin 1)) = 0)
    (hX4 : ∀ n f, arg4.view.read (Elt Ideal) X4 (ix2 n f) = h n f)
    (hG6 : ∀ n f, arg6.view.read (Elt Ideal) G6 (ix2 n f) = 0)
    (hX7 : ∀ n, arg7.view.read (Elt Ideal) X7 (ix2 n (0 : Fin 1)) = Ideal.rsqrt (arg7.view.read (Elt Ideal) (arg7.view.writes (Elt Ideal) G7 (pb_k0_t5 (F := Ideal) 𝒱 c bd i arg1 harg1 arg2 harg2 arg3 harg3 arg4 harg4 arg5 harg5 arg6 harg6 arg7 harg7 arg8 harg8 v90 X5 G7 G8 k0_t5_loop.trips).1) (ix2 n (0 : Fin 1))))
    (n : Fin 2048) (f : Fin 128) :
    Ideal.rsqrt (arg7.view.read (Elt Ideal) (arg7.view.writes (Elt Ideal) G7 (pb_k0_t5 (F := Ideal) 𝒱 c bd i arg1 harg1 arg2 harg2 arg3 harg3 arg4 harg4 arg5 harg5 arg6 harg6 arg7 harg7 arg8 harg8 v90 X5 G7 G8 k0_t5_loop.trips).1) (ix2 n (0 : Fin 1)))
      * arg6.view.read (Elt Ideal) (arg6.view.writes (Elt Ideal) G6 (pb_k0_t6 (F := Ideal) 𝒱 c bd i arg1 harg1 arg2 harg2 arg3 harg3 arg4 harg4 arg5 harg5 arg6 harg6 arg7 harg7 arg8 harg8 v90 X4 X7 (arg8.view.writes (Elt Ideal) G8 (pb_k0_t5 (F := Ideal) 𝒱 c bd i arg1 harg1 arg2 harg2 arg3 harg3 arg4 harg4 arg5 harg5 arg6 harg6 arg7 harg7 arg8 harg8 v90 X5 G7 G8 k0_t5_loop.trips).2) G6 k0_t6_loop.trips)) (ix2 n f)
      = Cert.Spec.stepK Cert.Spec.t3W h n f := by
  have hxn : (fun n f => arg5.view.read (Elt Ideal) X5 (ix2 n f)) = Cert.Spec.xnK h :=
    funext fun n => funext fun f => hX5 n f
  have hadj : ∀ n m : Fin 2048, Cert.Spec.adj Cert.Spec.t3W (fun n f => arg5.view.read (Elt Ideal) X5 (ix2 n f)) n m
      = Cert.Spec.adj Cert.Spec.t3W (Cert.Spec.xnK h) n m := fun n m =>
    congrArg (fun x => Cert.Spec.adj Cert.Spec.t3W x n m) hxn
  have hD : ∀ n : Fin 2048, arg7.view.read (Elt Ideal) (arg7.view.writes (Elt Ideal) G7 (pb_k0_t5 (F := Ideal) 𝒱 c bd i arg1 harg1 arg2 harg2 arg3 harg3 arg4 harg4 arg5 harg5 arg6 harg6 arg7 harg7 arg8 harg8 v90 X5 G7 G8 k0_t5_loop.trips).1) (ix2 n (0 : Fin 1))
      = Cert.Spec.deg (Cert.Spec.adj Cert.Spec.t3W (Cert.Spec.xnK h)) n := fun n =>
    (deg5 𝒱 c bd i arg1 harg1 arg2 harg2 arg3 harg3 arg4 harg4 arg5 harg5 arg6 harg6 arg7 harg7 arg8 harg8 v90 X5 G7 G8 n).trans (by
      rw [hG7 n]
      exact (zero_add _).trans (Finset.sum_congr rfl fun m _ => hadj n m))
  have hacc : arg6.view.read (Elt Ideal) (arg6.view.writes (Elt Ideal) G6 (pb_k0_t6 (F := Ideal) 𝒱 c bd i arg1 harg1 arg2 harg2 arg3 harg3 arg4 harg4 arg5 harg5 arg6 harg6 arg7 harg7 arg8 harg8 v90 X4 X7 (arg8.view.writes (Elt Ideal) G8 (pb_k0_t5 (F := Ideal) 𝒱 c bd i arg1 harg1 arg2 harg2 arg3 harg3 arg4 harg4 arg5 harg5 arg6 harg6 arg7 harg7 arg8 harg8 v90 X5 G7 G8 k0_t5_loop.trips).2) G6 k0_t6_loop.trips)) (ix2 n f)
      = ∑ m : Fin 2048, Cert.Spec.adj Cert.Spec.t3W (Cert.Spec.xnK h) n m
          * (h m f * Ideal.rsqrt (Cert.Spec.deg (Cert.Spec.adj Cert.Spec.t3W (Cert.Spec.xnK h)) m)) :=
    (acc6 𝒱 c bd i arg1 harg1 arg2 harg2 arg3 harg3 arg4 harg4 arg5 harg5 arg6 harg6 arg7 harg7 arg8 harg8 v90 X4 X7 (arg8.view.writes (Elt Ideal) G8 (pb_k0_t5 (F := Ideal) 𝒱 c bd i arg1 harg1 arg2 harg2 arg3 harg3 arg4 harg4 arg5 harg5 arg6 harg6 arg7 harg7 arg8 harg8 v90 X5 G7 G8 k0_t5_loop.trips).2) G6 n f).trans (by
      rw [hG6 n f]
      refine (zero_add _).trans (Finset.sum_congr rfl fun m _ => ?_)
      rw [adj5 𝒱 c bd i arg1 harg1 arg2 harg2 arg3 harg3 arg4 harg4 arg5 harg5 arg6 harg6 arg7 harg7 arg8 harg8 v90 X5 G7 G8 n m, hadj n m, hX4 m f, hX7 m, hD m])
  rw [hD n, hacc]
  rfl

end Cert.KernelIdeal.StepVal

end
-- ==== Proof.GraphLaw.lean ====
/-
  The two arrangements of the graph propagation agree on finite inputs.

  Both programs normalise the rows alike (a product with `1 / c` is a quotient by `c` once `c ≠ 0`), so they share one
  adjacency `A`: real, nonnegative (the thresholds are positive) and symmetric. What differs is where the scale
  factors `deg^(-1/2)` enter the product with `A`, and on the extended reals moving them is not free: a zero degree
  makes the factor `⊤`, and `⊤` does not distribute over a sum. The point is that a zero degree forces the whole
  row and column of `A` to vanish, so an infinite factor only ever multiplies a zero; everything else is real
  arithmetic. Realness is carried through the three steps.
-/
import proofs.«136311_j35759897706671_2_alg».proof.Proof.Spec

noncomputable section

namespace Cert.Spec

open Idealize.ShloMosaic
open scoped BigOperators

variable {N F : ℕ}

/-! ### The literals

Each literal is a finite bit pattern, so it denotes a real number; the thresholds and the clamp `ε` are positive. -/

theorem oneW_eq : oneW = 1 := by
  unfold oneW; simp [Ideal.ofBits, Ideal.ieee, -EReal.coe_mul]; norm_num

theorem zeroW_eq : zeroW = 0 := by
  unfold zeroW; simp [Ideal.ofBits, Ideal.ieee]

theorem epsW_eq : epsW = ((11258999 * (2 ^ 50)⁻¹ : ℝ) : EReal) := by
  unfold epsW; simp [Ideal.ofBits, Ideal.ieee, -EReal.coe_mul]

theorem epsW_real : ∃ e : ℝ, 0 < e ∧ epsW = (e : EReal) :=
  ⟨11258999 * (2 ^ 50)⁻¹, by positivity, epsW_eq⟩

theorem t1W_nonneg : 0 ≤ t1W := by
  have h : t1W = ((13421773 * (2 ^ 28)⁻¹ : ℝ) : EReal) := by
    unfold t1W; simp [Ideal.ofBits, Ideal.ieee, -EReal.coe_mul]
  rw [h]; exact EReal.coe_nonneg.2 (by positivity)

theorem t2W_nonneg : 0 ≤ t2W := by
  have h : t2W = ((13421773 * (2 ^ 27)⁻¹ : ℝ) : EReal) := by
    unfold t2W; simp [Ideal.ofBits, Ideal.ieee, -EReal.coe_mul]
  rw [h]; exact EReal.coe_nonneg.2 (by positivity)

theorem t3W_nonneg : 0 ≤ t3W := by
  have h : t3W = ((10066330 * (2 ^ 26)⁻¹ : ℝ) : EReal) := by
    unfold t3W; simp [Ideal.ofBits, Ideal.ieee, -EReal.coe_mul]
  rw [h]; exact EReal.coe_nonneg.2 (by positivity)

/-! ### Real numbers inside the extended reals -/

/-- The cast of a finite sum of reals is the sum of the casts. -/
theorem coe_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- On a positive real the inverse square root is the real `1 / √d`. -/
theorem rsqrt_of_pos (d : ℝ) (hd : 0 < d) :
    Ideal.rsqrt (d : EReal) = (((Real.sqrt d)⁻¹ : ℝ) : EReal) := by
  rw [Ideal.rsqrt_coe, if_neg (not_lt.2 hd.le), if_neg hd.ne']

/-- On a nonnegative real, `rsqrt d` and `1 / sqrt d` are the same extended real: the real `1 / √d` when
    `d > 0`, and `⊤` at `d = 0` (where `sqrt 0 = 0` and `1 / 0 = ⊤`). -/
theorem rsqrt_eq_div_sqrt (d : ℝ) (hd : 0 ≤ d) :
    Ideal.rsqrt (d : EReal) = Ideal.div oneW (Ideal.sqrt (d : EReal)) := by
  rw [oneW_eq, Ideal.rsqrt_coe, Ideal.sqrt_coe, if_neg (not_lt.2 hd), if_neg (not_lt.2 hd)]
  rcases eq_or_lt_of_le hd with h0 | hpos
  · rw [← h0]; simp [Ideal.div]
  · have hs : 0 < Real.sqrt d := Real.sqrt_pos.2 hpos
    have hs' : ((Real.sqrt d : ℝ) : EReal) ≠ 0 := by exact_mod_cast hs.ne'
    rw [if_neg hpos.ne', Ideal.div, if_neg hs', one_mul, ← EReal.coe_inv]

/-! ### One propagation, over an abstract adjacency -/

/-- The real inverse square root of a degree: `1 / √d` off zero, and `0` at zero (a placeholder: wherever it is
    used at `d = 0` it multiplies an adjacency entry that is itself zero). -/
def isr (d : ℝ) : ℝ := if d = 0 then 0 else (Real.sqrt d)⁻¹

/-- **`D^(-1/2) · (A · (D^(-1/2) h)) = (D^(-1/2) A D^(-1/2)) · h` on the extended reals**, for a real, nonnegative,
    symmetric `A` and a real `h`, where a zero degree gives `D^(-1/2) = ⊤`.

    Distributivity fails at `⊤`, so the infinite scale factors have to be shown harmless. A row of nonnegative reals
    that sums to zero is zero, and by symmetry so is the matching column. Hence an entry `A n m ≠ 0` has both degrees
    positive and both scale factors real, while an entry `A n m = 0` annihilates its whole term whatever the scale
    factors are (`0 · ⊤ = 0`). Each term of either sum is therefore the cast of a real product, the outer factor
    of the kernel's arrangement meets a zero sum when it is `⊤`, and what is left is an identity of real sums.
    Both arrangements equal the cast of the one real number. -/
theorem core (A : Fin N → Fin N → EReal) (h : Fin N → Fin F → EReal)
    (hA : ∀ n m, ∃ r : ℝ, A n m = (r : EReal)) (hA0 : ∀ n m, 0 ≤ A n m)
    (hAs : ∀ n m, A n m = A m n) (hh : ∀ m f, ∃ r : ℝ, h m f = (r : EReal)) (n : Fin N) (f : Fin F) :
    ∃ r : ℝ,
      Ideal.rsqrt (deg A n) * ∑ m, A n m * (h m f * Ideal.rsqrt (deg A m)) = (r : EReal) ∧
      ∑ m, ((A n m * Ideal.div oneW (Ideal.sqrt (deg A n)))
            * Ideal.div oneW (Ideal.sqrt (deg A m))) * h m f = (r : EReal) := by
  choose a ha using hA
  choose hr hhr using hh
  have ha0 : ∀ n m, 0 ≤ a n m := fun n m => by
    have := hA0 n m; rw [ha] at this; exact EReal.coe_nonneg.1 this
  have has : ∀ n m, a n m = a m n := fun n m => by
    have := hAs n m; rw [ha, ha] at this; exact EReal.coe_eq_coe_iff.1 this
  -- the degrees are nonnegative reals
  have hdeg : ∀ n, deg A n = ((∑ m, a n m : ℝ) : EReal) := fun n => by
    rw [coe_sum]; unfold deg; exact Finset.sum_congr rfl (fun m _ => ha n m)
  have hd0 : ∀ n, 0 ≤ ∑ m, a n m := fun n => Finset.sum_nonneg (fun m _ => ha0 n m)
  -- a row of zero degree is zero
  have hz : ∀ n, (∑ m, a n m) = 0 → ∀ m, a n m = 0 := fun n h0 m =>
    (Finset.sum_eq_zero_iff_of_nonneg (fun m _ => ha0 n m)).1 h0 m (Finset.mem_univ m)
  -- the two spellings of the inverse square root agree on a degree
  have his : ∀ n, Ideal.div oneW (Ideal.sqrt (deg A n)) = Ideal.rsqrt (deg A n) := fun n => by
    rw [hdeg]; exact (rsqrt_eq_div_sqrt _ (hd0 n)).symm
  simp only [his]
  -- it is real where the degree is positive
  have hisr : ∀ n, (∑ m, a n m) ≠ 0 → Ideal.rsqrt (deg A n) = ((isr (∑ m, a n m) : ℝ) : EReal) :=
    fun n hne => by
      rw [hdeg, rsqrt_of_pos _ (lt_of_le_of_ne (hd0 n) (Ne.symm hne)), isr, if_neg hne]
  -- a nonzero entry has both of its degrees positive
  have hnz : ∀ n m, a n m ≠ 0 → (∑ k, a n k) ≠ 0 ∧ (∑ k, a m k) ≠ 0 := fun n m h0 =>
    ⟨fun hd => h0 (hz n hd m), fun hd => h0 (by rw [has]; exact hz m hd n)⟩
  -- the kernel's terms
  have hK : ∀ m, A n m * (h m f * Ideal.rsqrt (deg A m))
      = ((a n m * (hr m f * isr (∑ k, a m k)) : ℝ) : EReal) := by
    intro m
    by_cases h0 : a n m = 0
    · rw [ha, h0]; simp
    · rw [ha, hhr, hisr m (hnz n m h0).2]; simp only [EReal.coe_mul]
  -- the reference's terms
  have hR : ∀ m, ((A n m * Ideal.rsqrt (deg A n)) * Ideal.rsqrt (deg A m)) * h m f
      = ((a n m * isr (∑ k, a n k) * isr (∑ k, a m k) * hr m f : ℝ) : EReal) := by
    intro m
    by_cases h0 : a n m = 0
    · rw [ha, h0]; simp
    · rw [ha, hhr, hisr n (hnz n m h0).1, hisr m (hnz n m h0).2]; simp only [EReal.coe_mul]
  refine ⟨isr (∑ k, a n k) * ∑ m, a n m * (hr m f * isr (∑ k, a m k)), ?_, ?_⟩
  · rw [Finset.sum_congr rfl (fun m _ => hK m), ← coe_sum]
    by_cases hdn : (∑ m, a n m) = 0
    · have hS : (∑ m, a n m * (hr m f * isr (∑ k, a m k))) = 0 :=
        Finset.sum_eq_zero (fun m _ => by rw [hz n hdn m, zero_mul])
      rw [hS]; simp
    · rw [hisr n hdn, EReal.coe_mul]
  · rw [Finset.sum_congr rfl (fun m _ => hR m), ← coe_sum, Finset.mul_sum]
    congr 1
    exact Finset.sum_congr rfl (fun m _ => by ring)

/-! ### The normalised rows and the thresholded Gram matrix -/

/-- The clamped norm is at least `ε > 0`, whatever the row holds. -/
theorem nrm_ne_zero (h : Fin N → Fin F → EReal) (n : Fin N) : nrm h n ≠ 0 := by
  obtain ⟨e, he, hee⟩ := epsW_real
  have hpos : (0 : EReal) < nrm h n :=
    lt_of_lt_of_le (by rw [hee]; exact EReal.coe_pos.2 he) (le_max_right _ _)
  exact hpos.ne'

/-- Multiplying by the reciprocal `1 / c` and dividing by `c` are the same operation once `c ≠ 0`, so the two
    programs normalise the rows alike (on every input, real or not). -/
theorem xnK_eq_xnR (h : Fin N → Fin F → EReal) : xnK h = xnR h := by
  funext n f
  unfold xnK xnR
  rw [Ideal.div, Ideal.div, if_neg (nrm_ne_zero h n), if_neg (nrm_ne_zero h n), oneW_eq, one_mul]

/-- The clamped norm of a row of reals is a positive real: the sum of squares is a nonnegative real, its square root
    takes the real branch, and the maximum of two reals is real. -/
theorem nrm_real (h : Fin N → Fin F → EReal) (hh : ∀ n f, ∃ r : ℝ, h n f = (r : EReal)) (n : Fin N) :
    ∃ c : ℝ, 0 < c ∧ nrm h n = (c : EReal) := by
  choose hr hhr using hh
  obtain ⟨e, he, hee⟩ := epsW_real
  have hs : (∑ f, h n f * h n f) = ((∑ f, hr n f * hr n f : ℝ) : EReal) := by
    rw [coe_sum]; exact Finset.sum_congr rfl (fun f _ => by rw [hhr, EReal.coe_mul])
  have hs0 : 0 ≤ ∑ f, hr n f * hr n f := Finset.sum_nonneg (fun f _ => mul_self_nonneg _)
  refine ⟨max (Real.sqrt (∑ f, hr n f * hr n f)) e, lt_max_of_lt_right he, ?_⟩
  unfold nrm
  rw [hs, Ideal.sqrt_coe, if_neg (not_lt.2 hs0), hee]
  exact (EReal.coe_strictMono.monotone.map_max).symm

/-- A real row divided by its clamped norm is a real row. -/
theorem xnR_real (h : Fin N → Fin F → EReal) (hh : ∀ n f, ∃ r : ℝ, h n f = (r : EReal)) (n : Fin N) (f : Fin F) :
    ∃ r : ℝ, xnR h n f = (r : EReal) := by
  obtain ⟨c, hc, hcc⟩ := nrm_real h hh n
  obtain ⟨r, hr⟩ := hh n f
  have hc' : ((c : ℝ) : EReal) ≠ 0 := by exact_mod_cast hc.ne'
  refine ⟨r * c⁻¹, ?_⟩
  unfold xnR
  rw [hcc, Ideal.div, if_neg hc', hr, ← EReal.coe_inv, ← EReal.coe_mul]

/-- The threshold keeps a value above `t` and replaces the others by zero. -/
theorem thr_eq (t a : EReal) : thr t a = if t < a then a else 0 := by
  unfold thr Scalar.select Ideal.cmp
  rw [zeroW_eq]
  by_cases h : t < a <;> simp [h]

/-- The adjacency of real rows is real: a finite sum of products of reals, or zero. -/
theorem adj_real (t : EReal) (xn : Fin N → Fin F → EReal) (hx : ∀ n f, ∃ r : ℝ, xn n f = (r : EReal))
    (n m : Fin N) : ∃ r : ℝ, adj t xn n m = (r : EReal) := by
  choose xr hxr using hx
  have hg : (∑ f, xn n f * xn m f) = ((∑ f, xr n f * xr m f : ℝ) : EReal) := by
    rw [coe_sum]; exact Finset.sum_congr rfl (fun f _ => by rw [hxr n f, hxr m f, EReal.coe_mul])
  unfold adj
  rw [thr_eq, hg]
  split_ifs
  · exact ⟨_, rfl⟩
  · exact ⟨0, EReal.coe_zero.symm⟩

/-- With a nonnegative threshold every adjacency entry is nonnegative: it is either above the threshold or zero. -/
theorem adj_nonneg (t : EReal) (ht : 0 ≤ t) (xn : Fin N → Fin F → EReal) (n m : Fin N) : 0 ≤ adj t xn n m := by
  unfold adj
  rw [thr_eq]
  split_ifs with h
  · exact ht.trans h.le
  · exact le_rfl

/-- The Gram matrix is symmetric, and so is its thresholding. -/
theorem adj_symm (t : EReal) (xn : Fin N → Fin F → EReal) (n m : Fin N) : adj t xn n m = adj t xn m n := by
  unfold adj
  congr 1
  exact Finset.sum_congr rfl (fun f _ => mul_comm _ _)

/-! ### One step, three steps, and the final product -/

/-- On a real matrix one propagation step gives the same real matrix in either arrangement. -/
theorem step_eq (t : EReal) (ht : 0 ≤ t) (h : Fin N → Fin F → EReal)
    (hh : ∀ n f, ∃ r : ℝ, h n f = (r : EReal)) :
    stepK t h = stepR t h ∧ ∀ n f, ∃ r : ℝ, stepK t h n f = (r : EReal) := by
  have key : ∀ n f, ∃ r : ℝ, stepK t h n f = (r : EReal) ∧ stepR t h n f = (r : EReal) := by
    intro n f
    unfold stepK stepR
    rw [xnK_eq_xnR]
    exact core (adj t (xnR h)) h (adj_real t _ (xnR_real h hh)) (adj_nonneg t ht _) (adj_symm t _) hh n f
  refine ⟨?_, fun n f => (key n f).imp (fun _ hr => hr.1)⟩
  funext n f
  obtain ⟨r, h1, h2⟩ := key n f
  rw [h1, h2]

/-- **The two programs compute the same function on finite inputs.** The input is real; each of the three steps
    keeps it real and is arrangement-independent on real matrices; the closing `(h₃ + x) · w` is the same expression
    of the same `h₃`. -/
theorem fin_eq (x : Fin N → Fin F → EReal) (w : Fin F → Fin F → EReal)
    (hx : ∀ n f, x n f ≠ ⊤ ∧ x n f ≠ ⊥) : finK x w = finR x w := by
  have hx' : ∀ n f, ∃ r : ℝ, x n f = (r : EReal) := fun n f =>
    ⟨(x n f).toReal, (EReal.coe_toReal (hx n f).1 (hx n f).2).symm⟩
  obtain ⟨e1, r1⟩ := step_eq t1W t1W_nonneg x hx'
  obtain ⟨e2, r2⟩ := step_eq t2W t2W_nonneg _ r1
  obtain ⟨e3, _⟩ := step_eq t3W t3W_nonneg _ r2
  funext n o
  unfold finK finR
  rw [e3, e2, e1]

end Cert.Spec

end
-- ==== Proof.LibAfterAppend.lean ====
/-
  Running two straight lines of host operations one after the other is running their concatenation: the
  buffer contents after `l₁ ++ l₂` from `V` are the contents after `l₂` from the contents after `l₁` from `V`.
  It lets the value a long line leaves in a buffer be computed in pieces: the part of the line that produces an
  intermediate value, then the part that consumes it, each over an arbitrary starting valuation.
-/
import Idealize.ShloMosaic.Lib.StableHlo.Run

namespace Idealize.ShloMosaic.StableHlo

variable {τ : Topo} {sig : RefSig} {Val : EltTy → Type}

/-- The contents after a concatenation are the contents after the second line, started from the contents after
    the first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Every operation of a concatenation has a property when every operation of each part has it. -/
theorem forall_append {p : HloOp τ sig Val → Prop} {l₁ l₂ : List (HloOp τ sig Val)}
    (h₁ : l₁.Forall p) (h₂ : l₂.Forall p) : (l₁ ++ l₂).Forall p :=
  List.forall_iff_forall_mem.2 fun op hop =>
    (List.mem_append.1 hop).elim (List.forall_iff_forall_mem.1 h₁ op) (List.forall_iff_forall_mem.1 h₂ op)

end Idealize.ShloMosaic.StableHlo
-- ==== Proof.RefRun.lean ====
/-
  The reference program's run, read in stages.

  The program is a straight line of 95 operations: three "propagate" steps of 31 operations each, then the residual
  sum and the final product. The contents of the buffers after the whole line are the contents after the last part
  started from the contents after the parts before it, so the result is read one part at a time over an arbitrary
  starting valuation: each step leaves its stage function of the previous step's result in its result buffer and
  keeps the two arguments; the last part leaves the program's result. No composed term of the whole line is formed.
-/
import proofs.«136311_j35759897706671_2_alg».proof.Proof.RIRun
import proofs.«136311_j35759897706671_2_alg».proof.Proof.RIRead
import proofs.«136311_j35759897706671_2_alg».proof.Proof.LibAfterAppend
import Idealize.ShloMosaic.Lib.StableHlo.Run

noncomputable section

namespace Cert.ReferenceIdeal.RefValue

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- The operations of step 1: from the first argument to `main_v19`. -/
def ops1 : List (HloOp τ sig (Elt F)) :=
  [
    TRef.binary (TRef.of (T := ⟨S8x2048x128, .f32⟩) main_arg0) (TRef.of (T := ⟨S8x2048x128, .f32⟩) main_arg0) (TRef.of (T := ⟨S8x2048x128, .f32⟩) main_call0_v0) mulf,
    TRef.nullary (TRef.of (T := ⟨S_, .f32⟩) main_call0_cst) (constant S_ .f32 0x00000000#32),
    TRef.binary (TRef.of (T := ⟨S8x2048x128, .f32⟩) main_call0_v0) (TRef.of (T := ⟨S_, .f32⟩) main_call0_cst) (TRef.of (T := ⟨S8x2048, .f32⟩) main_call0_v1) (fun x v => Host.reduceAdd x v reducesTo_S8x2048x128_S8x2048_d2 h_S_),
    TRef.unary (TRef.of (T := ⟨S8x2048, .f32⟩) main_call0_v1) (TRef.of (T := ⟨S8x2048x1, .f32⟩) main_call0_v2) (broadcastInDim S8x2048x1 ![0, 1] bcast_S8x2048_S8x2048x1_0_1),
    TRef.unary (TRef.of (T := ⟨S8x2048x1, .f32⟩) main_call0_v2) (TRef.of (T := ⟨S8x2048x1, .f32⟩) main_v0) Host.sqrt,
    nullary main_cst (constant S_ .f32 0x322BCC77#32),
    unary main_cst main_v1 (broadcastInDim S8x2048x1 ![] bcast_S_S8x2048x1 : (⟨S_, .f32⟩ : BufTy).Contents (Elt F) → (⟨S8x2048x1, .f32⟩ : BufTy).Contents (Elt F)),
    binary main_v0 main_v1 main_v2 (maximumf : (⟨S8x2048x1, .f32⟩ : BufTy).Contents (Elt F) → (⟨S8x2048x1, .f32⟩ : BufTy).Contents (Elt F) → (⟨S8x2048x1, .f32⟩ : BufTy).Contents (Elt F)),
    unary main_v2 main_v3 (broadcastInDim S8x2048x128 ![0, 1, 2] bcast_S8x2048x1_S8x2048x128_0_1_2 : (⟨S8x2048x1, .f32⟩ : BufTy).Contents (Elt F) → (⟨S8x2048x128, .f32⟩ : BufTy).Contents (Elt F)),
    binary main_arg0 main_v3 main_v4 (Host.divf : (⟨S8x2048x128, .f32⟩ : BufTy).Contents (Elt F) → (⟨S8x2048x128, .f32⟩ : BufTy).Contents (Elt F) → (⟨S8x2048x128, .f32⟩ : BufTy).Contents (Elt F)),
    binary main_v4 main_v4 main_v5 ((fun l r => Host.dotGeneral dot_S8x2048x128_S8x2048x128_S8x2048x2048_2_2_1_1_0_0 none l r) : (⟨S8x2048x128, .f32⟩ : BufTy).Contents (Elt F) → (⟨S8x2048x128, .f32⟩ : BufTy).Contents (Elt F) → (⟨S8x2048x2048, .f32⟩ : BufTy).Contents (Elt F)),
    nullary main_cst_0 (constant S_ .f32 0x3D4CCCCD#32),
    unary main_cst_0 main_v6 (broadcastInDim S8x2048x2048 ![] bcast_S_S8x2048x2048 : (⟨S_, .f32⟩ : BufTy).Contents (Elt F) → (⟨S8x2048x2048, .f32⟩ : BufTy).Contents (Elt F)),
    binary main_v5 main_v6 main_v7 (cmpf .ogt : (⟨S8x2048x2048, .f32⟩ : BufTy).Contents (Elt F) → (⟨S8x2048x2048, .f32⟩ : BufTy).Contents (Elt F) → (⟨S8x2048x2048, .i1⟩ : BufTy).Contents (Elt F)),
    nullary main_cst_1 (constant S_ .f32 0x00000000#32),
    TRef.unary (TRef.of (T := ⟨S_, .f32⟩) main_cst_1) (TRef.of (T := ⟨S_, .f32⟩) main_call1_v0) id,
    TRef.unary (TRef.of (T := ⟨S_, .f32⟩) main_call1_v0) (TRef.of (T := ⟨S8x2048x2048, .f32⟩) main_call1_v1) (broadcastInDim S8x2048x2048 ![] bcast_S_S8x2048x2048),
    TRef.ternary (TRef.of (T := ⟨S8x2048x2048, .i1⟩) main_v7) (TRef.of (T := ⟨S8x2048x2048, .f32⟩) main_v5) (TRef.of (T := ⟨S8x2048x2048, .f32⟩) main_call1_v1) (TRef.of (T := ⟨S8x2048x2048, .f32⟩) main_v8) select,
    nullary main_cst_2 (constant S_ .f32 0x00000000#32),
    binary main_v8 main_cst_2 main_v9 ((fun x v => Host.reduceAdd x v reducesTo_S8x2048x2048_S8x2048_d2 h_S_) : (⟨S8x2048x2048, .f32⟩ : BufTy).Contents (Elt F) → (⟨S_, .f32⟩ : BufTy).Contents (Elt F) → (⟨S8x2048, .f32⟩ : BufTy).Contents (Elt F)),
    unary main_v9 main_v10 (Host.sqrt : (⟨S8x2048, .f32⟩ : BufTy).Contents (Elt F) → (⟨S8x2048, .f32⟩ : BufTy).Contents (Elt F)),
    nullary main_cst_3 (constant S_ .f32 0x3F800000#32),
    unary main_cst_3 main_v11 (broadcastInDim S8x2048 ![] bcast_S_S8x2048 : (⟨S_, .f32⟩ : BufTy).Contents (Elt F) → (⟨S8x2048, .f32⟩ : BufTy).Contents (Elt F)),
    binary main_v11 main_v10 main_v12 (Host.divf : (⟨S8x2048, .f32⟩ : BufTy).Contents (Elt F) → (⟨S8x2048, .f32⟩ : BufTy).Contents (Elt F) → (⟨S8x2048, .f32⟩ : BufTy).Contents (Elt F)),
    unary main_v12 main_v13 (broadcastInDim S8x2048x1 ![0, 1] bcast_S8x2048_S8x2048x1_0_1 : (⟨S8x2048, .f32⟩ : BufTy).Contents (Elt F) → (⟨S8x2048x1, .f32⟩ : BufTy).Contents (Elt F)),
    unary main_v13 main_v14 (broadcastInDim S8x2048x2048 ![0, 1, 2] bcast_S8x2048x1_S8x2048x2048_0_1_2 : (⟨S8x2048x1, .f32⟩ : BufTy).Contents (Elt F) → (⟨S8x2048x2048, .f32⟩ : BufTy).Contents (Elt F)),
    binary main_v8 main_v14 main_v15 (mulf : (⟨S8x2048x2048, .f32⟩ : BufTy).Contents (Elt F) → (⟨S8x2048x2048, .f32⟩ : BufTy).Contents (Elt F) → (⟨S8x2048x2048, .f32⟩ : BufTy).Contents (Elt F)),
    unary main_v12 main_v16 (broadcastInDim S8x1x2048 ![0, 2] bcast_S8x2048_S8x1x2048_0_2 : (⟨S8x2048, .f32⟩ : BufTy).Contents (Elt F) → (⟨S8x1x2048, .f32⟩ : BufTy).Contents (Elt F)),
    unary main_v16 main_v17 (broadcastInDim S8x2048x2048 ![0, 1, 2] bcast_S8x1x2048_S8x2048x2048_0_1_2 : (⟨S8x1x2048, .f32⟩ : BufTy).Contents (Elt F) → (⟨S8x2048x2048, .f32⟩ : BufTy).Contents (Elt F)),
    binary main_v15 main_v17 main_v18 (mulf : (⟨S8x2048x2048, .f32⟩ : BufTy).Contents (Elt F) → (⟨S8x2048x2048, .f32⟩ : BufTy).Contents (Elt F) → (⟨S8x2048x2048, .f32⟩ : BufTy).Contents (Elt F)),
    binary main_v18 main_arg0 main_v19 ((fun l r => Host.dotGeneral dot_S8x2048x2048_S8x2048x128_S8x2048x128_2_1_1_2_0_0 none l r) : (⟨S8x2048x2048, .f32⟩ : BufTy).Contents (Elt F) → (⟨S8x2048x128, .f32⟩ : BufTy).Contents (Elt F) → (⟨S8x2048x128, .f32⟩ : BufTy).Contents (Elt F)) ]

/-- The operations of step 2: from `main_v19` to `main_v39`. -/
def ops2 : List (HloOp τ sig (Elt F)) :=
  [
    TRef.binary (TRef.of (T := ⟨S8x2048x128, .f32⟩) main_v19) (TRef.of (T := ⟨S8x2048x128, .f32⟩) main_v19) (TRef.of (T := ⟨S8x2048x128, .f32⟩) main_call2_v0) mulf,
    TRef.nullary (TRef.of (T := ⟨S_, .f32⟩) main_call2_cst) (constant S_ .f32 0x00000000#32),
    TRef.binary (TRef.of (T := ⟨S8x2048x128, .f32⟩) main_call2_v0) (TRef.of (T := ⟨S_, .f32⟩) main_call2_cst) (TRef.of (T := ⟨S8x2048, .f32⟩) main_call2_v1) (fun x v => Host.reduceAdd x v reducesTo_S8x2048x128_S8x2048_d2 h_S_),
    TRef.unary (TRef.of (T := ⟨S8x2048, .f32⟩) main_call2_v1) (TRef.of (T := ⟨S8x2048x1, .f32⟩) main_call2_v2) (broadcastInDim S8x2048x1 ![0, 1] bcast_S8x2048_S8x2048x1_0_1),
    TRef.unary (TRef.of (T := ⟨S8x2048x1, .f32⟩) main_call2_v2) (TRef.of (T := ⟨S8x2048x1, .f32⟩) main_v20) Host.sqrt,
    nullary main_cst_4 (constant S_ .f32 0x322BCC77#32),
    unary main_cst_4 main_v21 (broadcastInDim S8x2048x1 ![] bcast_S_S8x2048x1 : (⟨S_, .f32⟩ : BufTy).Contents (Elt F) → (⟨S8x2048x1, .f32⟩ : BufTy).Contents (Elt F)),
    binary main_v20 main_v21 main_v22 (maximumf : (⟨S8x2048x1, .f32⟩ : BufTy).Contents (Elt F) → (⟨S8x2048x1, .f32⟩ : BufTy).Contents (Elt F) → (⟨S8x2048x1, .f32⟩ : BufTy).Contents (Elt F)),
    unary main_v22 main_v23 (broadcastInDim S8x2048x128 ![0, 1, 2] bcast_S8x2048x1_S8x2048x128_0_1_2 : (⟨S8x2048x1, .f32⟩ : BufTy).Contents (Elt F) → (⟨S8x2048x128, .f32⟩ : BufTy).Contents (Elt F)),
    binary main_v19 main_v23 main_v24 (Host.divf : (⟨S8x2048x128, .f32⟩ : BufTy).Contents (Elt F) → (⟨S8x2048x128, .f32⟩ : BufTy).Contents (Elt F) → (⟨S8x2048x128, .f32⟩ : BufTy).Contents (Elt F)),
    binary main_v24 main_v24 main_v25 ((fun l r => Host.dotGeneral dot_S8x2048x128_S8x2048x128_S8x2048x2048_2_2_1_1_0_0 none l r) : (⟨S8x2048x128, .f32⟩ : BufTy).Contents (Elt F) → (⟨S8x2048x128, .f32⟩ : BufTy).Contents (Elt F) → (⟨S8x2048x2048, .f32⟩ : BufTy).Contents (Elt F)),
    nullary main_cst_5 (constant S_ .f32 0x3DCCCCCD#32),
    unary main_cst_5 main_v26 (broadcastInDim S8x2048x2048 ![] bcast_S_S8x2048x2048 : (⟨S_, .f32⟩ : BufTy).Contents (Elt F) → (⟨S8x2048x2048, .f32⟩ : BufTy).Contents (Elt F)),
    binary main_v25 main_v26 main_v27 (cmpf .ogt : (⟨S8x2048x2048, .f32⟩ : BufTy).Contents (Elt F) → (⟨S8x2048x2048, .f32⟩ : BufTy).Contents (Elt F) → (⟨S8x2048x2048, .i1⟩ : BufTy).Contents (Elt F)),
    nullary main_cst_6 (constant S_ .f32 0x00000000#32),
    TRef.unary (TRef.of (T := ⟨S_, .f32⟩) main_cst_6) (TRef.of (T := ⟨S_, .f32⟩) main_call3_v0) id,
    TRef.unary (TRef.of (T := ⟨S_, .f32⟩) main_call3_v0) (TRef.of (T := ⟨S8x2048x2048, .f32⟩) main_call3_v1) (broadcastInDim S8x2048x2048 ![] bcast_S_S8x2048x2048),
    TRef.ternary (TRef.of (T := ⟨S8x2048x2048, .i1⟩) main_v27) (TRef.of (T := ⟨S8x2048x2048, .f32⟩) main_v25) (TRef.of (T := ⟨S8x2048x2048, .f32⟩) main_call3_v1) (TRef.of (T := ⟨S8x2048x2048, .f32⟩) main_v28) select,
    nullary main_cst_7 (constant S_ .f32 0x00000000#32),
    binary main_v28 main_cst_7 main_v29 ((fun x v => Host.reduceAdd x v reducesTo_S8x2048x2048_S8x2048_d2 h_S_) : (⟨S8x2048x2048, .f32⟩ : BufTy).Contents (Elt F) → (⟨S_, .f32⟩ : BufTy).Contents (Elt F) → (⟨S8x2048, .f32⟩ : BufTy).Contents (Elt F)),
    unary main_v29 main_v30 (Host.sqrt : (⟨S8x2048, .f32⟩ : BufTy).Contents (Elt F) → (⟨S8x2048, .f32⟩ : BufTy).Contents (Elt F)),
    nullary main_cst_8 (constant S_ .f32 0x3F800000#32),
    unary main_cst_8 main_v31 (broadcastInDim S8x2048 ![] bcast_S_S8x2048 : (⟨S_, .f32⟩ : BufTy).Contents (Elt F) → (⟨S8x2048, .f32⟩ : BufTy).Contents (Elt F)),
    binary main_v31 main_v30 main_v32 (Host.divf : (⟨S8x2048, .f32⟩ : BufTy).Contents (Elt F) → (⟨S8x2048, .f32⟩ : BufTy).Contents (Elt F) → (⟨S8x2048, .f32⟩ : BufTy).Contents (Elt F)),
    unary main_v32 main_v33 (broadcastInDim S8x2048x1 ![0, 1] bcast_S8x2048_S8x2048x1_0_1 : (⟨S8x2048, .f32⟩ : BufTy).Contents (Elt F) → (⟨S8x2048x1, .f32⟩ : BufTy).Contents (Elt F)),
    unary main_v33 main_v34 (broadcastInDim S8x2048x2048 ![0, 1, 2] bcast_S8x2048x1_S8x2048x2048_0_1_2 : (⟨S8x2048x1, .f32⟩ : BufTy).Contents (Elt F) → (⟨S8x2048x2048, .f32⟩ : BufTy).Contents (Elt F)),
    binary main_v28 main_v34 main_v35 (mulf : (⟨S8x2048x2048, .f32⟩ : BufTy).Contents (Elt F) → (⟨S8x2048x2048, .f32⟩ : BufTy).Contents (Elt F) → (⟨S8x2048x2048, .f32⟩ : BufTy).Contents (Elt F)),
    unary main_v32 main_v36 (broadcastInDim S8x1x2048 ![0, 2] bcast_S8x2048_S8x1x2048_0_2 : (⟨S8x2048, .f32⟩ : BufTy).Contents (Elt F) → (⟨S8x1x2048, .f32⟩ : BufTy).Contents (Elt F)),
    unary main_v36 main_v37 (broadcastInDim S8x2048x2048 ![0, 1, 2] bcast_S8x1x2048_S8x2048x2048_0_1_2 : (⟨S8x1x2048, .f32⟩ : BufTy).Contents (Elt F) → (⟨S8x2048x2048, .f32⟩ : BufTy).Contents (Elt F)),
    binary main_v35 main_v37 main_v38 (mulf : (⟨S8x2048x2048, .f32⟩ : BufTy).Contents (Elt F) → (⟨S8x2048x2048, .f32⟩ : BufTy).Contents (Elt F) → (⟨S8x2048x2048, .f32⟩ : BufTy).Contents (Elt F)),
    binary main_v38 main_v19 main_v39 ((fun l r => Host.dotGeneral dot_S8x2048x2048_S8x2048x128_S8x2048x128_2_1_1_2_0_0 none l r) : (⟨S8x2048x2048, .f32⟩ : BufTy).Contents (Elt F) → (⟨S8x2048x128, .f32⟩ : BufTy).Contents (Elt F) → (⟨S8x2048x128, .f32⟩ : BufTy).Contents (Elt F)) ]

/-- The operations of step 3: from `main_v39` to `main_v59`. -/
def ops3 : List (HloOp τ sig (Elt F)) :=
  [
    TRef.binary (TRef.of (T := ⟨S8x2048x128, .f32⟩) main_v39) (TRef.of (T := ⟨S8x2048x128, .f32⟩) main_v39) (TRef.of (T := ⟨S8x2048x128, .f32⟩) main_call4_v0) mulf,
    TRef.nullary (TRef.of (T := ⟨S_, .f32⟩) main_call4_cst) (constant S_ .f32 0x00000000#32),
    TRef.binary (TRef.of (T := ⟨S8x2048x128, .f32⟩) main_call4_v0) (TRef.of (T := ⟨S_, .f32⟩) main_call4_cst) (TRef.of (T := ⟨S8x2048, .f32⟩) main_call4_v1) (fun x v => Host.reduceAdd x v reducesTo_S8x2048x128_S8x2048_d2 h_S_),
    TRef.unary (TRef.of (T := ⟨S8x2048, .f32⟩) main_call4_v1) (TRef.of (T := ⟨S8x2048x1, .f32⟩) main_call4_v2) (broadcastInDim S8x2048x1 ![0, 1] bcast_S8x2048_S8x2048x1_0_1),
    TRef.unary (TRef.of (T := ⟨S8x2048x1, .f32⟩) main_call4_v2) (TRef.of (T := ⟨S8x2048x1, .f32⟩) main_v40) Host.sqrt,
    nullary main_cst_9 (constant S_ .f32 0x322BCC77#32),
    unary main_cst_9 main_v41 (broadcastInDim S8x2048x1 ![] bcast_S_S8x2048x1 : (⟨S_, .f32⟩ : BufTy).Contents (Elt F) → (⟨S8x2048x1, .f32⟩ : BufTy).Contents (Elt F)),
    binary main_v40 main_v41 main_v42 (maximumf : (⟨S8x2048x1, .f32⟩ : BufTy).Contents (Elt F) → (⟨S8x2048x1, .f32⟩ : BufTy).Contents (Elt F) → (⟨S8x2048x1, .f32⟩ : BufTy).Contents (Elt F)),
    unary main_v42 main_v43 (broadcastInDim S8x2048x128 ![0, 1, 2] bcast_S8x2048x1_S8x2048x128_0_1_2 : (⟨S8x2048x1, .f32⟩ : BufTy).Contents (Elt F) → (⟨S8x2048x128, .f32⟩ : BufTy).Contents (Elt F)),
    binary main_v39 main_v43 main_v44 (Host.divf : (⟨S8x2048x128, .f32⟩ : BufTy).Contents (Elt F) → (⟨S8x2048x128, .f32⟩ : BufTy).Contents (Elt F) → (⟨S8x2048x128, .f32⟩ : BufTy).Contents (Elt F)),
    binary main_v44 main_v44 main_v45 ((fun l r => Host.dotGeneral dot_S8x2048x128_S8x2048x128_S8x2048x2048_2_2_1_1_0_0 none l r) : (⟨S8x2048x128, .f32⟩ : BufTy).Contents (Elt F) → (⟨S8x2048x128, .f32⟩ : BufTy).Contents (Elt F) → (⟨S8x2048x2048, .f32⟩ : BufTy).Contents (Elt F)),
    nullary main_cst_10 (constant S_ .f32 0x3E19999A#32),
    unary main_cst_10 main_v46 (broadcastInDim S8x2048x2048 ![] bcast_S_S8x2048x2048 : (⟨S_, .f32⟩ : BufTy).Contents (Elt F) → (⟨S8x2048x2048, .f32⟩ : BufTy).Contents (Elt F)),
    binary main_v45 main_v46 main_v47 (cmpf .ogt : (⟨S8x2048x2048, .f32⟩ : BufTy).Contents (Elt F) → (⟨S8x2048x2048, .f32⟩ : BufTy).Contents (Elt F) → (⟨S8x2048x2048, .i1⟩ : BufTy).Contents (Elt F)),
    nullary main_cst_11 (constant S_ .f32 0x00000000#32),
    TRef.unary (TRef.of (T := ⟨S_, .f32⟩) main_cst_11) (TRef.of (T := ⟨S_, .f32⟩) main_call5_v0) id,
    TRef.unary (TRef.of (T := ⟨S_, .f32⟩) main_call5_v0) (TRef.of (T := ⟨S8x2048x2048, .f32⟩) main_call5_v1) (broadcastInDim S8x2048x2048 ![] bcast_S_S8x2048x2048),
    TRef.ternary (TRef.of (T := ⟨S8x2048x2048, .i1⟩) main_v47) (TRef.of (T := ⟨S8x2048x2048, .f32⟩) main_v45) (TRef.of (T := ⟨S8x2048x2048, .f32⟩) main_call5_v1) (TRef.of (T := ⟨S8x2048x2048, .f32⟩) main_v48) select,
    nullary main_cst_12 (constant S_ .f32 0x00000000#32),
    binary main_v48 main_cst_12 main_v49 ((fun x v => Host.reduceAdd x v reducesTo_S8x2048x2048_S8x2048_d2 h_S_) : (⟨S8x2048x2048, .f32⟩ : BufTy).Contents (Elt F) → (⟨S_, .f32⟩ : BufTy).Contents (Elt F) → (⟨S8x2048, .f32⟩ : BufTy).Contents (Elt F)),
    unary main_v49 main_v50 (Host.sqrt : (⟨S8x2048, .f32⟩ : BufTy).Contents (Elt F) → (⟨S8x2048, .f32⟩ : BufTy).Contents (Elt F)),
    nullary main_cst_13 (constant S_ .f32 0x3F800000#32),
    unary main_cst_13 main_v51 (broadcastInDim S8x2048 ![] bcast_S_S8x2048 : (⟨S_, .f32⟩ : BufTy).Contents (Elt F) → (⟨S8x2048, .f32⟩ : BufTy).Contents (Elt F)),
    binary main_v51 main_v50 main_v52 (Host.divf : (⟨S8x2048, .f32⟩ : BufTy).Contents (Elt F) → (⟨S8x2048, .f32⟩ : BufTy).Contents (Elt F) → (⟨S8x2048, .f32⟩ : BufTy).Contents (Elt F)),
    unary main_v52 main_v53 (broadcastInDim S8x2048x1 ![0, 1] bcast_S8x2048_S8x2048x1_0_1 : (⟨S8x2048, .f32⟩ : BufTy).Contents (Elt F) → (⟨S8x2048x1, .f32⟩ : BufTy).Contents (Elt F)),
    unary main_v53 main_v54 (broadcastInDim S8x2048x2048 ![0, 1, 2] bcast_S8x2048x1_S8x2048x2048_0_1_2 : (⟨S8x2048x1, .f32⟩ : BufTy).Contents (Elt F) → (⟨S8x2048x2048, .f32⟩ : BufTy).Contents (Elt F)),
    binary main_v48 main_v54 main_v55 (mulf : (⟨S8x2048x2048, .f32⟩ : BufTy).Contents (Elt F) → (⟨S8x2048x2048, .f32⟩ : BufTy).Contents (Elt F) → (⟨S8x2048x2048, .f32⟩ : BufTy).Contents (Elt F)),
    unary main_v52 main_v56 (broadcastInDim S8x1x2048 ![0, 2] bcast_S8x2048_S8x1x2048_0_2 : (⟨S8x2048, .f32⟩ : BufTy).Contents (Elt F) → (⟨S8x1x2048, .f32⟩ : BufTy).Contents (Elt F)),
    unary main_v56 main_v57 (broadcastInDim S8x2048x2048 ![0, 1, 2] bcast_S8x1x2048_S8x2048x2048_0_1_2 : (⟨S8x1x2048, .f32⟩ : BufTy).Contents (Elt F) → (⟨S8x2048x2048, .f32⟩ : BufTy).Contents (Elt F)),
    binary main_v55 main_v57 main_v58 (mulf : (⟨S8x2048x2048, .f32⟩ : BufTy).Contents (Elt F) → (⟨S8x2048x2048, .f32⟩ : BufTy).Contents (Elt F) → (⟨S8x2048x2048, .f32⟩ : BufTy).Contents (Elt F)),
    binary main_v58 main_v39 main_v59 ((fun l r => Host.dotGeneral dot_S8x2048x2048_S8x2048x128_S8x2048x128_2_1_1_2_0_0 none l r) : (⟨S8x2048x2048, .f32⟩ : BufTy).Contents (Elt F) → (⟨S8x2048x128, .f32⟩ : BufTy).Contents (Elt F) → (⟨S8x2048x128, .f32⟩ : BufTy).Contents (Elt F)) ]

/-- The last two operations: the residual sum and the product with the weights. -/
def ops4 : List (HloOp τ sig (Elt F)) :=
  [
    binary main_v59 main_arg0 main_v60 (addf : (⟨S8x2048x128, .f32⟩ : BufTy).Contents (Elt F) → (⟨S8x2048x128, .f32⟩ : BufTy).Contents (Elt F) → (⟨S8x2048x128, .f32⟩ : BufTy).Contents (Elt F)),
    binary main_v60 main_arg1 main_v61 ((fun l r => Host.dotGeneral dot_S8x2048x128_S128x128_S8x2048x128_2_0_01_1_n_n none l r) : (⟨S8x2048x128, .f32⟩ : BufTy).Contents (Elt F) → (⟨S128x128, .f32⟩ : BufTy).Contents (Elt F) → (⟨S8x2048x128, .f32⟩ : BufTy).Contents (Elt F)) ]

/-- The program's line of operations is the four parts in order. -/
theorem ops_split : (ops : List (HloOp τ sig (Elt F))) = ops1 ++ (ops2 ++ (ops3 ++ ops4)) := rfl

/-! ## What each part leaves, over an arbitrary starting valuation -/

/-- Step 1 leaves its value of the first argument in `main_v19` and keeps both arguments. -/
theorem stage1 (V : Valuation τ sig (Elt F)) :
    after ops1 V (Proc.devRef .tc main_v19) = val_main_v19 (F := F) (V (Proc.devRef .tc main_arg0))
      ∧ after ops1 V (Proc.devRef .tc main_arg0) = V (Proc.devRef .tc main_arg0)
      ∧ after ops1 V (Proc.devRef .tc main_arg1) = V (Proc.devRef .tc main_arg1) := by
  refine ⟨?_, ?_, ?_⟩
  · unfold ops1
    after_results_simp
    rfl
  · unfold ops1
    after_results_simp
  · unfold ops1
    after_results_simp

/-- Step 2 reads the previous step's result and leaves its own value in `main_v39`, keeping both arguments. -/
theorem stage2 (W : Valuation τ sig (Elt F)) (x0 : (⟨S8x2048x128, .f32⟩ : BufTy).Contents (Elt F))
    (x1 : (⟨S128x128, .f32⟩ : BufTy).Contents (Elt F))
    (hp : W (Proc.devRef .tc main_v19) = val_main_v19 (F := F) x0) (h0 : W (Proc.devRef .tc main_arg0) = x0) (h1 : W (Proc.devRef .tc main_arg1) = x1) :
    after ops2 W (Proc.devRef .tc main_v39) = val_main_v39 (F := F) x0
      ∧ after ops2 W (Proc.devRef .tc main_arg0) = x0
      ∧ after ops2 W (Proc.devRef .tc main_arg1) = x1 := by
  refine ⟨?_, ?_, ?_⟩
  · unfold ops2
    after_results_simp
    rw [hp]
    rfl
  · unfold ops2
    after_results_simp
    exact h0
  · unfold ops2
    after_results_simp
    exact h1

/-- Step 3 reads the previous step's result and leaves its own value in `main_v59`, keeping both arguments. -/
theorem stage3 (W : Valuation τ sig (Elt F)) (x0 : (⟨S8x2048x128, .f32⟩ : BufTy).Contents (Elt F))
    (x1 : (⟨S128x128, .f32⟩ : BufTy).Contents (Elt F))
    (hp : W (Proc.devRef .tc main_v39) = val_main_v39 (F := F) x0) (h0 : W (Proc.devRef .tc main_arg0) = x0) (h1 : W (Proc.devRef .tc main_arg1) = x1) :
    after ops3 W (Proc.devRef .tc main_v59) = val_main_v59 (F := F) x0
      ∧ after ops3 W (Proc.devRef .tc main_arg0) = x0
      ∧ after ops3 W (Proc.devRef .tc main_arg1) = x1 := by
  refine ⟨?_, ?_, ?_⟩
  · unfold ops3
    after_results_simp
    rw [hp]
    rfl
  · unfold ops3
    after_results_simp
    exact h0
  · unfold ops3
    after_results_simp
    exact h1

/-- The last part adds the first argument to step 3's result and multiplies by the weights. -/
theorem stage4 (W : Valuation τ sig (Elt F)) (x0 : (⟨S8x2048x128, .f32⟩ : BufTy).Contents (Elt F))
    (x1 : (⟨S128x128, .f32⟩ : BufTy).Contents (Elt F))
    (hp : W (Proc.devRef .tc main_v59) = val_main_v59 (F := F) x0) (h0 : W (Proc.devRef .tc main_arg0) = x0) (h1 : W (Proc.devRef .tc main_arg1) = x1) :
    after ops4 W (Proc.devRef .tc main_v61) = val_main_v61 (F := F) x0 x1
      ∧ after ops4 W (Proc.devRef .tc main_arg0) = x0
      ∧ after ops4 W (Proc.devRef .tc main_arg1) = x1 := by
  refine ⟨?_, ?_, ?_⟩
  · unfold ops4
    after_results_simp
    rw [hp, h0, h1]
    rfl
  · unfold ops4
    after_results_simp
    exact h0
  · unfold ops4
    after_results_simp
    exact h1

/-! ## The whole line -/

/-- After the whole line the result buffer holds the reference's value of the two arguments, which are kept. -/
theorem after_ops (V : Valuation τ sig (Elt F)) :
    after ops V (Proc.devRef .tc main_v61) = val_main_v61 (F := F) (V (Proc.devRef .tc main_arg0)) (V (Proc.devRef .tc main_arg1))
      ∧ after ops V (Proc.devRef .tc main_arg0) = V (Proc.devRef .tc main_arg0)
      ∧ after ops V (Proc.devRef .tc main_arg1) = V (Proc.devRef .tc main_arg1) := by
  rw [ops_split, after_append, after_append, after_append]
  obtain ⟨a1, b1, c1⟩ := stage1 (F := F) V
  obtain ⟨a2, b2, c2⟩ := stage2 (after ops1 V) _ _ a1 b1 c1
  obtain ⟨a3, b3, c3⟩ := stage3 (after ops2 (after ops1 V)) _ _ a2 b2 c2
  exact stage4 (after ops3 (after ops2 (after ops1 V))) _ _ a3 b3 c3

/-- On every device, from any memory with zero counters: every weakly fair execution of the reference terminates with
    the result buffer at the reference's value of the launch contents of the two arguments, the arguments unchanged. -/
theorem run_val (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v61) = Cert.ReferenceIdeal.Read.val_main_v61 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
      obtain ⟨a, b, d⟩ := after_ops (F := Ideal) (launchContents m c)
      exact ⟨(h c main_v61).trans a, (h c main_arg0).trans b, (h c main_arg1).trans d⟩)
    (run_seq scopedRefs_eq scopedSems_eq defs main (fun _ => ops) main_eq (fun _ => ops_sub) m ρ)

end Cert.ReferenceIdeal.RefValue

end
-- ==== Proof.RefIsSpec.lean ====
/-
  The reference program computes the specification.

  The reference is three "propagate" steps followed by `(h + x) · w`. Each step is read off operation by
  operation at explicit coordinates `(b, n, f)`: the clamped row norm, the normalised rows, the thresholded Gram
  matrix (the adjacency), its row sums (the degrees), the reciprocal square roots of the degrees, the adjacency
  scaled by row and by column, and the product with the step's input. Step `s + 1` reads the result of step `s`
  where step 1 reads the argument, so the three steps compose to `Spec.stepR t₃ (Spec.stepR t₂ (Spec.stepR t₁ x))`.
  A float sum's initial value is the zero word, which denotes `0`, and is rewritten away.
-/
import proofs.«136311_j35759897706671_2_alg».proof.Proof.RIRead
import proofs.«136311_j35759897706671_2_alg».proof.Proof.Spec
import Idealize.ShloMosaic.Lib.ValueIdx
import Idealize.ShloMosaic.PureOps.Ideal.Laws

noncomputable section

namespace Cert.ReferenceIdeal.RefValue

open Idealize.ShloMosaic Cert.ReferenceIdeal Cert.ReferenceIdeal.Gen Cert.ReferenceIdeal.Read
open Idealize.ShloMosaic.ValueIdx
open scoped BigOperators

/-- The reference's first argument: an `8 × 2048 × 128` array of extended reals. -/
abbrev X : Type := (⟨S8x2048x128, .f32⟩ : BufTy).Contents (Elt Ideal)
/-- The reference's second argument: a `128 × 128` array of extended reals. -/
abbrev W : Type := (⟨S128x128, .f32⟩ : BufTy).Contents (Elt Ideal)

/-! ## Step 1 (threshold `t1W`) -/

/-- The row sum of squares of step 1's input. -/
theorem s1_sumsq (x0 : X) (b : Fin 8) (n : Fin 2048) :
    val_main_call0_v1 (F := Ideal) x0 (ix2 b n) = ∑ k : Fin 128, x0 (ix3 b n k) * x0 (ix3 b n k) := by
  rw [val_main_call0_v1_apply, val_main_call0_cst_apply, Ideal.ofBits_def, Ideal.ofBits_zero_f32, zero_add]
  refine Finset.sum_congr rfl fun k _ => ?_
  have e : idx_main_call0_v1 (ix2 b n) k = ix3 b n k := funext fun a => by match a with | ⟨0, _⟩ => rfl | ⟨1, _⟩ => rfl | ⟨2, _⟩ => rfl
  rw [val_main_call0_v0_apply, Ideal.mulf_def, e]

/-- The clamped row norm of step 1's input. -/
theorem s1_nrm (x0 : X) (b : Fin 8) (n : Fin 2048) (z : Fin 1) :
    val_main_v2 (F := Ideal) x0 (ix3 b n z) = Cert.Spec.nrm (fun n f => x0 (ix3 b n f)) n := by
  have e : idx_main_call0_v2 (ix3 b n z) = ix2 b n := funext fun a => by match a with | ⟨0, _⟩ => rfl | ⟨1, _⟩ => rfl
  rw [val_main_v2_apply, val_main_v0_apply, val_main_call0_v2_apply, e, s1_sumsq, val_main_v1_apply, val_main_cst_apply,
    Ideal.hostUnary_sqrt_def, Ideal.maximumf_def, Ideal.ofBits_def]
  rfl

/-- The normalised rows of step 1's input. -/
theorem s1_xn (x0 : X) (b : Fin 8) (n : Fin 2048) (f : Fin 128) :
    val_main_v4 (F := Ideal) x0 (ix3 b n f) = Cert.Spec.xnR (fun n f => x0 (ix3 b n f)) n f := by
  have e : idx_main_v3 (ix3 b n f) = ix3 b n (0 : Fin 1) := funext fun a => by match a with | ⟨0, _⟩ => rfl | ⟨1, _⟩ => rfl | ⟨2, _⟩ => rfl
  rw [val_main_v4_apply, val_main_v3_apply, e, s1_nrm, Ideal.hostDivf_def]
  rfl

/-- The Gram matrix of the normalised rows. -/
theorem s1_gram (x0 : X) (b : Fin 8) (n m : Fin 2048) :
    val_main_v5 (F := Ideal) x0 (ix3 b n m) = ∑ f : Fin 128, Cert.Spec.xnR (fun n f => x0 (ix3 b n f)) n f * Cert.Spec.xnR (fun n f => x0 (ix3 b n f)) m f := by
  rw [val_main_v5_apply]
  refine Finset.sum_congr rfl fun k _ => ?_
  have el : lidx_main_v5 (ix3 b n m) k = ix3 b n k := funext fun a => by match a with | ⟨0, _⟩ => rfl | ⟨1, _⟩ => rfl | ⟨2, _⟩ => rfl
  have er : ridx_main_v5 (ix3 b n m) k = ix3 b m k := funext fun a => by match a with | ⟨0, _⟩ => rfl | ⟨1, _⟩ => rfl | ⟨2, _⟩ => rfl
  rw [el, er, s1_xn, s1_xn]

/-- The adjacency: the Gram matrix kept where it exceeds the threshold. -/
theorem s1_adj (x0 : X) (b : Fin 8) (n m : Fin 2048) :
    val_main_v8 (F := Ideal) x0 (ix3 b n m) = Cert.Spec.adj Cert.Spec.t1W (Cert.Spec.xnR (fun n f => x0 (ix3 b n f))) n m := by
  rw [val_main_v8_apply, val_main_v7_apply, val_main_v6_apply, val_main_cst_0_apply, val_main_call1_v1_apply, val_main_call1_v0_apply, val_main_cst_1_apply,
    s1_gram, Ideal.cmpf_def, Ideal.ofBits_def, Ideal.ofBits_def]
  rfl

/-- The degree of a row. -/
theorem s1_deg (x0 : X) (b : Fin 8) (n : Fin 2048) :
    val_main_v9 (F := Ideal) x0 (ix2 b n) = Cert.Spec.deg (Cert.Spec.adj Cert.Spec.t1W (Cert.Spec.xnR (fun n f => x0 (ix3 b n f)))) n := by
  rw [val_main_v9_apply, val_main_cst_2_apply, Ideal.ofBits_def, Ideal.ofBits_zero_f32, zero_add]
  unfold Cert.Spec.deg
  refine Finset.sum_congr rfl fun k _ => ?_
  have e : idx_main_v9 (ix2 b n) k = ix3 b n k := funext fun a => by match a with | ⟨0, _⟩ => rfl | ⟨1, _⟩ => rfl | ⟨2, _⟩ => rfl
  rw [e, s1_adj]

/-- The reciprocal square root of a row's degree, as the reference computes it: `1 / sqrt`. -/
theorem s1_is (x0 : X) (b : Fin 8) (n : Fin 2048) :
    val_main_v12 (F := Ideal) x0 (ix2 b n) = Ideal.div Cert.Spec.oneW (Ideal.sqrt (Cert.Spec.deg (Cert.Spec.adj Cert.Spec.t1W (Cert.Spec.xnR (fun n f => x0 (ix3 b n f)))) n)) := by
  rw [val_main_v12_apply, val_main_v11_apply, val_main_cst_3_apply, val_main_v10_apply, s1_deg, Ideal.hostDivf_def, Ideal.hostUnary_sqrt_def,
    Ideal.ofBits_def]
  rfl

/-- The adjacency scaled by row and by column. -/
theorem s1_scaled (x0 : X) (b : Fin 8) (n m : Fin 2048) :
    val_main_v18 (F := Ideal) x0 (ix3 b n m)
      = (Cert.Spec.adj Cert.Spec.t1W (Cert.Spec.xnR (fun n f => x0 (ix3 b n f))) n m * Ideal.div Cert.Spec.oneW (Ideal.sqrt (Cert.Spec.deg (Cert.Spec.adj Cert.Spec.t1W (Cert.Spec.xnR (fun n f => x0 (ix3 b n f)))) n)))
          * Ideal.div Cert.Spec.oneW (Ideal.sqrt (Cert.Spec.deg (Cert.Spec.adj Cert.Spec.t1W (Cert.Spec.xnR (fun n f => x0 (ix3 b n f)))) m)) := by
  have e1 : idx_main_v13 (idx_main_v14 (ix3 b n m)) = ix2 b n := funext fun a => by match a with | ⟨0, _⟩ => rfl | ⟨1, _⟩ => rfl
  have e2 : idx_main_v16 (idx_main_v17 (ix3 b n m)) = ix2 b m := funext fun a => by match a with | ⟨0, _⟩ => rfl | ⟨1, _⟩ => rfl
  rw [val_main_v18_apply, val_main_v15_apply, val_main_v14_apply, val_main_v13_apply, e1, val_main_v17_apply, val_main_v16_apply, e2, s1_adj,
    s1_is, s1_is, Ideal.mulf_def, Ideal.mulf_def]

/-- Step 1 of the reference is the specification's step on its input. -/
theorem step1 (x0 : X) (b : Fin 8) (n : Fin 2048) (f : Fin 128) :
    val_main_v19 (F := Ideal) x0 (ix3 b n f) = Cert.Spec.stepR Cert.Spec.t1W (fun n f => x0 (ix3 b n f)) n f := by
  rw [val_main_v19_apply]
  unfold Cert.Spec.stepR
  refine Finset.sum_congr rfl fun k _ => ?_
  have el : lidx_main_v19 (ix3 b n f) k = ix3 b n k := funext fun a => by match a with | ⟨0, _⟩ => rfl | ⟨1, _⟩ => rfl | ⟨2, _⟩ => rfl
  have er : ridx_main_v19 (ix3 b n f) k = ix3 b k f := funext fun a => by match a with | ⟨0, _⟩ => rfl | ⟨1, _⟩ => rfl | ⟨2, _⟩ => rfl
  rw [el, er, s1_scaled]

/-! ## Step 2 (threshold `t2W`) -/

/-- The row sum of squares of step 2's input. -/
theorem s2_sumsq (x0 : X) (b : Fin 8) (n : Fin 2048) :
    val_main_call2_v1 (F := Ideal) x0 (ix2 b n) = ∑ k : Fin 128, val_main_v19 (F := Ideal) x0 (ix3 b n k) * val_main_v19 (F := Ideal) x0 (ix3 b n k) := by
  rw [val_main_call2_v1_apply, val_main_call2_cst_apply, Ideal.ofBits_def, Ideal.ofBits_zero_f32, zero_add]
  refine Finset.sum_congr rfl fun k _ => ?_
  have e : idx_main_call2_v1 (ix2 b n) k = ix3 b n k := funext fun a => by match a with | ⟨0, _⟩ => rfl | ⟨1, _⟩ => rfl | ⟨2, _⟩ => rfl
  rw [val_main_call2_v0_apply, Ideal.mulf_def, e]

/-- The clamped row norm of step 2's input. -/
theorem s2_nrm (x0 : X) (b : Fin 8) (n : Fin 2048) (z : Fin 1) :
    val_main_v22 (F := Ideal) x0 (ix3 b n z) = Cert.Spec.nrm (fun n f => val_main_v19 (F := Ideal) x0 (ix3 b n f)) n := by
  have e : idx_main_call2_v2 (ix3 b n z) = ix2 b n := funext fun a => by match a with | ⟨0, _⟩ => rfl | ⟨1, _⟩ => rfl
  rw [val_main_v22_apply, val_main_v20_apply, val_main_call2_v2_apply, e, s2_sumsq, val_main_v21_apply, val_main_cst_4_apply,
    Ideal.hostUnary_sqrt_def, Ideal.maximumf_def, Ideal.ofBits_def]
  rfl

/-- The normalised rows of step 2's input. -/
theorem s2_xn (x0 : X) (b : Fin 8) (n : Fin 2048) (f : Fin 128) :
    val_main_v24 (F := Ideal) x0 (ix3 b n f) = Cert.Spec.xnR (fun n f => val_main_v19 (F := Ideal) x0 (ix3 b n f)) n f := by
  have e : idx_main_v23 (ix3 b n f) = ix3 b n (0 : Fin 1) := funext fun a => by match a with | ⟨0, _⟩ => rfl | ⟨1, _⟩ => rfl | ⟨2, _⟩ => rfl
  rw [val_main_v24_apply, val_main_v23_apply, e, s2_nrm, Ideal.hostDivf_def]
  rfl

/-- The Gram matrix of the normalised rows. -/
theorem s2_gram (x0 : X) (b : Fin 8) (n m : Fin 2048) :
    val_main_v25 (F := Ideal) x0 (ix3 b n m) = ∑ f : Fin 128, Cert.Spec.xnR (fun n f => val_main_v19 (F := Ideal) x0 (ix3 b n f)) n f * Cert.Spec.xnR (fun n f => val_main_v19 (F := Ideal) x0 (ix3 b n f)) m f := by
  rw [val_main_v25_apply]
  refine Finset.sum_congr rfl fun k _ => ?_
  have el : lidx_main_v25 (ix3 b n m) k = ix3 b n k := funext fun a => by match a with | ⟨0, _⟩ => rfl | ⟨1, _⟩ => rfl | ⟨2, _⟩ => rfl
  have er : ridx_main_v25 (ix3 b n m) k = ix3 b m k := funext fun a => by match a with | ⟨0, _⟩ => rfl | ⟨1, _⟩ => rfl | ⟨2, _⟩ => rfl
  rw [el, er, s2_xn, s2_xn]

/-- The adjacency: the Gram matrix kept where it exceeds the threshold. -/
theorem s2_adj (x0 : X) (b : Fin 8) (n m : Fin 2048) :
    val_main_v28 (F := Ideal) x0 (ix3 b n m) = Cert.Spec.adj Cert.Spec.t2W (Cert.Spec.xnR (fun n f => val_main_v19 (F := Ideal) x0 (ix3 b n f))) n m := by
  rw [val_main_v28_apply, val_main_v27_apply, val_main_v26_apply, val_main_cst_5_apply, val_main_call3_v1_apply, val_main_call3_v0_apply, val_main_cst_6_apply,
    s2_gram, Ideal.cmpf_def, Ideal.ofBits_def, Ideal.ofBits_def]
  rfl

/-- The degree of a row. -/
theorem s2_deg (x0 : X) (b : Fin 8) (n : Fin 2048) :
    val_main_v29 (F := Ideal) x0 (ix2 b n) = Cert.Spec.deg (Cert.Spec.adj Cert.Spec.t2W (Cert.Spec.xnR (fun n f => val_main_v19 (F := Ideal) x0 (ix3 b n f)))) n := by
  rw [val_main_v29_apply, val_main_cst_7_apply, Ideal.ofBits_def, Ideal.ofBits_zero_f32, zero_add]
  unfold Cert.Spec.deg
  refine Finset.sum_congr rfl fun k _ => ?_
  have e : idx_main_v29 (ix2 b n) k = ix3 b n k := funext fun a => by match a with | ⟨0, _⟩ => rfl | ⟨1, _⟩ => rfl | ⟨2, _⟩ => rfl
  rw [e, s2_adj]

/-- The reciprocal square root of a row's degree, as the reference computes it: `1 / sqrt`. -/
theorem s2_is (x0 : X) (b : Fin 8) (n : Fin 2048) :
    val_main_v32 (F := Ideal) x0 (ix2 b n) = Ideal.div Cert.Spec.oneW (Ideal.sqrt (Cert.Spec.deg (Cert.Spec.adj Cert.Spec.t2W (Cert.Spec.xnR (fun n f => val_main_v19 (F := Ideal) x0 (ix3 b n f)))) n)) := by
  rw [val_main_v32_apply, val_main_v31_apply, val_main_cst_8_apply, val_main_v30_apply, s2_deg, Ideal.hostDivf_def, Ideal.hostUnary_sqrt_def,
    Ideal.ofBits_def]
  rfl

/-- The adjacency scaled by row and by column. -/
theorem s2_scaled (x0 : X) (b : Fin 8) (n m : Fin 2048) :
    val_main_v38 (F := Ideal) x0 (ix3 b n m)
      = (Cert.Spec.adj Cert.Spec.t2W (Cert.Spec.xnR (fun n f => val_main_v19 (F := Ideal) x0 (ix3 b n f))) n m * Ideal.div Cert.Spec.oneW (Ideal.sqrt (Cert.Spec.deg (Cert.Spec.adj Cert.Spec.t2W (Cert.Spec.xnR (fun n f => val_main_v19 (F := Ideal) x0 (ix3 b n f)))) n)))
          * Ideal.div Cert.Spec.oneW (Ideal.sqrt (Cert.Spec.deg (Cert.Spec.adj Cert.Spec.t2W (Cert.Spec.xnR (fun n f => val_main_v19 (F := Ideal) x0 (ix3 b n f)))) m)) := by
  have e1 : idx_main_v33 (idx_main_v34 (ix3 b n m)) = ix2 b n := funext fun a => by match a with | ⟨0, _⟩ => rfl | ⟨1, _⟩ => rfl
  have e2 : idx_main_v36 (idx_main_v37 (ix3 b n m)) = ix2 b m := funext fun a => by match a with | ⟨0, _⟩ => rfl | ⟨1, _⟩ => rfl
  rw [val_main_v38_apply, val_main_v35_apply, val_main_v34_apply, val_main_v33_apply, e1, val_main_v37_apply, val_main_v36_apply, e2, s2_adj,
    s2_is, s2_is, Ideal.mulf_def, Ideal.mulf_def]

/-- Step 2 of the reference is the specification's step on its input. -/
theorem step2 (x0 : X) (b : Fin 8) (n : Fin 2048) (f : Fin 128) :
    val_main_v39 (F := Ideal) x0 (ix3 b n f) = Cert.Spec.stepR Cert.Spec.t2W (fun n f => val_main_v19 (F := Ideal) x0 (ix3 b n f)) n f := by
  rw [val_main_v39_apply]
  unfold Cert.Spec.stepR
  refine Finset.sum_congr rfl fun k _ => ?_
  have el : lidx_main_v39 (ix3 b n f) k = ix3 b n k := funext fun a => by match a with | ⟨0, _⟩ => rfl | ⟨1, _⟩ => rfl | ⟨2, _⟩ => rfl
  have er : ridx_main_v39 (ix3 b n f) k = ix3 b k f := funext fun a => by match a with | ⟨0, _⟩ => rfl | ⟨1, _⟩ => rfl | ⟨2, _⟩ => rfl
  rw [el, er, s2_scaled]

/-! ## Step 3 (threshold `t3W`) -/

/-- The row sum of squares of step 3's input. -/
theorem s3_sumsq (x0 : X) (b : Fin 8) (n : Fin 2048) :
    val_main_call4_v1 (F := Ideal) x0 (ix2 b n) = ∑ k : Fin 128, val_main_v39 (F := Ideal) x0 (ix3 b n k) * val_main_v39 (F := Ideal) x0 (ix3 b n k) := by
  rw [val_main_call4_v1_apply, val_main_call4_cst_apply, Ideal.ofBits_def, Ideal.ofBits_zero_f32, zero_add]
  refine Finset.sum_congr rfl fun k _ => ?_
  have e : idx_main_call4_v1 (ix2 b n) k = ix3 b n k := funext fun a => by match a with | ⟨0, _⟩ => rfl | ⟨1, _⟩ => rfl | ⟨2, _⟩ => rfl
  rw [val_main_call4_v0_apply, Ideal.mulf_def, e]

/-- The clamped row norm of step 3's input. -/
theorem s3_nrm (x0 : X) (b : Fin 8) (n : Fin 2048) (z : Fin 1) :
    val_main_v42 (F := Ideal) x0 (ix3 b n z) = Cert.Spec.nrm (fun n f => val_main_v39 (F := Ideal) x0 (ix3 b n f)) n := by
  have e : idx_main_call4_v2 (ix3 b n z) = ix2 b n := funext fun a => by match a with | ⟨0, _⟩ => rfl | ⟨1, _⟩ => rfl
  rw [val_main_v42_apply, val_main_v40_apply, val_main_call4_v2_apply, e, s3_sumsq, val_main_v41_apply, val_main_cst_9_apply,
    Ideal.hostUnary_sqrt_def, Ideal.maximumf_def, Ideal.ofBits_def]
  rfl

/-- The normalised rows of step 3's input. -/
theorem s3_xn (x0 : X) (b : Fin 8) (n : Fin 2048) (f : Fin 128) :
    val_main_v44 (F := Ideal) x0 (ix3 b n f) = Cert.Spec.xnR (fun n f => val_main_v39 (F := Ideal) x0 (ix3 b n f)) n f := by
  have e : idx_main_v43 (ix3 b n f) = ix3 b n (0 : Fin 1) := funext fun a => by match a with | ⟨0, _⟩ => rfl | ⟨1, _⟩ => rfl | ⟨2, _⟩ => rfl
  rw [val_main_v44_apply, val_main_v43_apply, e, s3_nrm, Ideal.hostDivf_def]
  rfl

/-- The Gram matrix of the normalised rows. -/
theorem s3_gram (x0 : X) (b : Fin 8) (n m : Fin 2048) :
    val_main_v45 (F := Ideal) x0 (ix3 b n m) = ∑ f : Fin 128, Cert.Spec.xnR (fun n f => val_main_v39 (F := Ideal) x0 (ix3 b n f)) n f * Cert.Spec.xnR (fun n f => val_main_v39 (F := Ideal) x0 (ix3 b n f)) m f := by
  rw [val_main_v45_apply]
  refine Finset.sum_congr rfl fun k _ => ?_
  have el : lidx_main_v45 (ix3 b n m) k = ix3 b n k := funext fun a => by match a with | ⟨0, _⟩ => rfl | ⟨1, _⟩ => rfl | ⟨2, _⟩ => rfl
  have er : ridx_main_v45 (ix3 b n m) k = ix3 b m k := funext fun a => by match a with | ⟨0, _⟩ => rfl | ⟨1, _⟩ => rfl | ⟨2, _⟩ => rfl
  rw [el, er, s3_xn, s3_xn]

/-- The adjacency: the Gram matrix kept where it exceeds the threshold. -/
theorem s3_adj (x0 : X) (b : Fin 8) (n m : Fin 2048) :
    val_main_v48 (F := Ideal) x0 (ix3 b n m) = Cert.Spec.adj Cert.Spec.t3W (Cert.Spec.xnR (fun n f => val_main_v39 (F := Ideal) x0 (ix3 b n f))) n m := by
  rw [val_main_v48_apply, val_main_v47_apply, val_main_v46_apply, val_main_cst_10_apply, val_main_call5_v1_apply, val_main_call5_v0_apply, val_main_cst_11_apply,
    s3_gram, Ideal.cmpf_def, Ideal.ofBits_def, Ideal.ofBits_def]
  rfl

/-- The degree of a row. -/
theorem s3_deg (x0 : X) (b : Fin 8) (n : Fin 2048) :
    val_main_v49 (F := Ideal) x0 (ix2 b n) = Cert.Spec.deg (Cert.Spec.adj Cert.Spec.t3W (Cert.Spec.xnR (fun n f => val_main_v39 (F := Ideal) x0 (ix3 b n f)))) n := by
  rw [val_main_v49_apply, val_main_cst_12_apply, Ideal.ofBits_def, Ideal.ofBits_zero_f32, zero_add]
  unfold Cert.Spec.deg
  refine Finset.sum_congr rfl fun k _ => ?_
  have e : idx_main_v49 (ix2 b n) k = ix3 b n k := funext fun a => by match a with | ⟨0, _⟩ => rfl | ⟨1, _⟩ => rfl | ⟨2, _⟩ => rfl
  rw [e, s3_adj]

/-- The reciprocal square root of a row's degree, as the reference computes it: `1 / sqrt`. -/
theorem s3_is (x0 : X) (b : Fin 8) (n : Fin 2048) :
    val_main_v52 (F := Ideal) x0 (ix2 b n) = Ideal.div Cert.Spec.oneW (Ideal.sqrt (Cert.Spec.deg (Cert.Spec.adj Cert.Spec.t3W (Cert.Spec.xnR (fun n f => val_main_v39 (F := Ideal) x0 (ix3 b n f)))) n)) := by
  rw [val_main_v52_apply, val_main_v51_apply, val_main_cst_13_apply, val_main_v50_apply, s3_deg, Ideal.hostDivf_def, Ideal.hostUnary_sqrt_def,
    Ideal.ofBits_def]
  rfl

/-- The adjacency scaled by row and by column. -/
theorem s3_scaled (x0 : X) (b : Fin 8) (n m : Fin 2048) :
    val_main_v58 (F := Ideal) x0 (ix3 b n m)
      = (Cert.Spec.adj Cert.Spec.t3W (Cert.Spec.xnR (fun n f => val_main_v39 (F := Ideal) x0 (ix3 b n f))) n m * Ideal.div Cert.Spec.oneW (Ideal.sqrt (Cert.Spec.deg (Cert.Spec.adj Cert.Spec.t3W (Cert.Spec.xnR (fun n f => val_main_v39 (F := Ideal) x0 (ix3 b n f)))) n)))
          * Ideal.div Cert.Spec.oneW (Ideal.sqrt (Cert.Spec.deg (Cert.Spec.adj Cert.Spec.t3W (Cert.Spec.xnR (fun n f => val_main_v39 (F := Ideal) x0 (ix3 b n f)))) m)) := by
  have e1 : idx_main_v53 (idx_main_v54 (ix3 b n m)) = ix2 b n := funext fun a => by match a with | ⟨0, _⟩ => rfl | ⟨1, _⟩ => rfl
  have e2 : idx_main_v56 (idx_main_v57 (ix3 b n m)) = ix2 b m := funext fun a => by match a with | ⟨0, _⟩ => rfl | ⟨1, _⟩ => rfl
  rw [val_main_v58_apply, val_main_v55_apply, val_main_v54_apply, val_main_v53_apply, e1, val_main_v57_apply, val_main_v56_apply, e2, s3_adj,
    s3_is, s3_is, Ideal.mulf_def, Ideal.mulf_def]

/-- Step 3 of the reference is the specification's step on its input. -/
theorem step3 (x0 : X) (b : Fin 8) (n : Fin 2048) (f : Fin 128) :
    val_main_v59 (F := Ideal) x0 (ix3 b n f) = Cert.Spec.stepR Cert.Spec.t3W (fun n f => val_main_v39 (F := Ideal) x0 (ix3 b n f)) n f := by
  rw [val_main_v59_apply]
  unfold Cert.Spec.stepR
  refine Finset.sum_congr rfl fun k _ => ?_
  have el : lidx_main_v59 (ix3 b n f) k = ix3 b n k := funext fun a => by match a with | ⟨0, _⟩ => rfl | ⟨1, _⟩ => rfl | ⟨2, _⟩ => rfl
  have er : ridx_main_v59 (ix3 b n f) k = ix3 b k f := funext fun a => by match a with | ⟨0, _⟩ => rfl | ⟨1, _⟩ => rfl | ⟨2, _⟩ => rfl
  rw [el, er, s3_scaled]

/-! ## The three steps composed, the residual sum and the final product -/

/-- The reference's result is the specification at every index. -/
theorem ref_is_spec (x0 : (⟨S8x2048x128, .f32⟩ : BufTy).Contents (Elt Ideal)) (x1 : (⟨S128x128, .f32⟩ : BufTy).Contents (Elt Ideal))
    (b : Fin 8) (n : Fin 2048) (o : Fin 128) :
    Cert.ReferenceIdeal.Read.val_main_v61 (F := Ideal) x0 x1 (ValueIdx.ix3 b n o)
      = Cert.Spec.finR (fun n f => x0 (ValueIdx.ix3 b n f)) (fun f o => x1 (ValueIdx.ix2 f o)) n o := by
  have h1 : (fun n f => val_main_v19 (F := Ideal) x0 (ix3 b n f))
      = Cert.Spec.stepR Cert.Spec.t1W (fun n f => x0 (ix3 b n f)) :=
    funext fun n => funext fun f => step1 x0 b n f
  have h2 : (fun n f => val_main_v39 (F := Ideal) x0 (ix3 b n f))
      = Cert.Spec.stepR Cert.Spec.t2W (Cert.Spec.stepR Cert.Spec.t1W (fun n f => x0 (ix3 b n f))) := by
    rw [← h1]
    exact funext fun n => funext fun f => step2 x0 b n f
  rw [val_main_v61_apply]
  unfold Cert.Spec.finR
  refine Finset.sum_congr rfl fun k _ => ?_
  have el : lidx_main_v61 (ix3 b n o) k = ix3 b n k := funext fun a => by match a with | ⟨0, _⟩ => rfl | ⟨1, _⟩ => rfl | ⟨2, _⟩ => rfl
  have er : ridx_main_v61 (ix3 b n o) k = ix2 k o := funext fun a => by match a with | ⟨0, _⟩ => rfl | ⟨1, _⟩ => rfl
  rw [el, er, val_main_v60_apply, Ideal.addf_def, step3, h2]

end Cert.ReferenceIdeal.RefValue

end
-- ==== Proof.LibRealEntry.lean ====
/-
  Finiteness of an extended real, as the comparison a precondition prints.

  On the extended reals |a| = max a (−a) is +∞ at both infinities, so the ordered comparison |a| < +∞ — against the
  binary32 pattern of +∞ — holds exactly of the real numbers.
-/
import Idealize.ShloMosaic.PureOps.Ideal

noncomputable section

namespace Cert.LibRealEntry

open Idealize.ShloMosaic

/-- An extended real whose absolute value compares below the pattern of +∞ is a real number. -/
theorem real_of_abs_lt (a : EReal)
    (h : Ideal.cmp .olt (max a (-a)) (Ideal.ofBits .f32 0x7F800000#32) = 1#1) : ∃ r : ℝ, a = (r : EReal) := by
  have hinf : Ideal.ofBits .f32 0x7F800000#32 = ⊤ := by simp [Ideal.ofBits, Ideal.ieee]
  rw [hinf] at h
  induction a using EReal.rec with
  | bot => simp [Ideal.cmp] at h
  | coe r => exact ⟨r, rfl⟩
  | top => simp [Ideal.cmp] at h

end Cert.LibRealEntry

end
-- ==== Proof.FiniteInputs.lean ====
/-
  The precondition decoded: every entry of the first argument is a real number.

  The precondition is the conjunction of two "all entries satisfy |a| < +∞" tests, one per argument, each a
  reduction by `and` over all axes starting from 1. If the conjunction is 1 then the first reduction is 1, so the
  test holds at every index of the first argument; and on the extended reals |a| < +∞ says that `a` is neither
  infinity.
-/
import proofs.«136311_j35759897706671_2_alg».proof.Pre_finite_inputs
import proofs.«136311_j35759897706671_2_alg».proof.Proof.LibRealEntry
import Idealize.ShloMosaic.Lib.ReduceAll
import Idealize.ShloMosaic.Lib.ValueIdx

noncomputable section

namespace Cert.Pre_finite_inputs.Decode

open Idealize.ShloMosaic Cert.Pre_finite_inputs

variable [Cert.Pre_finite_inputs.Facts]

/-- The scalar shape has one index. -/
instance : Subsingleton Cert.Pre_finite_inputs.S_.Idx := ⟨fun a b => funext fun d => d.elim0⟩

/-- Under the precondition every entry of the first argument is neither infinity. -/
theorem x_real (x : FVec Ideal Cert.Pre_finite_inputs.S8x2048x128 .f32) (w : FVec Ideal Cert.Pre_finite_inputs.S128x128 .f32)
    (h : Cert.Pre_finite_inputs.fn (F := Ideal) x w = fun _ => 1#1) (i : Cert.Pre_finite_inputs.S8x2048x128.Idx) : x i ≠ ⊤ ∧ x i ≠ ⊥ := by
  have e := congrFun h ValueIdx.ix0
  dsimp only [Cert.Pre_finite_inputs.fn, andi] at e
  obtain ⟨e1, -⟩ := IntOp.andi_eq_one.1 e
  have e2 := Host.reduce_andi_all _ _ _ _ _ e1 i
  obtain ⟨r, hr⟩ := Cert.LibRealEntry.real_of_abs_lt (x i) e2
  rw [hr]
  exact ⟨EReal.coe_ne_top r, EReal.coe_ne_bot r⟩

end Cert.Pre_finite_inputs.Decode

end
-- ==== Proof.KernelBlock.lean ====
/-
  What the kernel body leaves in its output block, entry by entry: the frame's proof data names the block by its
  value, so at (0, n, o) it IS the specification's value, in the kernel's arrangement, at row n and column o of the
  sample the input block holds.
-/
import proofs.«136311_j35759897706671_2_alg».proof.Proof.KIFrame
import proofs.«136311_j35759897706671_2_alg».proof.Proof.Spec
import Idealize.ShloMosaic.Lib.ValueIdx

noncomputable section

namespace Cert.KernelIdeal.BlockVal

open Cert.KernelIdeal Cert.KernelIdeal.Gen Idealize.ShloMosaic

/-- The output block at (0, n, o): the three propagate steps on the sample, plus the sample, times the weights. -/
theorem kernel_block (c : Dev nD) (i : grid0.Coords) (arg1 : Memref sig .tc .vmem S1x2048x128 .f32) (harg1 : arg1.IsWhole) (arg2 : Memref sig .tc .vmem S128x128 .f32) (harg2 : arg2.IsWhole) (arg3 : Memref sig .tc .vmem S1x2048x128 .f32) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x2048 .bf16) (harg8 : arg8.IsWhole)
    (x0 : Vec Ideal S1x2048x128 .f32) (x1 : Vec Ideal S128x128 .f32) (n : Fin 2048) (o : Fin 128) :
    Cert.KernelIdeal.Gen.out0_A_2 c i arg1 harg1 arg2 harg2 arg3 harg3 arg4 harg4 arg5 harg5 arg6 harg6 arg7 harg7 arg8 harg8 x0 x1 (ValueIdx.ix3 (0 : Fin 1) n o)
      = Cert.Spec.finK (fun n f => x0 (ValueIdx.ix3 (0 : Fin 1) n f)) (fun f o => x1 (ValueIdx.ix2 f o)) n o := rfl

end Cert.KernelIdeal.BlockVal

end
-- ==== Proof.KernelArray.lean ====
/-
  From the kernel's blocks to its output array.

  The kernel runs at eight grid points; point `t` reads sample `t` of the first argument (block `(t, 0, 0)` of
  extent `1 × 2048 × 128`) and the whole second argument, and writes back block `(t, 0, 0)` of the output. The
  blocks of distinct points are disjoint and every point writes its block back, so index `(b, n, o)` of the output
  array after the run holds what point `b` left at `(0, n, o)` of its block; that is the specification's value on
  sample `b`, by the block lemma, once the point's input blocks are read as sample `b` and the weights.
-/
import proofs.«136311_j35759897706671_2_alg».proof.Proof.KIValue
import proofs.«136311_j35759897706671_2_alg».proof.Proof.KernelBlock
import proofs.«136311_j35759897706671_2_alg».proof.Proof.Spec
import Idealize.ShloMosaic.Lib.ValueIdx

noncomputable section

namespace Cert.KernelIdeal.ArrVal

open Cert.KernelIdeal Cert.KernelIdeal.Gen Cert.KernelIdeal.Value Idealize.ShloMosaic Idealize.ShloMosaic.TcCoe Idealize.ShloMosaic.ValueIdx Idealize.SL.Sem

variable (m : (ℓ : Loc nD τ sig) → Buf (Elt Ideal) ℓ)

/-- The index maps, decided over the grid's eight points: at point `t` the first argument's window and the output's
    are at block `(t, 0, 0)`, the weights' window at block `(0, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- The first argument's block at point `t` is sample `t` of the argument. -/
theorem xblk_at (c : Dev nD) (t : Fin cfg0.N) (y : S1x2048x128.Idx) (k : S8x2048x128.Idx)
    (h0 : (k 0).val = t.val) (h1 : (k 1).val = (y 1).val) (h2 : (k 2).val = (y 2).val) :
    (iblk m c 0 t : Vec Ideal S1x2048x128 .f32) y = (m ((c : Thread nD τ).loc main_arg0) : S8x2048x128.Idx → Elt Ideal .f32) k := by
  obtain ⟨e0, e1, e2, -⟩ := idx_facts t
  unfold iblk
  rw [View.read_apply]
  show V m c main_arg0 _ = m (c.tc.loc main_arg0) _
  unfold V
  congr 1
  funext a
  apply Fin.ext
  have hy : (y 0).val < 1 := (y 0).isLt
  match a with
  | ⟨0, _⟩ => show win0_0.index t 0 * 1 + 1 * (y 0).val = (k 0).val; rw [e0, h0]; omega
  | ⟨1, _⟩ => show win0_0.index t 1 * 2048 + 1 * (y 1).val = (k 1).val; rw [e1, h1]; omega
  | ⟨2, _⟩ => show win0_0.index t 2 * 128 + 1 * (y 2).val = (k 2).val; rw [e2, h2]; omega

/-- The weights' block at every point is the whole second argument. -/
theorem wblk_at (c : Dev nD) (t : Fin cfg0.N) (y : S128x128.Idx) :
    (iblk m c 1 t : Vec Ideal S128x128 .f32) y = (m ((c : Thread nD τ).loc main_arg1) : S128x128.Idx → Elt Ideal .f32) y := by
  obtain ⟨-, -, -, e0, e1, -⟩ := idx_facts t
  unfold iblk
  rw [View.read_apply]
  show V m c main_arg1 _ = m (c.tc.loc main_arg1) _
  unfold V
  congr 1
  funext a
  apply Fin.ext
  match a with
  | ⟨0, _⟩ => show win0_1.index t 0 * 128 + 1 * (y 0).val = (y 0).val; rw [e0]; omega
  | ⟨1, _⟩ => show win0_1.index t 1 * 128 + 1 * (y 1).val = (y 1).val; rw [e1]; omega

/-- An index of the output array whose first coordinate is `t` holds, after the run, what point `t` left in its block:
    the output's blocks are pairwise disjoint, and every point writes its block back. -/
theorem arr_at_point (c : Dev nD) (t : Fin cfg0.N) (n : Fin 2048) (o : Fin 128) (k : S8x2048x128.Idx)
    (h0 : (k 0).val = t.val) (h1 : (k 1).val = n.val) (h2 : (k 2).val = o.val) :
    (dats m 0 c).arrAt 2 cfg0.N k
      = out0_A_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (ix3 (0 : Fin 1) n o) := by
  obtain ⟨-, -, -, -, -, e0, e1, e2⟩ := idx_facts t
  have hb := congrFun (blocks2 m c t (flush0_2 t)) (ix3 (0 : Fin 1) n o)
  rw [View.read_apply, flushed2_A] at hb
  have he : ((cfg0.win 2).blk t).view.emb (ix3 (0 : Fin 1) n o) = k := by
    funext a
    apply Fin.ext
    match a with
    | ⟨0, _⟩ => show win0_2.index t 0 * 1 + 1 * 0 = (k 0).val; rw [e0, h0]; omega
    | ⟨1, _⟩ => show win0_2.index t 1 * 2048 + 1 * n.val = (k 1).val; rw [e1, h1]; omega
    | ⟨2, _⟩ => show win0_2.index t 2 * 128 + 1 * o.val = (k 2).val; rw [e2, h2]; omega
  rw [he] at hb
  exact hb

/-- The output array after the run, at index `(b, n, o)`: point `b` wrote it. -/
theorem arr_at (c : Dev nD) (b : Fin 8) (n : Fin 2048) (o : Fin 128) :
    (dats m 0 c).arrAt 2 cfg0.N (ix3 b n o)
      = Cert.Spec.finK (fun n f => m ((c : Thread nD τ).loc main_arg0) (ix3 b n f)) (fun f o => m ((c : Thread nD τ).loc main_arg1) (ix2 f o)) n o := by
  have hx : (fun (n : Fin 2048) (f : Fin 128) => (iblk m c 0 (⟨b.val, b.isLt⟩ : Fin cfg0.N) : Vec Ideal S1x2048x128 .f32) (ix3 (0 : Fin 1) n f))
      = fun n f => (m ((c : Thread nD τ).loc main_arg0) : S8x2048x128.Idx → Elt Ideal .f32) (ix3 b n f) :=
    funext fun n => funext fun f => xblk_at m c ⟨b.val, b.isLt⟩ (ix3 (0 : Fin 1) n f) (ix3 b n f) rfl rfl rfl
  have hw : (fun (f o : Fin 128) => (iblk m c 1 (⟨b.val, b.isLt⟩ : Fin cfg0.N) : Vec Ideal S128x128 .f32) (ix2 f o))
      = fun f o => (m ((c : Thread nD τ).loc main_arg1) : S128x128.Idx → Elt Ideal .f32) (ix2 f o) :=
    funext fun f => funext fun o => wblk_at m c ⟨b.val, b.isLt⟩ (ix2 f o)
  refine (arr_at_point m c ⟨b.val, b.isLt⟩ n o (ix3 b n o) rfl rfl rfl).trans ?_
  refine (Cert.KernelIdeal.BlockVal.kernel_block c (grid0.coords ⟨b.val, b.isLt⟩) (ms0_0 ⟨b.val, b.isLt⟩) (hs0_0 ⟨b.val, b.isLt⟩) (ms0_1 ⟨b.val, b.isLt⟩) (hs0_1 ⟨b.val, b.isLt⟩) (ms0_2 ⟨b.val, b.isLt⟩) (hs0_2 ⟨b.val, b.isLt⟩) scM0_0 (Memref.isWhole_whole _) scM0_1 (Memref.isWhole_whole _) scM0_2 (Memref.isWhole_whole _) scM0_3 (Memref.isWhole_whole _) scM0_4 (Memref.isWhole_whole _) (iblk m c 0 ⟨b.val, b.isLt⟩) (iblk m c 1 ⟨b.val, b.isLt⟩) n o).trans ?_
  rw [hx, hw]

end Cert.KernelIdeal.ArrVal

end
-- ==== Proof.lean ====
/-
  The certificate of the graph-convolution kernel against its jnp reference.

  Both programs compute, per sample x (2048 nodes × 128 features) and weights w, three "propagate" steps
  h ↦ D^(-1/2) A D^(-1/2) h — A the cosine-similarity Gram matrix of the rows of h, thresholded; D its row sums —
  and then (h₃ + x) · w. The kernel blocks the adjacency in four column chunks, caches it, multiplies by a reciprocal
  norm, takes rsqrt of the degree and scales rows before and after the product; the reference divides, takes
  1 / sqrt, and scales the adjacency's rows and columns. On the extended reals the two arrangements agree because
  every entry stays a real number through the three steps (the inputs are finite): wherever the inverse root of a
  degree is infinite the adjacency's row and column vanish, so the infinite factor only ever meets zeros
  (Proof/GraphLaw.lean). Proof/RefIsSpec.lean reads the reference's operations index by index as the specification's
  reference arrangement and Proof/RefRun.lean runs them stage by stage; the kernel body's triple names its output
  block by the specification's kernel arrangement (Proof/KIRunA.lean: the six counted loops through Proof/LoopDeg.lean
  and Proof/LoopAcc.lean, one propagate step through Proof/StepVal.lean, the straight-line stores through
  Proof/PayVal.lean); Proof/KernelArray.lean passes from the blocks to the output array; Proof/FiniteInputs.lean
  decodes the precondition.
-/
import proofs.«136311_j35759897706671_2_alg».proof.Defs
import proofs.«136311_j35759897706671_2_alg».proof.Proof.Gen.Kernel
import proofs.«136311_j35759897706671_2_alg».proof.Proof.Gen.KernelIdeal
import proofs.«136311_j35759897706671_2_alg».proof.Proof.Gen.ReferenceIdeal
import proofs.«136311_j35759897706671_2_alg».proof.Proof.Gen.Pre_finite_inputs
import proofs.«136311_j35759897706671_2_alg».proof.Proof.KFrame
import proofs.«136311_j35759897706671_2_alg».proof.Proof.KIFrame
import proofs.«136311_j35759897706671_2_alg».proof.Proof.KIValue
import proofs.«136311_j35759897706671_2_alg».proof.Proof.RefRun
import proofs.«136311_j35759897706671_2_alg».proof.Proof.RefIsSpec
import proofs.«136311_j35759897706671_2_alg».proof.Proof.GraphLaw
import proofs.«136311_j35759897706671_2_alg».proof.Proof.FiniteInputs
import proofs.«136311_j35759897706671_2_alg».proof.Proof.KernelArray
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and keeps its arguments: the frame run of its body at every grid point. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.RefValue.run_val m ρ)

/-- The ideal pass rewrote nothing. -/
theorem preserves : Cert.preserves_Kernel_KernelIdeal := trivial

/-- From memories agreeing on finite arguments both programs end with one result array: entry (b, n, o) is the
    specification's value on sample b, in the kernel's arrangement on one side and the reference's on the other,
    and the two arrangements agree on real inputs. -/
theorem algebraic : Cert.algebraic_KernelIdeal_ReferenceIdeal := by
  intro m ρ m' ρ' hpre hagree
  refine ⟨_, Cert.KernelIdeal.Value.run_blocks m ρ, ?_⟩
  refine (θ_run Cert.ReferenceIdeal.defs _ _).mono (fun _ h c => ⟨(h c).1.trans ?_, (h c).2⟩)
    (Cert.ReferenceIdeal.RefValue.run_val m' ρ')
  rw [(hagree c).1, (hagree c).2]
  funext i
  obtain ⟨b, n, o, rfl⟩ : ∃ (b : Fin 8) (n : Fin 2048) (o : Fin 128), i = ix3 b n o := ⟨i 0, i 1, i 2, eq_ix3 i⟩
  rw [Cert.ReferenceIdeal.RefValue.ref_is_spec, Cert.KernelIdeal.ArrVal.arr_at m c b n o]
  exact (congrFun (congrFun (Cert.Spec.fin_eq _ _
    (fun n f => Cert.Pre_finite_inputs.Decode.x_real _ _ (hpre c) (ix3 b n f))) n) o).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
